-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x172 : Shape := ⟨2, ![500000, 172]⟩
abbrev S500000 : Shape := ⟨1, ![500000]⟩
abbrev S172 : Shape := ⟨1, ![172]⟩
abbrev S344x688 : Shape := ⟨2, ![344, 688]⟩
abbrev S344 : Shape := ⟨1, ![344]⟩
abbrev S100x344 : Shape := ⟨2, ![100, 344]⟩
abbrev S100 : Shape := ⟨1, ![100]⟩
abbrev S516x100 : Shape := ⟨2, ![516, 100]⟩
abbrev S516x172 : Shape := ⟨2, ![516, 172]⟩
abbrev S516 : Shape := ⟨1, ![516]⟩
abbrev S100000 : Shape := ⟨1, ![100000]⟩
abbrev S_ : Shape := ⟨0, ![]⟩

class Facts : Prop where
  bcast_S_S500000x172 : S_.BroadcastsInDim S500000x172 (![] : Fin 0 → Fin S500000x172.rank)
  reducesTo_S500000x172_S_d0_1 : S500000x172.ReducesTo [0, 1] S_
  h_S_ : 0 < S_.numel
  bcast_S_S500000 : S_.BroadcastsInDim S500000 (![] : Fin 0 → Fin S500000.rank)
  reducesTo_S500000_S_d0 : S500000.ReducesTo [0] S_
  bcast_S_S172 : S_.BroadcastsInDim S172 (![] : Fin 0 → Fin S172.rank)
  reducesTo_S172_S_d0 : S172.ReducesTo [0] S_
  bcast_S_S344x688 : S_.BroadcastsInDim S344x688 (![] : Fin 0 → Fin S344x688.rank)
  reducesTo_S344x688_S_d0_1 : S344x688.ReducesTo [0, 1] S_
  bcast_S_S344 : S_.BroadcastsInDim S344 (![] : Fin 0 → Fin S344.rank)
  reducesTo_S344_S_d0 : S344.ReducesTo [0] S_
  bcast_S_S100x344 : S_.BroadcastsInDim S100x344 (![] : Fin 0 → Fin S100x344.rank)
  reducesTo_S100x344_S_d0_1 : S100x344.ReducesTo [0, 1] S_
  bcast_S_S100 : S_.BroadcastsInDim S100 (![] : Fin 0 → Fin S100.rank)
  reducesTo_S100_S_d0 : S100.ReducesTo [0] S_
  bcast_S_S516x100 : S_.BroadcastsInDim S516x100 (![] : Fin 0 → Fin S516x100.rank)
  reducesTo_S516x100_S_d0_1 : S516x100.ReducesTo [0, 1] S_
  bcast_S_S516x172 : S_.BroadcastsInDim S516x172 (![] : Fin 0 → Fin S516x172.rank)
  reducesTo_S516x172_S_d0_1 : S516x172.ReducesTo [0, 1] S_
  bcast_S_S516 : S_.BroadcastsInDim S516 (![] : Fin 0 → Fin S516.rank)
  reducesTo_S516_S_d0 : S516.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S516 .f32) (main_arg12 : FVec F S516 .f32) (main_arg13 : FVec F S100000 .f32) (main_v48 : IVec S_ 1) (main_v49 : FVec F S516x172 .f32) (main_v50 : FVec F S516x172 .f32) : IVec S_ 1 :=
  let main_v51 : IVec S516x172 1 := cmpf .olt main_v49 main_v50
  let main_c_19 : IVec S_ 1 := constantI S_ 1 1#1
  let main_v52 : IVec S_ 1 := (fun x v => Host.reduce IntOp.andi x v reducesTo_S516x172_S_d0_1 h_S_) main_v51 main_c_19
  let main_v53 : IVec S_ 1 := andi main_v48 main_v52
  let main_v54 : FVec F S516 .f32 := Host.absf main_arg11
  let main_cst_20 : FVec F S_ .f32 := constant S_ .f32 0x7F800000#32
  let main_v55 : FVec F S516 .f32 := broadcastInDim S516 ![] bcast_S_S516 main_cst_20
  let main_v56 : IVec S516 1 := cmpf .olt main_v54 main_v55
  let main_c_21 : IVec S_ 1 := constantI S_ 1 1#1
  let main_v57 : IVec S_ 1 := (fun x v => Host.reduce IntOp.andi x v reducesTo_S516_S_d0 h_S_) main_v56 main_c_21
  let main_v58 : IVec S_ 1 := andi main_v53 main_v57
  let main_v59 : FVec F S516 .f32 := Host.absf main_arg12
  let main_cst_22 : FVec F S_ .f32 := constant S_ .f32 0x7F800000#32
  let main_v60 : FVec F S516 .f32 := broadcastInDim S516 ![] bcast_S_S516 main_cst_22
  let main_v61 : IVec S516 1 := cmpf .olt main_v59 main_v60
  let main_c_23 : IVec S_ 1 := constantI S_ 1 1#1
  let main_v62 : IVec S_ 1 := (fun x v => Host.reduce IntOp.andi x v reducesTo_S516_S_d0 h_S_) main_v61 main_c_23
  let main_v63 : IVec S_ 1 := andi main_v58 main_v62
  let main_v64 : FVec F S100000 .f32 := Host.absf main_arg13
  let main_cst_24 : FVec F S_ .f32 := constant S_ .f32 0x7F800000#32
  let main_v65 : FVec F S100000 .f32 := broadcastInDim S100000 ![] bcast_S_S100000 main_cst_24
  let main_v66 : IVec S100000 1 := cmpf .olt main_v64 main_v65
  let main_c_25 : IVec S_ 1 := constantI S_ 1 1#1
  let main_v67 : IVec S_ 1 := (fun x v => Host.reduce IntOp.andi x v reducesTo_S100000_S_d0 h_S_) main_v66 main_c_25
  fn_part4 (F := F) main_v63 main_v67

def fn_part2 {F : FTy → Type} [FloatOps F] (main_arg7 : FVec F S100x344 .f32) (main_arg8 : FVec F S100 .f32) (main_arg9 : FVec F S516x100 .f32) (main_arg10 : FVec F S516x172 .f32) (main_arg11 : FVec F S516 .f32) (main_arg12 : FVec F S516 .f32) (main_arg13 : FVec F S100000 .f32) (main_v33 : IVec S_ 1) : IVec S_ 1 :=
  let main_v34 : FVec F S100x344 .f32 := Host.absf main_arg7
  let main_cst_12 : FVec F S_ .f32 := constant S_ .f32 0x7F800000#32
  let main_v35 : FVec F S100x344 .f32 := broadcastInDim S100x344 ![] bcast_S_S100x344 main_cst_12
  let main_v36 : IVec S100x344 1 := cmpf .olt main_v34 main_v35
  let main_c_13 : IVec S_ 1 := constantI S_ 1 1#1
  let main_v37 : IVec S_ 1 := (fun x v => Host.reduce IntOp.andi x v reducesTo_S100x344_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S516x100 .f32 := Host.absf main_arg9
  let main_cst_16 : FVec F S_ .f32 := constant S_ .f32 0x7F800000#32
  let main_v45 : FVec F S516x100 .f32 := broadcastInDim S516x100 ![] bcast_S_S516x100 main_cst_16
  let main_v46 : IVec S516x100 1 := cmpf .olt main_v44 main_v45
  let main_c_17 : IVec S_ 1 := constantI S_ 1 1#1
  let main_v47 : IVec S_ 1 := (fun x v => Host.reduce IntOp.andi x v reducesTo_S516x100_S_d0_1 h_S_) main_v46 main_c_17
  let main_v48 : IVec S_ 1 := andi main_v43 main_v47
  let main_v49 : FVec F S516x172 .f32 := Host.absf main_arg10
  let main_cst_18 : FVec F S_ .f32 := constant S_ .f32 0x7F800000#32
  let main_v50 : FVec F S516x172 .f32 := broadcastInDim S516x172 ![] bcast_S_S516x172 main_cst_18
  fn_part3 (F := F) main_arg11 main_arg12 main_arg13 main_v48 main_v49 main_v50

def fn_part1 {F : FTy → Type} [FloatOps F] (main_arg4 : FVec F S172 .f32) (main_arg5 : FVec F S344x688 .f32) (main_arg6 : FVec F S344 .f32) (main_arg7 : FVec F S100x344 .f32) (main_arg8 : FVec F S100 .f32) (main_arg9 : FVec F S516x100 .f32) (main_arg10 : FVec F S516x172 .f32) (main_arg11 : FVec F S516 .f32) (main_arg12 : FVec F S516 .f32) (main_arg13 : FVec F S100000 .f32) (main_v13 : IVec S_ 1) (main_v16 : IVec S172 1) : IVec S_ 1 :=
  let main_c_5 : IVec S_ 1 := constantI S_ 1 1#1
  let main_v17 : IVec S_ 1 := (fun x v => Host.reduce IntOp.andi x v reducesTo_S172_S_d0 h_S_) main_v16 main_c_5
  let main_v18 : IVec S_ 1 := andi main_v13 main_v17
  let main_v19 : FVec F S172 .f32 := Host.absf main_arg4
  let main_cst_6 : FVec F S_ .f32 := constant S_ .f32 0x7F800000#32
  let main_v20 : FVec F S172 .f32 := broadcastInDim S172 ![] bcast_S_S172 main_cst_6
  let main_v21 : IVec S172 1 := cmpf .olt main_v19 main_v20
  let main_c_7 : IVec S_ 1 := constantI S_ 1 1#1
  let main_v22 : IVec S_ 1 := (fun x v => Host.reduce IntOp.andi x v reducesTo_S172_S_d0 h_S_) main_v21 main_c_7
  let main_v23 : IVec S_ 1 := andi main_v18 main_v22
  let main_v24 : FVec F S344x688 .f32 := Host.absf main_arg5
  let main_cst_8 : FVec F S_ .f32 := constant S_ .f32 0x7F800000#32
  let main_v25 : FVec F S344x688 .f32 := broadcastInDim S344x688 ![] bcast_S_S344x688 main_cst_8
  let main_v26 : IVec S344x688 1 := cmpf .olt main_v24 main_v25
  let main_c_9 : IVec S_ 1 := constantI S_ 1 1#1
  let main_v27 : IVec S_ 1 := (fun x v => Host.reduce IntOp.andi x v reducesTo_S344x688_S_d0_1 h_S_) main_v26 main_c_9
  let main_v28 : IVec S_ 1 := andi main_v23 main_v27
  let main_v29 : FVec F S344 .f32 := Host.absf main_arg6
  let main_cst_10 : FVec F S_ .f32 := constant S_ .f32 0x7F800000#32
  let main_v30 : FVec F S344 .f32 := broadcastInDim S344 ![] bcast_S_S344 main_cst_10
  let main_v31 : IVec S344 1 := cmpf .olt main_v29 main_v30
  let main_c_11 : IVec S_ 1 := constantI S_ 1 1#1
  let main_v32 : IVec S_ 1 := (fun x v => Host.reduce IntOp.andi x v reducesTo_S344_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S500000x172 .f32) (main_arg1 : FVec F S500000 .f32) (main_arg2 : FVec F S500000x172 .f32) (main_arg3 : FVec F S172 .f32) (main_arg4 : FVec F S172 .f32) (main_arg5 : FVec F S344x688 .f32) (main_arg6 : FVec F S344 .f32) (main_arg7 : FVec F S100x344 .f32) (main_arg8 : FVec F S100 .f32) (main_arg9 : FVec F S516x100 .f32) (main_arg10 : FVec F S516x172 .f32) (main_arg11 : FVec F S516 .f32) (main_arg12 : FVec F S516 .f32) (main_arg13 : FVec F S100000 .f32) (main_arg14 : IVec S100000 32) (main_arg15 : IVec S100000 32) (main_arg16 : IVec S100000 32) : IVec S_ 1 :=
  let main_v0 : FVec F S500000x172 .f32 := Host.absf main_arg0
  let main_cst : FVec F S_ .f32 := constant S_ .f32 0x7F800000#32
  let main_v1 : FVec F S500000x172 .f32 := broadcastInDim S500000x172 ![] bcast_S_S500000x172 main_cst
  let main_v2 : IVec S500000x172 1 := cmpf .olt main_v0 main_v1
  let main_c : IVec S_ 1 := constantI S_ 1 1#1
  let main_v3 : IVec S_ 1 := (fun x v => Host.reduce IntOp.andi x v reducesTo_S500000x172_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000x172 .f32 := Host.absf main_arg2
  let main_cst_2 : FVec F S_ .f32 := constant S_ .f32 0x7F800000#32
  let main_v10 : FVec F S500000x172 .f32 := broadcastInDim S500000x172 ![] bcast_S_S500000x172 main_cst_2
  let main_v11 : IVec S500000x172 1 := cmpf .olt main_v9 main_v10
  let main_c_3 : IVec S_ 1 := constantI S_ 1 1#1
  let main_v12 : IVec S_ 1 := (fun x v => Host.reduce IntOp.andi x v reducesTo_S500000x172_S_d0_1 h_S_) main_v11 main_c_3
  let main_v13 : IVec S_ 1 := andi main_v8 main_v12
  let main_v14 : FVec F S172 .f32 := Host.absf main_arg3
  let main_cst_4 : FVec F S_ .f32 := constant S_ .f32 0x7F800000#32
  let main_v15 : FVec F S172 .f32 := broadcastInDim S172 ![] bcast_S_S172 main_cst_4
  let main_v16 : IVec S172 1 := cmpf .olt main_v14 main_v15
  fn_part1 (F := F) main_arg4 main_arg5 main_arg6 main_arg7 main_arg8 main_arg9 main_arg10 main_arg11 main_arg12 main_arg13 main_v13 main_v16
-- ==== Kernel.lean ====
abbrev S500000x172 : Shape := ⟨2, ![500000, 172]⟩
abbrev S500000 : Shape := ⟨1, ![500000]⟩
abbrev S172 : Shape := ⟨1, ![172]⟩
abbrev S344x688 : Shape := ⟨2, ![344, 688]⟩
abbrev S344 : Shape := ⟨1, ![344]⟩
abbrev S100x344 : Shape := ⟨2, ![100, 344]⟩
abbrev S100 : Shape := ⟨1, ![100]⟩
abbrev S516x100 : Shape := ⟨2, ![516, 100]⟩
abbrev S516x172 : Shape := ⟨2, ![516, 172]⟩
abbrev S516 : Shape := ⟨1, ![516]⟩
abbrev S100000 : Shape := ⟨1, ![100000]⟩
abbrev S_ : Shape := ⟨0, ![]⟩
abbrev S100000x1 : Shape := ⟨2, ![100000, 1]⟩
abbrev S100000x172 : Shape := ⟨2, ![100000, 172]⟩
abbrev S344x172 : Shape := ⟨2, ![344, 172]⟩
abbrev S172x344 : Shape := ⟨2, ![172, 344]⟩
abbrev S344x100 : Shape := ⟨2, ![344, 100]⟩
abbrev S172x100 : Shape := ⟨2, ![172, 100]⟩
abbrev S100x172 : Shape := ⟨2, ![100, 172]⟩
abbrev S172x172 : Shape := ⟨2, ![172, 172]⟩
abbrev S1x172 : Shape := ⟨2, ![1, 172]⟩
abbrev S1000x172 : Shape := ⟨2, ![1000, 172]⟩
abbrev S1000x1 : Shape := ⟨2, ![1000, 1]⟩
abbrev S1000x344 : Shape := ⟨2, ![1000, 344]⟩
abbrev S1x344 : Shape := ⟨2, ![1, 344]⟩
abbrev S1000x100 : Shape := ⟨2, ![1000, 100]⟩
abbrev S1x100 : Shape := ⟨2, ![1, 100]⟩

abbrev nBuf : Space → Nat
  | .hbm => 124
  | .vmem => 31
  | .smem => 0
  | _ => 0

abbrev bufTy : (tb : Table) → Fin (tcTables nBuf tb) → BufTy
  | .hbm, ⟨0, _⟩ => ⟨S500000x172, .f32⟩
  | .hbm, ⟨1, _⟩ => ⟨S500000, .f32⟩
  | .hbm, ⟨2, _⟩ => ⟨S500000x172, .f32⟩
  | .hbm, ⟨3, _⟩ => ⟨S172, .f32⟩
  | .hbm, ⟨4, _⟩ => ⟨S172, .f32⟩
  | .hbm, ⟨5, _⟩ => ⟨S344x688, .f32⟩
  | .hbm, ⟨6, _⟩ => ⟨S344, .f32⟩
  | .hbm, ⟨7, _⟩ => ⟨S100x344, .f32⟩
  | .hbm, ⟨8, _⟩ => ⟨S100, .f32⟩
  | .hbm, ⟨9, _⟩ => ⟨S516x100, .f32⟩
  | .hbm, ⟨10, _⟩ => ⟨S516x172, .f32⟩
  | .hbm, ⟨11, _⟩ => ⟨S516, .f32⟩
  | .hbm, ⟨12, _⟩ => ⟨S516, .f32⟩
  | .hbm, ⟨13, _⟩ => ⟨S100000, .f32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x172, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x172, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x172, .f32⟩
  | .hbm, ⟨44, _⟩ => ⟨S_, .i32⟩
  | .hbm, ⟨45, _⟩ => ⟨S100000, .i32⟩
  | .hbm, ⟨46, _⟩ => ⟨S100000, .i1⟩
  | .hbm, ⟨47, _⟩ => ⟨S_, .i32⟩
  | .hbm, ⟨48, _⟩ => ⟨S100000, .i32⟩
  | .hbm, ⟨49, _⟩ => ⟨S100000, .i32⟩
  | .hbm, ⟨50, _⟩ => ⟨S100000, .i32⟩
  | .hbm, ⟨51, _⟩ => ⟨S100000x1, .i32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S344x172, .f32⟩
  | .hbm, ⟨56, _⟩ => ⟨S172x344, .f32⟩
  | .hbm, ⟨57, _⟩ => ⟨S172x344, .bf16⟩
  | .hbm, ⟨58, _⟩ => ⟨S344x172, .f32⟩
  | .hbm, ⟨59, _⟩ => ⟨S172x344, .f32⟩
  | .hbm, ⟨60, _⟩ => ⟨S172x344, .bf16⟩
  | .hbm, ⟨61, _⟩ => ⟨S344x172, .f32⟩
  | .hbm, ⟨62, _⟩ => ⟨S172x344, .f32⟩
  | .hbm, ⟨63, _⟩ => ⟨S172x344, .bf16⟩
  | .hbm, ⟨64, _⟩ => ⟨S344x172, .f32⟩
  | .hbm, ⟨65, _⟩ => ⟨S172x344, .f32⟩
  | .hbm, ⟨66, _⟩ => ⟨S172x344, .bf16⟩
  | .hbm, ⟨67, _⟩ => ⟨S344x100, .f32⟩
  | .hbm, ⟨68, _⟩ => ⟨S344x100, .bf16⟩
  | .hbm, ⟨69, _⟩ => ⟨S172x100, .f32⟩
  | .hbm, ⟨70, _⟩ => ⟨S100x172, .f32⟩
  | .hbm, ⟨71, _⟩ => ⟨S100x172, .bf16⟩
  | .hbm, ⟨72, _⟩ => ⟨S172x100, .f32⟩
  | .hbm, ⟨73, _⟩ => ⟨S100x172, .f32⟩
  | .hbm, ⟨74, _⟩ => ⟨S100x172, .bf16⟩
  | .hbm, ⟨75, _⟩ => ⟨S172x100, .f32⟩
  | .hbm, ⟨76, _⟩ => ⟨S100x172, .f32⟩
  | .hbm, ⟨77, _⟩ => ⟨S100x172, .bf16⟩
  | .hbm, ⟨78, _⟩ => ⟨S172x172, .f32⟩
  | .hbm, ⟨79, _⟩ => ⟨S172x172, .f32⟩
  | .hbm, ⟨80, _⟩ => ⟨S172x172, .bf16⟩
  | .hbm, ⟨81, _⟩ => ⟨S172x172, .f32⟩
  | .hbm, ⟨82, _⟩ => ⟨S172x172, .f32⟩
  | .hbm, ⟨83, _⟩ => ⟨S172x172, .bf16⟩
  | .hbm, ⟨84, _⟩ => ⟨S172x172, .f32⟩
  | .hbm, ⟨85, _⟩ => ⟨S172x172, .f32⟩
  | .hbm, ⟨86, _⟩ => ⟨S172x172, .bf16⟩
  | .hbm, ⟨87, _⟩ => ⟨S172, .f32⟩
  | .hbm, ⟨88, _⟩ => ⟨S172, .f32⟩
  | .hbm, ⟨89, _⟩ => ⟨S172, .f32⟩
  | .hbm, ⟨90, _⟩ => ⟨S172, .f32⟩
  | .hbm, ⟨91, _⟩ => ⟨S172, .f32⟩
  | .hbm, ⟨92, _⟩ => ⟨S172, .f32⟩
  | .hbm, ⟨93, _⟩ => ⟨S1x172, .f32⟩
  | .hbm, ⟨94, _⟩ => ⟨S1x172, .f32⟩
  | .hbm, ⟨95, _⟩ => ⟨S100000x172, .f32⟩
  | .hbm, ⟨96, _⟩ => ⟨S100000, .i32⟩
  | .hbm, ⟨97, _⟩ => ⟨S_, .i32⟩
  | .hbm, ⟨98, _⟩ => ⟨S500000, .i32⟩
  | .hbm, ⟨99, _⟩ => ⟨S100000x1, .i32⟩
  | .hbm, ⟨100, _⟩ => ⟨S500000, .i32⟩
  | .hbm, ⟨101, _⟩ => ⟨S_, .i32⟩
  | .hbm, ⟨102, _⟩ => ⟨S100000, .i32⟩
  | .hbm, ⟨103, _⟩ => ⟨S100000, .i1⟩
  | .hbm, ⟨104, _⟩ => ⟨S_, .i32⟩
  | .hbm, ⟨105, _⟩ => ⟨S100000, .i32⟩
  | .hbm, ⟨106, _⟩ => ⟨S100000, .i32⟩
  | .hbm, ⟨107, _⟩ => ⟨S100000, .i32⟩
  | .hbm, ⟨108, _⟩ => ⟨S100000x1, .i32⟩
  | .hbm, ⟨109, _⟩ => ⟨S100000, .i32⟩
  | .hbm, ⟨110, _⟩ => ⟨S100000, .i1⟩
  | .hbm, ⟨111, _⟩ => ⟨S_, .i32⟩
  | .hbm, ⟨112, _⟩ => ⟨S_, .i32⟩
  | .hbm, ⟨113, _⟩ => ⟨S100000, .i32⟩
  | .hbm, ⟨114, _⟩ => ⟨S100000, .i32⟩
  | .hbm, ⟨115, _⟩ => ⟨S_, .i32⟩
  | .hbm, ⟨116, _⟩ => ⟨S100000, .i32⟩
  | .hbm, ⟨117, _⟩ => ⟨S100000, .i1⟩
  | .hbm, ⟨118, _⟩ => ⟨S_, .i32⟩
  | .hbm, ⟨119, _⟩ => ⟨S100000, .i32⟩
  | .hbm, ⟨120, _⟩ => ⟨S100000, .i32⟩
  | .hbm, ⟨121, _⟩ => ⟨S100000, .i32⟩
  | .hbm, ⟨122, _⟩ => ⟨S100000x1, .i32⟩
  | .hbm, ⟨123, _⟩ => ⟨S500000x172, .f32⟩
  | .local _ .vmem, ⟨0, _⟩ => ⟨S1000x172, .f32⟩
  | .local _ .vmem, ⟨1, _⟩ => ⟨S1000x172, .f32⟩
  | .local _ .vmem, ⟨2, _⟩ => ⟨S1000x172, .f32⟩
  | .local _ .vmem, ⟨3, _⟩ => ⟨S1000x172, .f32⟩
  | .local _ .vmem, ⟨4, _⟩ => ⟨S1000x172, .f32⟩
  | .local _ .vmem, ⟨5, _⟩ => ⟨S1000x172, .f32⟩
  | .local _ .vmem, ⟨6, _⟩ => ⟨S1000x1, .f32⟩
  | .local _ .vmem, ⟨7, _⟩ => ⟨S1000x1, .f32⟩
  | .local _ .vmem, ⟨8, _⟩ => ⟨S1x172, .f32⟩
  | .local _ .vmem, ⟨9, _⟩ => ⟨S1x172, .f32⟩
  | .local _ .vmem, ⟨10, _⟩ => ⟨S172x344, .bf16⟩
  | .local _ .vmem, ⟨11, _⟩ => ⟨S172x344, .bf16⟩
  | .local _ .vmem, ⟨12, _⟩ => ⟨S172x344, .bf16⟩
  | .local _ .vmem, ⟨13, _⟩ => ⟨S172x344, .bf16⟩
  | .local _ .vmem, ⟨14, _⟩ => ⟨S344, .f32⟩
  | .local _ .vmem, ⟨15, _⟩ => ⟨S344x100, .bf16⟩
  | .local _ .vmem, ⟨16, _⟩ => ⟨S100, .f32⟩
  | .local _ .vmem, ⟨17, _⟩ => ⟨S100x172, .bf16⟩
  | .local _ .vmem, ⟨18, _⟩ => ⟨S100x172, .bf16⟩
  | .local _ .vmem, ⟨19, _⟩ => ⟨S100x172, .bf16⟩
  | .local _ .vmem, ⟨20, _⟩ => ⟨S172x172, .bf16⟩
  | .local _ .vmem, ⟨21, _⟩ => ⟨S172x172, .bf16⟩
  | .local _ .vmem, ⟨22, _⟩ => ⟨S172x172, .bf16⟩
  | .local _ .vmem, ⟨23, _⟩ => ⟨S172, .f32⟩
  | .local _ .vmem, ⟨24, _⟩ => ⟨S172, .f32⟩
  | .local _ .vmem, ⟨25, _⟩ => ⟨S172, .f32⟩
  | .local _ .vmem, ⟨26, _⟩ => ⟨S172, .f32⟩
  | .local _ .vmem, ⟨27, _⟩ => ⟨S172, .f32⟩
  | .local _ .vmem, ⟨28, _⟩ => ⟨S172, .f32⟩
  | .local _ .vmem, ⟨29, _⟩ => ⟨S1000x172, .f32⟩
  | .local _ .vmem, ⟨30, _⟩ => ⟨S1000x172, .f32⟩
  | _, _ => ⟨S500000x172, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_c_1 : Ref sig .tc := ⟨.hbm, 26, rfl⟩
abbrev main_call0_v7 : Ref sig .tc := ⟨.hbm, 27, rfl⟩
abbrev main_call0_v8 : Ref sig .tc := ⟨.hbm, 28, rfl⟩
abbrev main_call0_c_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_c_3 : Ref sig .tc := ⟨.hbm, 35, rfl⟩
abbrev main_call0_v14 : Ref sig .tc := ⟨.hbm, 36, rfl⟩
abbrev main_call0_v15 : Ref sig .tc := ⟨.hbm, 37, rfl⟩
abbrev main_call0_c_4 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_c_5 : Ref sig .tc := ⟨.hbm, 44, rfl⟩
abbrev main_call0_v21 : Ref sig .tc := ⟨.hbm, 45, rfl⟩
abbrev main_call0_v22 : Ref sig .tc := ⟨.hbm, 46, rfl⟩
abbrev main_call0_c_6 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_v70 : Ref sig .tc := ⟨.hbm, 95, rfl⟩
abbrev main_call0_v71 : Ref sig .tc := ⟨.hbm, 96, rfl⟩
abbrev main_call0_c_7 : Ref sig .tc := ⟨.hbm, 97, rfl⟩
abbrev main_call0_v72 : Ref sig .tc := ⟨.hbm, 98, rfl⟩
abbrev main_call0_v73 : Ref sig .tc := ⟨.hbm, 99, rfl⟩
abbrev main_call0_v74 : Ref sig .tc := ⟨.hbm, 100, rfl⟩
abbrev main_call0_c_8 : Ref sig .tc := ⟨.hbm, 101, rfl⟩
abbrev main_call0_v75 : Ref sig .tc := ⟨.hbm, 102, rfl⟩
abbrev main_call0_v76 : Ref sig .tc := ⟨.hbm, 103, rfl⟩
abbrev main_call0_c_9 : Ref sig .tc := ⟨.hbm, 104, rfl⟩
abbrev main_call0_v77 : Ref sig .tc := ⟨.hbm, 105, rfl⟩
abbrev main_call0_v78 : Ref sig .tc := ⟨.hbm, 106, rfl⟩
abbrev main_call0_v79 : Ref sig .tc := ⟨.hbm, 107, rfl⟩
abbrev main_call0_v80 : Ref sig .tc := ⟨.hbm, 108, rfl⟩
abbrev main_call0_v81 : Ref sig .tc := ⟨.hbm, 109, rfl⟩
abbrev main_call0_v82 : Ref sig .tc := ⟨.hbm, 110, rfl⟩
abbrev main_call0_c_10 : Ref sig .tc := ⟨.hbm, 111, rfl⟩
abbrev main_call0_call0_v0 : Ref sig .tc := ⟨.hbm, 112, rfl⟩
abbrev main_call0_call0_v1 : Ref sig .tc := ⟨.hbm, 113, rfl⟩
abbrev main_call0_v83 : Ref sig .tc := ⟨.hbm, 114, rfl⟩
abbrev main_call0_c_11 : Ref sig .tc := ⟨.hbm, 115, rfl⟩
abbrev main_call0_v84 : Ref sig .tc := ⟨.hbm, 116, rfl⟩
abbrev main_call0_v85 : Ref sig .tc := ⟨.hbm, 117, rfl⟩
abbrev main_call0_c_12 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_v89 : Ref sig .tc := ⟨.hbm, 122, rfl⟩
abbrev main_v0 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg25_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem25_1 : DmaSem sig := 30

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x172 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x172 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x172 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x172 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x172 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S172x344 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S172x344 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S172x344 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S172x344 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S344 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S344x100 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S100 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S100x172 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S100x172 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S100x172 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S172x172 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S172x172 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S172x172 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S172 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S172 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S172 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S172 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S172 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S172 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1000x172 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S100000_S100000x1 : S100000.ShapeCasts S100000x1
  slices_S344x688_S344x172_0_0 : S344x688.Slices ![0, 0] S344x172
  transposes_S344x172_S172x344_1_0 : S344x172.Transposes [1, 0] S172x344
  bitsLt_bf16_f32 : FTy.bits .bf16 < FTy.bits .f32
  slices_S344x688_S344x172_0_172 : S344x688.Slices ![0, 172] S344x172
  slices_S344x688_S344x172_0_344 : S344x688.Slices ![0, 344] S344x172
  slices_S344x688_S344x172_0_516 : S344x688.Slices ![0, 516] S344x172
  transposes_S100x344_S344x100_1_0 : S100x344.Transposes [1, 0] S344x100
  slices_S516x100_S172x100_0_0 : S516x100.Slices ![0, 0] S172x100
  transposes_S172x100_S100x172_1_0 : S172x100.Transposes [1, 0] S100x172
  slices_S516x100_S172x100_172_0 : S516x100.Slices ![172, 0] S172x100
  slices_S516x100_S172x100_344_0 : S516x100.Slices ![344, 0] S172x100
  slices_S516x172_S172x172_0_0 : S516x172.Slices ![0, 0] S172x172
  transposes_S172x172_S172x172_1_0 : S172x172.Transposes [1, 0] S172x172
  slices_S516x172_S172x172_172_0 : S516x172.Slices ![172, 0] S172x172
  slices_S516x172_S172x172_344_0 : S516x172.Slices ![344, 0] S172x172
  slices_S516_S172_0 : S516.Slices ![0] S172
  slices_S516_S172_172 : S516.Slices ![172] S172
  slices_S516_S172_344 : S516.Slices ![344] S172
  shapeCasts_S172_S1x172 : S172.ShapeCasts S1x172
  bcast_S_S500000 : S_.BroadcastsInDim S500000 (![] : Fin 0 → Fin S500000.rank)
  inb_S1000x172_S1000x172_0_0 : ∀ a, (![0, 0] : Fin 2 → Nat) a + S1000x172.size a ≤ S1000x172.size a
  h_S1000x172 : 0 < S1000x172.numel
  shapeCasts_S1000x172_S1000x172 : S1000x172.ShapeCasts S1000x172
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x172_S1x172_0_0 : ∀ a, (![0, 0] : Fin 2 → Nat) a + S1x172.size a ≤ S1x172.size a
  h_S1x172 : 0 < S1x172.numel
  shapeCasts_S1x172_S1x172 : S1x172.ShapeCasts S1x172
  broadcasts_S1000x1_S1000x172 : S1000x1.Broadcasts S1000x172
  broadcasts_S1x172_S1000x172 : S1x172.Broadcasts S1000x172
  inb_S172x344_S172x344_0_0 : ∀ a, (![0, 0] : Fin 2 → Nat) a + S172x344.size a ≤ S172x344.size a
  h_S172x344 : 0 < S172x344.numel
  shapeCasts_S172x344_S172x344 : S172x344.ShapeCasts S172x344
  inb_S344_S344_0 : ∀ a, (![0] : Fin 1 → Nat) a + S344.size a ≤ S344.size a
  h_S344 : 0 < S344.numel
  shapeCasts_S344_S1x344 : S344.ShapeCasts S1x344
  broadcasts_S1x344_S1000x344 : S1x344.Broadcasts S1000x344
  inb_S344x100_S344x100_0_0 : ∀ a, (![0, 0] : Fin 2 → Nat) a + S344x100.size a ≤ S344x100.size a
  h_S344x100 : 0 < S344x100.numel
  shapeCasts_S344x100_S344x100 : S344x100.ShapeCasts S344x100
  inb_S100_S100_0 : ∀ a, (![0] : Fin 1 → Nat) a + S100.size a ≤ S100.size a
  h_S100 : 0 < S100.numel
  shapeCasts_S100_S1x100 : S100.ShapeCasts S1x100
  broadcasts_S1x100_S1000x100 : S1x100.Broadcasts S1000x100
  inb_S100x172_S100x172_0_0 : ∀ a, (![0, 0] : Fin 2 → Nat) a + S100x172.size a ≤ S100x172.size a
  h_S100x172 : 0 < S100x172.numel
  shapeCasts_S100x172_S100x172 : S100x172.ShapeCasts S100x172
  inb_S172_S172_0 : ∀ a, (![0] : Fin 1 → Nat) a + S172.size a ≤ S172.size a
  h_S172 : 0 < S172.numel
  shapeCasts_S172_S172 : S172.ShapeCasts S172
  inb_S172x172_S172x172_0_0 : ∀ a, (![0, 0] : Fin 2 → Nat) a + S172x172.size a ≤ S172x172.size a
  h_S172x172 : 0 < S172x172.numel
  shapeCasts_S172x172_S172x172 : S172x172.ShapeCasts S172x172
  gather_S500000x172_S100000x1_S100000x172_1_0_n_n_0_1_1172_wf : GatherDims.WF S500000x172 S100000x1 S100000x172 [1] [0] [] [0] [] 1 ![1, 172]
  gather_S500000_S100000x1_S100000_n_0_n_n_0_1_1_wf : GatherDims.WF S500000 S100000x1 S100000 [] [0] [] [0] [] 1 ![1]
  scatter_S500000_S100000x1_S100000_n_0_0_1_wf : ScatterDims.WF S500000 S100000x1 S100000 [] [0] [0] 1
  scatter_S500000x172_S100000x1_S100000x172_1_0_0_1_wf : ScatterDims.WF S500000x172 S100000x1 S100000x172 [1] [0] [0] 1
  dot_S1000x172_S172x344_S1000x344_1_0_0_1_n_n_wf : DotDims.WF S1000x172 S172x344 S1000x344 [1] [0] [0] [1] [] []
  dot_S1000x344_S344x100_S1000x100_1_0_0_1_n_n_wf : DotDims.WF S1000x344 S344x100 S1000x100 [1] [0] [0] [1] [] []
  dot_S1000x100_S100x172_S1000x172_1_0_0_1_n_n_wf : DotDims.WF S1000x100 S100x172 S1000x172 [1] [0] [0] [1] [] []
  dot_S1000x172_S172x172_S1000x172_1_0_0_1_n_n_wf : DotDims.WF S1000x172 S172x172 S1000x172 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x172.size a ≤ S100000x172.size a
  hwx0_0 : ∀ i : grid0.Coords, EltTy.bits .f32 = 32 ∨ (Rect.block (s := S100000x172) S1000x172.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x172.size a ≤ S100000x172.size a
  hwx0_1 : ∀ i : grid0.Coords, EltTy.bits .f32 = 32 ∨ (Rect.block (s := S100000x172) S1000x172.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x172.size a ≤ S100000x172.size a
  hwx0_2 : ∀ i : grid0.Coords, EltTy.bits .f32 = 32 ∨ (Rect.block (s := S100000x172) S1000x172.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S100000x1.size a
  hwx0_3 : ∀ i : grid0.Coords, EltTy.bits .f32 = 32 ∨ (Rect.block (s := S100000x1) S1000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x172.size a ≤ S1x172.size a
  hwx0_4 : ∀ i : grid0.Coords, EltTy.bits .f32 = 32 ∨ (Rect.block (s := S1x172) S1x172.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x172.size a ≤ S1x172.size a
  hwx0_5 : ∀ i : grid0.Coords, EltTy.bits .f32 = 32 ∨ (Rect.block (s := S1x172) S1x172.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S172x344.size a ≤ S172x344.size a
  hwx0_6 : ∀ i : grid0.Coords, EltTy.bits .bf16 = 32 ∨ (Rect.block (s := S172x344) S172x344.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S172x344.size a ≤ S172x344.size a
  hwx0_7 : ∀ i : grid0.Coords, EltTy.bits .bf16 = 32 ∨ (Rect.block (s := S172x344) S172x344.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S172x344.size a ≤ S172x344.size a
  hwx0_8 : ∀ i : grid0.Coords, EltTy.bits .bf16 = 32 ∨ (Rect.block (s := S172x344) S172x344.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S172x344.size a ≤ S172x344.size a
  hwx0_9 : ∀ i : grid0.Coords, EltTy.bits .bf16 = 32 ∨ (Rect.block (s := S172x344) S172x344.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S344.size a ≤ S344.size a
  hwx0_10 : ∀ i : grid0.Coords, EltTy.bits .f32 = 32 ∨ (Rect.block (s := S344) S344.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S344x100.size a ≤ S344x100.size a
  hwx0_11 : ∀ i : grid0.Coords, EltTy.bits .bf16 = 32 ∨ (Rect.block (s := S344x100) S344x100.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S100.size a ≤ S100.size a
  hwx0_12 : ∀ i : grid0.Coords, EltTy.bits .f32 = 32 ∨ (Rect.block (s := S100) S100.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S100x172.size a ≤ S100x172.size a
  hwx0_13 : ∀ i : grid0.Coords, EltTy.bits .bf16 = 32 ∨ (Rect.block (s := S100x172) S100x172.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S100x172.size a ≤ S100x172.size a
  hwx0_14 : ∀ i : grid0.Coords, EltTy.bits .bf16 = 32 ∨ (Rect.block (s := S100x172) S100x172.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S100x172.size a ≤ S100x172.size a
  hwx0_15 : ∀ i : grid0.Coords, EltTy.bits .bf16 = 32 ∨ (Rect.block (s := S100x172) S100x172.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S172x172.size a ≤ S172x172.size a
  hwx0_16 : ∀ i : grid0.Coords, EltTy.bits .bf16 = 32 ∨ (Rect.block (s := S172x172) S172x172.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S172x172.size a ≤ S172x172.size a
  hwx0_17 : ∀ i : grid0.Coords, EltTy.bits .bf16 = 32 ∨ (Rect.block (s := S172x172) S172x172.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S172x172.size a ≤ S172x172.size a
  hwx0_18 : ∀ i : grid0.Coords, EltTy.bits .bf16 = 32 ∨ (Rect.block (s := S172x172) S172x172.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S172.size a ≤ S172.size a
  hwx0_19 : ∀ i : grid0.Coords, EltTy.bits .f32 = 32 ∨ (Rect.block (s := S172) S172.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S172.size a ≤ S172.size a
  hwx0_20 : ∀ i : grid0.Coords, EltTy.bits .f32 = 32 ∨ (Rect.block (s := S172) S172.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S172.size a ≤ S172.size a
  hwx0_21 : ∀ i : grid0.Coords, EltTy.bits .f32 = 32 ∨ (Rect.block (s := S172) S172.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S172.size a ≤ S172.size a
  hwx0_22 : ∀ i : grid0.Coords, EltTy.bits .f32 = 32 ∨ (Rect.block (s := S172) S172.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S172.size a ≤ S172.size a
  hwx0_23 : ∀ i : grid0.Coords, EltTy.bits .f32 = 32 ∨ (Rect.block (s := S172) S172.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S172.size a ≤ S172.size a
  hwx0_24 : ∀ i : grid0.Coords, EltTy.bits .f32 = 32 ∨ (Rect.block (s := S172) S172.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1000x172.size a ≤ S100000x172.size a
  hwx0_25 : ∀ i : grid0.Coords, EltTy.bits .f32 = 32 ∨ (Rect.block (s := S100000x172) S1000x172.size (cc0_transform_25 i) (hinb0_25 i)).WholeWords (EltTy.packing .f32)

variable [Facts₀]

def gather_S500000x172_S100000x1_S100000x172_1_0_n_n_0_1_1172 : GatherDims S500000x172 S100000x1 S100000x172 where
  offsetDims := [1]
  collapsedSliceDims := [0]
  operandBatchingDims := []
  startIndicesBatchingDims := []
  startIndexMap := [0]
  indexVectorDim := 1
  sliceSizes := ![1, 172]
  wf := gather_S500000x172_S100000x1_S100000x172_1_0_n_n_0_1_1172_wf
def gather_S500000_S100000x1_S100000_n_0_n_n_0_1_1 : GatherDims S500000 S100000x1 S100000 where
  offsetDims := []
  collapsedSliceDims := [0]
  operandBatchingDims := []
  startIndicesBatchingDims := []
  startIndexMap := [0]
  indexVectorDim := 1
  sliceSizes := ![1]
  wf := gather_S500000_S100000x1_S100000_n_0_n_n_0_1_1_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf
def scatter_S500000x172_S100000x1_S100000x172_1_0_0_1 : ScatterDims S500000x172 S100000x1 S100000x172 where
  updateWindowDims := [1]
  insertedWindowDims := [0]
  scatterDimsToOperandDims := [0]
  indexVectorDim := 1
  wf := scatter_S500000x172_S100000x1_S100000x172_1_0_0_1_wf
def dot_S1000x172_S172x344_S1000x344_1_0_0_1_n_n : DotDims S1000x172 S172x344 S1000x344 where
  lhsContracting := [1]
  rhsContracting := [0]
  lhsNonContracting := [0]
  rhsNonContracting := [1]
  lhsBatch := []
  rhsBatch := []
  wf := dot_S1000x172_S172x344_S1000x344_1_0_0_1_n_n_wf
def dot_S1000x344_S344x100_S1000x100_1_0_0_1_n_n : DotDims S1000x344 S344x100 S1000x100 where
  lhsContracting := [1]
  rhsContracting := [0]
  lhsNonContracting := [0]
  rhsNonContracting := [1]
  lhsBatch := []
  rhsBatch := []
  wf := dot_S1000x344_S344x100_S1000x100_1_0_0_1_n_n_wf
def dot_S1000x100_S100x172_S1000x172_1_0_0_1_n_n : DotDims S1000x100 S100x172 S1000x172 where
  lhsContracting := [1]
  rhsContracting := [0]
  lhsNonContracting := [0]
  rhsNonContracting := [1]
  lhsBatch := []
  rhsBatch := []
  wf := dot_S1000x100_S100x172_S1000x172_1_0_0_1_n_n_wf
def dot_S1000x172_S172x172_S1000x172_1_0_0_1_n_n : DotDims S1000x172 S172x172 S1000x172 where
  lhsContracting := [1]
  rhsContracting := [0]
  lhsNonContracting := [0]
  rhsNonContracting := [1]
  lhsBatch := []
  rhsBatch := []
  wf := dot_S1000x172_S172x172_S1000x172_1_0_0_1_n_n_wf

abbrev win0_0 : Pipeline.Window sig grid0 :=
  Pipeline.Window.ofSpec (Memref.whole main_call0_v6) S1000x172.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S1000x172.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1000x172.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v29) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v68) S1x172.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v69) S1x172.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v32) S172x344.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v35) S172x344.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v38) S172x344.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v41) S172x344.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S344.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v43) S344x100.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S100.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v46) S100x172.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v49) S100x172.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v52) S100x172.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v55) S172x172.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_call0_v58) S172x172.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_call0_v61) S172x172.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_call0_v62) S172.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_call0_v63) S172.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_call0_v64) S172.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_call0_v65) S172.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_call0_v66) S172.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_call0_v67) S172.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_call0_v70) S1000x172.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S500000x172 : Shape := ⟨2, ![500000, 172]⟩
abbrev S500000 : Shape := ⟨1, ![500000]⟩
abbrev S172 : Shape := ⟨1, ![172]⟩
abbrev S344x688 : Shape := ⟨2, ![344, 688]⟩
abbrev S344 : Shape := ⟨1, ![344]⟩
abbrev S100x344 : Shape := ⟨2, ![100, 344]⟩
abbrev S100 : Shape := ⟨1, ![100]⟩
abbrev S516x100 : Shape := ⟨2, ![516, 100]⟩
abbrev S516x172 : Shape := ⟨2, ![516, 172]⟩
abbrev S516 : Shape := ⟨1, ![516]⟩
abbrev S100000 : Shape := ⟨1, ![100000]⟩
abbrev S_ : Shape := ⟨0, ![]⟩
abbrev S100000x1 : Shape := ⟨2, ![100000, 1]⟩
abbrev S100000x172 : Shape := ⟨2, ![100000, 172]⟩
abbrev S1x172 : Shape := ⟨2, ![1, 172]⟩
abbrev S100000x688 : Shape := ⟨2, ![100000, 688]⟩
abbrev S688x344 : Shape := ⟨2, ![688, 344]⟩
abbrev S100000x344 : Shape := ⟨2, ![100000, 344]⟩
abbrev S1x344 : Shape := ⟨2, ![1, 344]⟩
abbrev S344x100 : Shape := ⟨2, ![344, 100]⟩
abbrev S100000x100 : Shape := ⟨2, ![100000, 100]⟩
abbrev S1x100 : Shape := ⟨2, ![1, 100]⟩
abbrev S100x516 : Shape := ⟨2, ![100, 516]⟩
abbrev S100000x516 : Shape := ⟨2, ![100000, 516]⟩
abbrev S1x516 : Shape := ⟨2, ![1, 516]⟩
abbrev S172x516 : Shape := ⟨2, ![172, 516]⟩

abbrev nBuf : Space → Nat
  | .hbm => 148
  | .vmem => 0
  | .smem => 0
  | _ => 0

abbrev hbmTy0_0 (i : Nat) : BufTy := match i % 128 with
  | 0 => ⟨S500000x172, .f32⟩
  | 1 => ⟨S500000, .f32⟩
  | 2 => ⟨S500000x172, .f32⟩
  | 3 => ⟨S172, .f32⟩
  | 4 => ⟨S172, .f32⟩
  | 5 => ⟨S344x688, .f32⟩
  | 6 => ⟨S344, .f32⟩
  | 7 => ⟨S100x344, .f32⟩
  | 8 => ⟨S100, .f32⟩
  | 9 => ⟨S516x100, .f32⟩
  | 10 => ⟨S516x172, .f32⟩
  | 11 => ⟨S516, .f32⟩
  | 12 => ⟨S516, .f32⟩
  | 13 => ⟨S100000, .f32⟩
  | 14 => ⟨S100000, .i32⟩
  | 15 => ⟨S100000, .i32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x172, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x172, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x172, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000, .f32⟩
  | 53 => ⟨S100000, .f32⟩
  | 54 => ⟨S100000x1, .f32⟩
  | 55 => ⟨S1x172, .f32⟩
  | 56 => ⟨S100000x172, .f32⟩
  | 57 => ⟨S100000x172, .f32⟩
  | 58 => ⟨S100000x172, .f32⟩
  | 59 => ⟨S1x172, .f32⟩
  | 60 => ⟨S100000x172, .f32⟩
  | 61 => ⟨S100000x172, .f32⟩
  | 62 => ⟨S100000x172, .f32⟩
  | 63 => ⟨S100000x688, .f32⟩
  | 64 => ⟨S688x344, .f32⟩
  | 65 => ⟨S100000x344, .f32⟩
  | 66 => ⟨S1x344, .f32⟩
  | 67 => ⟨S100000x344, .f32⟩
  | 68 => ⟨S100000x344, .f32⟩
  | 69 => ⟨S_, .f32⟩
  | 70 => ⟨S100000x344, .f32⟩
  | 71 => ⟨S100000x344, .f32⟩
  | 72 => ⟨S344x100, .f32⟩
  | 73 => ⟨S100000x100, .f32⟩
  | 74 => ⟨S1x100, .f32⟩
  | 75 => ⟨S100000x100, .f32⟩
  | 76 => ⟨S100000x100, .f32⟩
  | 77 => ⟨S100x516, .f32⟩
  | 78 => ⟨S100000x516, .f32⟩
  | 79 => ⟨S1x516, .f32⟩
  | 80 => ⟨S100000x516, .f32⟩
  | 81 => ⟨S100000x516, .f32⟩
  | 82 => ⟨S172x516, .f32⟩
  | 83 => ⟨S100000x516, .f32⟩
  | 84 => ⟨S1x516, .f32⟩
  | 85 => ⟨S100000x516, .f32⟩
  | 86 => ⟨S100000x516, .f32⟩
  | 87 => ⟨S100000x172, .f32⟩
  | 88 => ⟨S100000x172, .f32⟩
  | 89 => ⟨S100000x172, .f32⟩
  | 90 => ⟨S100000x172, .f32⟩
  | 91 => ⟨S100000x172, .f32⟩
  | 92 => ⟨S100000x172, .f32⟩
  | 93 => ⟨S100000x172, .f32⟩
  | 94 => ⟨S100000x172, .f32⟩
  | 95 => ⟨S100000x172, .f32⟩
  | 96 => ⟨S_, .f32⟩
  | 97 => ⟨S100000x172, .f32⟩
  | 98 => ⟨S100000x172, .f32⟩
  | 99 => ⟨S_, .f32⟩
  | 100 => ⟨S100000x172, .f32⟩
  | 101 => ⟨S100000x172, .f32⟩
  | 102 => ⟨S100000x172, .f32⟩
  | 103 => ⟨S100000x172, .f32⟩
  | 104 => ⟨S100000x172, .f32⟩
  | 105 => ⟨S_, .f32⟩
  | 106 => ⟨S100000x172, .f32⟩
  | 107 => ⟨S100000x172, .f32⟩
  | 108 => ⟨S_, .f32⟩
  | 109 => ⟨S100000x172, .f32⟩
  | 110 => ⟨S100000x172, .f32⟩
  | 111 => ⟨S100000x172, .f32⟩
  | 112 => ⟨S100000x172, .f32⟩
  | 113 => ⟨S100000x172, .f32⟩
  | 114 => ⟨S_, .f32⟩
  | 115 => ⟨S100000x172, .f32⟩
  | 116 => ⟨S100000x172, .f32⟩
  | 117 => ⟨S100000x172, .f32⟩
  | 118 => ⟨S100000x172, .f32⟩
  | 119 => ⟨S100000x172, .f32⟩
  | 120 => ⟨S100000, .i32⟩
  | 121 => ⟨S_, .i32⟩
  | 122 => ⟨S500000, .i32⟩
  | 123 => ⟨S100000x1, .i32⟩
  | 124 => ⟨S500000, .i32⟩
  | 125 => ⟨S_, .i32⟩
  | 126 => ⟨S100000, .i32⟩
  | 127 => ⟨S100000, .i1⟩
  | _ => ⟨S500000x172, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000, .i32⟩
  | 6 => ⟨S100000, .i1⟩
  | 7 => ⟨S_, .i32⟩
  | 8 => ⟨S_, .i32⟩
  | 9 => ⟨S100000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S500000x172, .f32⟩
  | _ => ⟨S500000x172, .f32⟩

abbrev hbmTy (i : Nat) : BufTy := match i / 128 with
  | 0 => hbmTy0_0 i
  | 1 => hbmTy0_1 i
  | _ => ⟨S500000x172, .f32⟩

abbrev bufTy : (tb : Table) → Fin (tcTables nBuf tb) → BufTy
  | .hbm, ⟨i, _⟩ => hbmTy i
  | _, _ => ⟨S500000x172, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst : Ref sig .tc := ⟨.hbm, 96, rfl⟩
abbrev main_v69 : Ref sig .tc := ⟨.hbm, 97, rfl⟩
abbrev main_v70 : Ref sig .tc := ⟨.hbm, 98, rfl⟩
abbrev main_cst_7 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_cst_9 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_10 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_11 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_12 : Ref sig .tc := ⟨.hbm, 125, rfl⟩
abbrev main_v92 : Ref sig .tc := ⟨.hbm, 126, rfl⟩
abbrev main_v93 : Ref sig .tc := ⟨.hbm, 127, rfl⟩
abbrev main_c_13 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_14 : Ref sig .tc := ⟨.hbm, 135, rfl⟩
abbrev main_call1_v0 : Ref sig .tc := ⟨.hbm, 136, rfl⟩
abbrev main_call1_v1 : Ref sig .tc := ⟨.hbm, 137, rfl⟩
abbrev main_v100 : Ref sig .tc := ⟨.hbm, 138, rfl⟩
abbrev main_c_15 : Ref sig .tc := ⟨.hbm, 139, rfl⟩
abbrev main_v101 : Ref sig .tc := ⟨.hbm, 140, rfl⟩
abbrev main_v102 : Ref sig .tc := ⟨.hbm, 141, rfl⟩
abbrev main_c_16 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S172_S1x172_1 : S172.BroadcastsInDim S1x172 (![1] : Fin 1 → Fin S1x172.rank)
  bcast_S100000x1_S100000x172_0_1 : S100000x1.BroadcastsInDim S100000x172 (![0, 1] : Fin 2 → Fin S100000x172.rank)
  bcast_S1x172_S100000x172_0_1 : S1x172.BroadcastsInDim S100000x172 (![0, 1] : Fin 2 → Fin S100000x172.rank)
  concatenates_S100000x172_S100000x172_S100000x172_S100000x172_S100000x688_d1 : Shape.Concatenates [S100000x172, S100000x172, S100000x172, S100000x172] S100000x688 1
  transposes_S344x688_S688x344_1_0 : S344x688.Transposes [1, 0] S688x344
  bcast_S344_S1x344_1 : S344.BroadcastsInDim S1x344 (![1] : Fin 1 → Fin S1x344.rank)
  bcast_S1x344_S100000x344_0_1 : S1x344.BroadcastsInDim S100000x344 (![0, 1] : Fin 2 → Fin S100000x344.rank)
  bcast_S_S100000x344 : S_.BroadcastsInDim S100000x344 (![] : Fin 0 → Fin S100000x344.rank)
  transposes_S100x344_S344x100_1_0 : S100x344.Transposes [1, 0] S344x100
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  transposes_S516x100_S100x516_1_0 : S516x100.Transposes [1, 0] S100x516
  bcast_S516_S1x516_1 : S516.BroadcastsInDim S1x516 (![1] : Fin 1 → Fin S1x516.rank)
  bcast_S1x516_S100000x516_0_1 : S1x516.BroadcastsInDim S100000x516 (![0, 1] : Fin 2 → Fin S100000x516.rank)
  transposes_S516x172_S172x516_1_0 : S516x172.Transposes [1, 0] S172x516
  slices_S100000x516_S100000x172_0_0 : S100000x516.Slices ![0, 0] S100000x172
  slices_S100000x516_S100000x172_0_172 : S100000x516.Slices ![0, 172] S100000x172
  slices_S100000x516_S100000x172_0_344 : S100000x516.Slices ![0, 344] S100000x172
  bcast_S_S100000x172 : S_.BroadcastsInDim S100000x172 (![] : Fin 0 → Fin S100000x172.rank)
  bcast_S_S500000 : S_.BroadcastsInDim S500000 (![] : Fin 0 → Fin S500000.rank)
  gather_S500000x172_S100000x1_S100000x172_1_0_n_n_0_1_1172_wf : GatherDims.WF S500000x172 S100000x1 S100000x172 [1] [0] [] [0] [] 1 ![1, 172]
  gather_S500000_S100000x1_S100000_n_0_n_n_0_1_1_wf : GatherDims.WF S500000 S100000x1 S100000 [] [0] [] [0] [] 1 ![1]
  dot_S100000x688_S688x344_S100000x344_1_0_0_1_n_n_wf : DotDims.WF S100000x688 S688x344 S100000x344 [1] [0] [0] [1] [] []
  dot_S100000x344_S344x100_S100000x100_1_0_0_1_n_n_wf : DotDims.WF S100000x344 S344x100 S100000x100 [1] [0] [0] [1] [] []
  dot_S100000x100_S100x516_S100000x516_1_0_0_1_n_n_wf : DotDims.WF S100000x100 S100x516 S100000x516 [1] [0] [0] [1] [] []
  dot_S100000x172_S172x516_S100000x516_1_0_0_1_n_n_wf : DotDims.WF S100000x172 S172x516 S100000x516 [1] [0] [0] [1] [] []
  scatter_S500000_S100000x1_S100000_n_0_0_1_wf : ScatterDims.WF S500000 S100000x1 S100000 [] [0] [0] 1
  scatter_S500000x172_S100000x1_S100000x172_1_0_0_1_wf : ScatterDims.WF S500000x172 S100000x1 S100000x172 [1] [0] [0] 1

variable [Facts₀]

def gather_S500000x172_S100000x1_S100000x172_1_0_n_n_0_1_1172 : GatherDims S500000x172 S100000x1 S100000x172 where
  offsetDims := [1]
  collapsedSliceDims := [0]
  operandBatchingDims := []
  startIndicesBatchingDims := []
  startIndexMap := [0]
  indexVectorDim := 1
  sliceSizes := ![1, 172]
  wf := gather_S500000x172_S100000x1_S100000x172_1_0_n_n_0_1_1172_wf
def gather_S500000_S100000x1_S100000_n_0_n_n_0_1_1 : GatherDims S500000 S100000x1 S100000 where
  offsetDims := []
  collapsedSliceDims := [0]
  operandBatchingDims := []
  startIndicesBatchingDims := []
  startIndexMap := [0]
  indexVectorDim := 1
  sliceSizes := ![1]
  wf := gather_S500000_S100000x1_S100000_n_0_n_n_0_1_1_wf
def dot_S100000x688_S688x344_S100000x344_1_0_0_1_n_n : DotDims S100000x688 S688x344 S100000x344 where
  lhsContracting := [1]
  rhsContracting := [0]
  lhsNonContracting := [0]
  rhsNonContracting := [1]
  lhsBatch := []
  rhsBatch := []
  wf := dot_S100000x688_S688x344_S100000x344_1_0_0_1_n_n_wf
def dot_S100000x344_S344x100_S100000x100_1_0_0_1_n_n : DotDims S100000x344 S344x100 S100000x100 where
  lhsContracting := [1]
  rhsContracting := [0]
  lhsNonContracting := [0]
  rhsNonContracting := [1]
  lhsBatch := []
  rhsBatch := []
  wf := dot_S100000x344_S344x100_S100000x100_1_0_0_1_n_n_wf
def dot_S100000x100_S100x516_S100000x516_1_0_0_1_n_n : DotDims S100000x100 S100x516 S100000x516 where
  lhsContracting := [1]
  rhsContracting := [0]
  lhsNonContracting := [0]
  rhsNonContracting := [1]
  lhsBatch := []
  rhsBatch := []
  wf := dot_S100000x100_S100x516_S100000x516_1_0_0_1_n_n_wf
def dot_S100000x172_S172x516_S100000x516_1_0_0_1_n_n : DotDims S100000x172 S172x516 S100000x516 where
  lhsContracting := [1]
  rhsContracting := [0]
  lhsNonContracting := [0]
  rhsNonContracting := [1]
  lhsBatch := []
  rhsBatch := []
  wf := dot_S100000x172_S172x516_S100000x516_1_0_0_1_n_n_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf
def scatter_S500000x172_S100000x1_S100000x172_1_0_0_1 : ScatterDims S500000x172 S100000x1 S100000x172 where
  updateWindowDims := [1]
  insertedWindowDims := [0]
  scatterDimsToOperandDims := [0]
  indexVectorDim := 1
  wf := scatter_S500000x172_S100000x1_S100000x172_1_0_0_1_wf

class Facts : Prop extends Facts₀ where

variable [Facts]
-- ==== Proof.HostArrs.lean ====
/-
  The arrays the host operations before the region write, read at an index. Before its one region the program runs a
  line of host operations; the region's weight windows read arrays that line wrote: column groups of main_arg5 and row
  groups of main_arg9 and main_arg10, each transposed and rounded to bf16; main_arg7 transposed and rounded; thirds of
  the vectors main_arg11 and main_arg12; main_arg3 and main_arg4 as rows. Rounding is the identity in exact arithmetic,
  so each such array, read at an index, is an entry of one argument array: that is stated here, one theorem per
  array, over any contents the line starts from.
  Every operation of the line writes one buffer of its own, so what the line leaves at a buffer is the value of the one
  operation that writes it, over what the operations before it left (first section); the argument arrays are written
  by none.
-/
import proofs.«130114_j34711925686554_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostArrs

open Cert.KernelIdeal Cert.KernelIdeal.Gen Idealize.ShloMosaic Idealize.ShloMosaic.ValueIdx

/-! ## A line of operations, each writing its own buffer

When every operation of a line writes exactly one buffer and no two write the same, what the line leaves at the
buffer the operation at position i writes is that operation's value over the contents the first i operations left,
and a buffer no operation writes keeps its contents. -/

section Line

variable {tp : Topo} {sg : RefSig} {Val : EltTy → Type}

/-- The operations write, position by position, exactly the listed buffers. -/
abbrev WritesAt (ops : List (HloOp tp sg Val)) (ws : List (Ref sg .tc)) : Prop :=
  List.Forall₂ (fun (op : HloOp tp sg Val) (r : Ref sg .tc) => op.writes = {Proc.devRef (τ := tp) .tc r}) ops ws

/-- A buffer not listed is written by no operation of the line. -/
theorem not_mem_writes {ops : List (HloOp tp sg Val)} {ws : List (Ref sg .tc)} (h : WritesAt ops ws)
    {r : Ref sg .tc} (hr : r ∉ ws) : ∀ op ∈ ops, Proc.devRef (τ := tp) .tc r ∉ op.writes := by
  induction h with
  | nil => intro op hop; cases hop
  | cons hw _ ih =>
    intro op hop
    rcases List.mem_cons.mp hop with rfl | hop
    · rw [hw, Finset.mem_singleton]
      exact fun e => hr (List.mem_cons.mpr (Or.inl (Proc.devRef_injective _ e)))
    · exact ih (fun h' => hr (List.mem_cons_of_mem _ h')) op hop

/-- A buffer not listed holds, after any initial stretch of the line, what it held before. -/
theorem after_take_of_not_mem {ops : List (HloOp tp sg Val)} {ws : List (Ref sg .tc)} (h : WritesAt ops ws)
    (V : Valuation tp sg Val) (n : Nat) {r : Ref sg .tc} (hr : r ∉ ws) :
    StableHlo.after (ops.take n) V (Proc.devRef .tc r) = V (Proc.devRef .tc r) :=
  StableHlo.after_of_forall_not_mem _ V fun op hop => not_mem_writes h hr op (List.mem_of_mem_take hop)

/-- The buffer written at position i, after the first n > i operations, holds the i-th operation's value over what
    the first i operations left. -/
theorem after_take_at {ops : List (HloOp tp sg Val)} {ws : List (Ref sg .tc)} (h : WritesAt ops ws) (hnd : ws.Nodup)
    (V : Valuation tp sg Val) (n i : Nat) (hin : i < n) (op : HloOp tp sg Val) (r : Ref sg .tc)
    (hop : ops[i]? = some op) (hr : ws[i]? = some r) :
    StableHlo.after (ops.take n) V (Proc.devRef .tc r) = op.result (StableHlo.after (ops.take i) V) (Proc.devRef .tc r) := by
  induction h generalizing V n i with
  | nil => simp at hop
  | @cons op0 r0 ops ws hw hrest ih =>
    obtain ⟨hr0, hnd'⟩ := List.nodup_cons.mp hnd
    cases n with
    | zero => exact absurd hin (Nat.not_lt_zero _)
    | succ n =>
      cases i with
      | zero =>
        simp only [List.getElem?_cons_zero, Option.some.injEq] at hop hr
        subst hop; subst hr
        simp only [List.take_succ_cons, List.take_zero, StableHlo.after_cons, StableHlo.after_nil]
        exact StableHlo.after_of_forall_not_mem _ _ fun o ho => not_mem_writes hrest hr0 o (List.mem_of_mem_take ho)
      | succ i =>
        simp only [List.getElem?_cons_succ] at hop hr
        simp only [List.take_succ_cons, StableHlo.after_cons]
        exact ih hnd' _ n i (Nat.lt_of_succ_lt_succ hin) hop hr

/-- The same after the whole line. -/
theorem after_at {ops : List (HloOp tp sg Val)} {ws : List (Ref sg .tc)} (h : WritesAt ops ws) (hnd : ws.Nodup)
    (V : Valuation tp sg Val) (i : Nat) (op : HloOp tp sg Val) (r : Ref sg .tc)
    (hop : ops[i]? = some op) (hr : ws[i]? = some r) :
    StableHlo.after ops V (Proc.devRef .tc r) = op.result (StableHlo.after (ops.take i) V) (Proc.devRef .tc r) := by
  have e := after_take_at h hnd V (i + 1 + ops.length) i (by omega) op r hop hr
  rwa [List.take_of_length_le (by omega)] at e

end Line

/-! ## The host operations before the region -/

/-- The buffers the host operations write, in order. -/
abbrev written0 : List (Ref sig .tc) :=
  [main_call0_c, main_call0_v0, main_call0_v1, main_call0_c_0, main_call0_v2, main_call0_v3, main_call0_v4, main_call0_v5, main_call0_v6, main_call0_c_1, main_call0_v7, main_call0_v8, main_call0_c_2, main_call0_v9, main_call0_v10, main_call0_v11, main_call0_v12, main_call0_v13, main_call0_c_3, main_call0_v14, main_call0_v15, main_call0_c_4, main_call0_v16, main_call0_v17, main_call0_v18, main_call0_v19, main_call0_v20, main_call0_c_5, main_call0_v21, main_call0_v22, main_call0_c_6, main_call0_v23, main_call0_v24, main_call0_v25, main_call0_v26, main_call0_v27, main_call0_v28, main_call0_v29, main_call0_v30, main_call0_v31, main_call0_v32, main_call0_v33, main_call0_v34, main_call0_v35, main_call0_v36, main_call0_v37, main_call0_v38, main_call0_v39, main_call0_v40, main_call0_v41, main_call0_v42, main_call0_v43, main_call0_v44, main_call0_v45, main_call0_v46, main_call0_v47, main_call0_v48, main_call0_v49, main_call0_v50, main_call0_v51, main_call0_v52, main_call0_v53, main_call0_v54, main_call0_v55, main_call0_v56, main_call0_v57, main_call0_v58, main_call0_v59, main_call0_v60, main_call0_v61, main_call0_v62, main_call0_v63, main_call0_v64, main_call0_v65, main_call0_v66, main_call0_v67, main_call0_v68, main_call0_v69]

theorem written0_nodup : written0.Nodup := by decide

set_option maxHeartbeats 4000000 in
theorem hostOps0_writes : WritesAt (hostOps0 : List (HloOp τ sig (Elt Ideal))) written0 := by
  repeat (first | exact List.Forall₂.nil | refine List.Forall₂.cons rfl ?_)

/-! ## A vector cut from an offset, read at an index -/

/-- A vector cut from o reads, at j, the source at k with k = o + j. -/
theorem slice1_apply {α : Type} {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## The four column groups of main_arg5, each transposed -/

set_option maxHeartbeats 1000000 in
/-- The array at main_call0_v32: the rounding to bf16 of the transpose of columns 0 to 171 of main_arg5. -/
theorem term_v32 (σ : Valuation τ sig (Elt Ideal)) :
    (StableHlo.after (List.flatten [hostOps0]) σ (Proc.devRef .tc main_call0_v32) : FVec Ideal S172x344 .bf16)
      = truncf (F := Ideal) .bf16 (transpose S172x344 [1, 0] (extractStridedSlice S344x172 ![0, 0]
          (σ (Proc.devRef .tc main_arg5) : FVec Ideal S344x688 .f32) slices_S344x688_S344x172_0_0) transposes_S344x172_S172x344_1_0) bitsLt_bf16_f32 := by
  simp only [List.flatten_cons, List.flatten_nil, List.append_nil]
  refine (after_at hostOps0_writes written0_nodup σ 40 _ _ (by exact rfl) (by exact rfl)).trans ?_
  rw [StableHlo.unary_result, after_take_at hostOps0_writes written0_nodup σ 40 39 (by decide) _ _ (by exact rfl) (by exact rfl), StableHlo.unary_result,
    after_take_at hostOps0_writes written0_nodup σ 39 38 (by decide) _ _ (by exact rfl) (by exact rfl), StableHlo.unary_result,
    after_take_of_not_mem hostOps0_writes σ 38 (r := main_arg5) (by decide)]
  rfl

/-- Entry (a, b) of it is entry (b, 0 + a) of main_arg5. -/
theorem arr_v32 (σ : Valuation τ sig (Elt Ideal)) (a : Fin 172) (b : Fin 344) :
    (StableHlo.after (List.flatten [hostOps0]) σ (Proc.devRef .tc main_call0_v32) : S172x344.Idx → EReal) (ix2 a b)
      = (σ (Proc.devRef .tc main_arg5) : S344x688.Idx → EReal) (ix2 b (⟨0 + a.val, by omega⟩ : Fin 688)) := by
  rw [term_v32, truncf_apply, transpose_ix2_apply, slice2_axis1_eq]

set_option maxHeartbeats 1000000 in
/-- The array at main_call0_v35: the rounding to bf16 of the transpose of columns 172 to 343 of main_arg5. -/
theorem term_v35 (σ : Valuation τ sig (Elt Ideal)) :
    (StableHlo.after (List.flatten [hostOps0]) σ (Proc.devRef .tc main_call0_v35) : FVec Ideal S172x344 .bf16)
      = truncf (F := Ideal) .bf16 (transpose S172x344 [1, 0] (extractStridedSlice S344x172 ![0, 172]
          (σ (Proc.devRef .tc main_arg5) : FVec Ideal S344x688 .f32) slices_S344x688_S344x172_0_172) transposes_S344x172_S172x344_1_0) bitsLt_bf16_f32 := by
  simp only [List.flatten_cons, List.flatten_nil, List.append_nil]
  refine (after_at hostOps0_writes written0_nodup σ 43 _ _ (by exact rfl) (by exact rfl)).trans ?_
  rw [StableHlo.unary_result, after_take_at hostOps0_writes written0_nodup σ 43 42 (by decide) _ _ (by exact rfl) (by exact rfl), StableHlo.unary_result,
    after_take_at hostOps0_writes written0_nodup σ 42 41 (by decide) _ _ (by exact rfl) (by exact rfl), StableHlo.unary_result,
    after_take_of_not_mem hostOps0_writes σ 41 (r := main_arg5) (by decide)]
  rfl

/-- Entry (a, b) of it is entry (b, 172 + a) of main_arg5. -/
theorem arr_v35 (σ : Valuation τ sig (Elt Ideal)) (a : Fin 172) (b : Fin 344) :
    (StableHlo.after (List.flatten [hostOps0]) σ (Proc.devRef .tc main_call0_v35) : S172x344.Idx → EReal) (ix2 a b)
      = (σ (Proc.devRef .tc main_arg5) : S344x688.Idx → EReal) (ix2 b (⟨172 + a.val, by omega⟩ : Fin 688)) := by
  rw [term_v35, truncf_apply, transpose_ix2_apply, slice2_axis1_eq]

set_option maxHeartbeats 1000000 in
/-- The array at main_call0_v38: the rounding to bf16 of the transpose of columns 344 to 515 of main_arg5. -/
theorem term_v38 (σ : Valuation τ sig (Elt Ideal)) :
    (StableHlo.after (List.flatten [hostOps0]) σ (Proc.devRef .tc main_call0_v38) : FVec Ideal S172x344 .bf16)
      = truncf (F := Ideal) .bf16 (transpose S172x344 [1, 0] (extractStridedSlice S344x172 ![0, 344]
          (σ (Proc.devRef .tc main_arg5) : FVec Ideal S344x688 .f32) slices_S344x688_S344x172_0_344) transposes_S344x172_S172x344_1_0) bitsLt_bf16_f32 := by
  simp only [List.flatten_cons, List.flatten_nil, List.append_nil]
  refine (after_at hostOps0_writes written0_nodup σ 46 _ _ (by exact rfl) (by exact rfl)).trans ?_
  rw [StableHlo.unary_result, after_take_at hostOps0_writes written0_nodup σ 46 45 (by decide) _ _ (by exact rfl) (by exact rfl), StableHlo.unary_result,
    after_take_at hostOps0_writes written0_nodup σ 45 44 (by decide) _ _ (by exact rfl) (by exact rfl), StableHlo.unary_result,
    after_take_of_not_mem hostOps0_writes σ 44 (r := main_arg5) (by decide)]
  rfl

/-- Entry (a, b) of it is entry (b, 344 + a) of main_arg5. -/
theorem arr_v38 (σ : Valuation τ sig (Elt Ideal)) (a : Fin 172) (b : Fin 344) :
    (StableHlo.after (List.flatten [hostOps0]) σ (Proc.devRef .tc main_call0_v38) : S172x344.Idx → EReal) (ix2 a b)
      = (σ (Proc.devRef .tc main_arg5) : S344x688.Idx → EReal) (ix2 b (⟨344 + a.val, by omega⟩ : Fin 688)) := by
  rw [term_v38, truncf_apply, transpose_ix2_apply, slice2_axis1_eq]

set_option maxHeartbeats 1000000 in
/-- The array at main_call0_v41: the rounding to bf16 of the transpose of columns 516 to 687 of main_arg5. -/
theorem term_v41 (σ : Valuation τ sig (Elt Ideal)) :
    (StableHlo.after (List.flatten [hostOps0]) σ (Proc.devRef .tc main_call0_v41) : FVec Ideal S172x344 .bf16)
      = truncf (F := Ideal) .bf16 (transpose S172x344 [1, 0] (extractStridedSlice S344x172 ![0, 516]
          (σ (Proc.devRef .tc main_arg5) : FVec Ideal S344x688 .f32) slices_S344x688_S344x172_0_516) transposes_S344x172_S172x344_1_0) bitsLt_bf16_f32 := by
  simp only [List.flatten_cons, List.flatten_nil, List.append_nil]
  refine (after_at hostOps0_writes written0_nodup σ 49 _ _ (by exact rfl) (by exact rfl)).trans ?_
  rw [StableHlo.unary_result, after_take_at hostOps0_writes written0_nodup σ 49 48 (by decide) _ _ (by exact rfl) (by exact rfl), StableHlo.unary_result,
    after_take_at hostOps0_writes written0_nodup σ 48 47 (by decide) _ _ (by exact rfl) (by exact rfl), StableHlo.unary_result,
    after_take_of_not_mem hostOps0_writes σ 47 (r := main_arg5) (by decide)]
  rfl

/-- Entry (a, b) of it is entry (b, 516 + a) of main_arg5. -/
theorem arr_v41 (σ : Valuation τ sig (Elt Ideal)) (a : Fin 172) (b : Fin 344) :
    (StableHlo.after (List.flatten [hostOps0]) σ (Proc.devRef .tc main_call0_v41) : S172x344.Idx → EReal) (ix2 a b)
      = (σ (Proc.devRef .tc main_arg5) : S344x688.Idx → EReal) (ix2 b (⟨516 + a.val, by omega⟩ : Fin 688)) := by
  rw [term_v41, truncf_apply, transpose_ix2_apply, slice2_axis1_eq]

/-! ## main_arg7 transposed -/

set_option maxHeartbeats 1000000 in
/-- The array at main_call0_v43: the rounding to bf16 of the transpose of main_arg7. -/
theorem term_v43 (σ : Valuation τ sig (Elt Ideal)) :
    (StableHlo.after (List.flatten [hostOps0]) σ (Proc.devRef .tc main_call0_v43) : FVec Ideal S344x100 .bf16)
      = truncf (F := Ideal) .bf16 (transpose S344x100 [1, 0]
          (σ (Proc.devRef .tc main_arg7) : FVec Ideal S100x344 .f32) transposes_S100x344_S344x100_1_0) bitsLt_bf16_f32 := by
  simp only [List.flatten_cons, List.flatten_nil, List.append_nil]
  refine (after_at hostOps0_writes written0_nodup σ 51 _ _ (by exact rfl) (by exact rfl)).trans ?_
  rw [StableHlo.unary_result, after_take_at hostOps0_writes written0_nodup σ 51 50 (by decide) _ _ (by exact rfl) (by exact rfl), StableHlo.unary_result,
    after_take_of_not_mem hostOps0_writes σ 50 (r := main_arg7) (by decide)]
  rfl

/-- Entry (a, b) of it is entry (b, a) of main_arg7. -/
theorem arr_v43 (σ : Valuation τ sig (Elt Ideal)) (a : Fin 344) (b : Fin 100) :
    (StableHlo.after (List.flatten [hostOps0]) σ (Proc.devRef .tc main_call0_v43) : S344x100.Idx → EReal) (ix2 a b)
      = (σ (Proc.devRef .tc main_arg7) : S100x344.Idx → EReal) (ix2 b a) := by
  rw [term_v43, truncf_apply, transpose_ix2_apply]

/-! ## The three row groups of main_arg9, each transposed -/

set_option maxHeartbeats 1000000 in
/-- The array at main_call0_v46: the rounding to bf16 of the transpose of rows 0 to 171 of main_arg9. -/
theorem term_v46 (σ : Valuation τ sig (Elt Ideal)) :
    (StableHlo.after (List.flatten [hostOps0]) σ (Proc.devRef .tc main_call0_v46) : FVec Ideal S100x172 .bf16)
      = truncf (F := Ideal) .bf16 (transpose S100x172 [1, 0] (extractStridedSlice S172x100 ![0, 0]
          (σ (Proc.devRef .tc main_arg9) : FVec Ideal S516x100 .f32) slices_S516x100_S172x100_0_0) transposes_S172x100_S100x172_1_0) bitsLt_bf16_f32 := by
  simp only [List.flatten_cons, List.flatten_nil, List.append_nil]
  refine (after_at hostOps0_writes written0_nodup σ 54 _ _ (by exact rfl) (by exact rfl)).trans ?_
  rw [StableHlo.unary_result, after_take_at hostOps0_writes written0_nodup σ 54 53 (by decide) _ _ (by exact rfl) (by exact rfl), StableHlo.unary_result,
    after_take_at hostOps0_writes written0_nodup σ 53 52 (by decide) _ _ (by exact rfl) (by exact rfl), StableHlo.unary_result,
    after_take_of_not_mem hostOps0_writes σ 52 (r := main_arg9) (by decide)]
  rfl

/-- Entry (a, b) of it is entry (0 + b, a) of main_arg9. -/
theorem arr_v46 (σ : Valuation τ sig (Elt Ideal)) (a : Fin 100) (b : Fin 172) :
    (StableHlo.after (List.flatten [hostOps0]) σ (Proc.devRef .tc main_call0_v46) : S100x172.Idx → EReal) (ix2 a b)
      = (σ (Proc.devRef .tc main_arg9) : S516x100.Idx → EReal) (ix2 (⟨0 + b.val, by omega⟩ : Fin 516) a) := by
  rw [term_v46, truncf_apply, transpose_ix2_apply, slice2_axis0_eq]

set_option maxHeartbeats 1000000 in
/-- The array at main_call0_v49: the rounding to bf16 of the transpose of rows 172 to 343 of main_arg9. -/
theorem term_v49 (σ : Valuation τ sig (Elt Ideal)) :
    (StableHlo.after (List.flatten [hostOps0]) σ (Proc.devRef .tc main_call0_v49) : FVec Ideal S100x172 .bf16)
      = truncf (F := Ideal) .bf16 (transpose S100x172 [1, 0] (extractStridedSlice S172x100 ![172, 0]
          (σ (Proc.devRef .tc main_arg9) : FVec Ideal S516x100 .f32) slices_S516x100_S172x100_172_0) transposes_S172x100_S100x172_1_0) bitsLt_bf16_f32 := by
  simp only [List.flatten_cons, List.flatten_nil, List.append_nil]
  refine (after_at hostOps0_writes written0_nodup σ 57 _ _ (by exact rfl) (by exact rfl)).trans ?_
  rw [StableHlo.unary_result, after_take_at hostOps0_writes written0_nodup σ 57 56 (by decide) _ _ (by exact rfl) (by exact rfl), StableHlo.unary_result,
    after_take_at hostOps0_writes written0_nodup σ 56 55 (by decide) _ _ (by exact rfl) (by exact rfl), StableHlo.unary_result,
    after_take_of_not_mem hostOps0_writes σ 55 (r := main_arg9) (by decide)]
  rfl

/-- Entry (a, b) of it is entry (172 + b, a) of main_arg9. -/
theorem arr_v49 (σ : Valuation τ sig (Elt Ideal)) (a : Fin 100) (b : Fin 172) :
    (StableHlo.after (List.flatten [hostOps0]) σ (Proc.devRef .tc main_call0_v49) : S100x172.Idx → EReal) (ix2 a b)
      = (σ (Proc.devRef .tc main_arg9) : S516x100.Idx → EReal) (ix2 (⟨172 + b.val, by omega⟩ : Fin 516) a) := by
  rw [term_v49, truncf_apply, transpose_ix2_apply, slice2_axis0_eq]

set_option maxHeartbeats 1000000 in
/-- The array at main_call0_v52: the rounding to bf16 of the transpose of rows 344 to 515 of main_arg9. -/
theorem term_v52 (σ : Valuation τ sig (Elt Ideal)) :
    (StableHlo.after (List.flatten [hostOps0]) σ (Proc.devRef .tc main_call0_v52) : FVec Ideal S100x172 .bf16)
      = truncf (F := Ideal) .bf16 (transpose S100x172 [1, 0] (extractStridedSlice S172x100 ![344, 0]
          (σ (Proc.devRef .tc main_arg9) : FVec Ideal S516x100 .f32) slices_S516x100_S172x100_344_0) transposes_S172x100_S100x172_1_0) bitsLt_bf16_f32 := by
  simp only [List.flatten_cons, List.flatten_nil, List.append_nil]
  refine (after_at hostOps0_writes written0_nodup σ 60 _ _ (by exact rfl) (by exact rfl)).trans ?_
  rw [StableHlo.unary_result, after_take_at hostOps0_writes written0_nodup σ 60 59 (by decide) _ _ (by exact rfl) (by exact rfl), StableHlo.unary_result,
    after_take_at hostOps0_writes written0_nodup σ 59 58 (by decide) _ _ (by exact rfl) (by exact rfl), StableHlo.unary_result,
    after_take_of_not_mem hostOps0_writes σ 58 (r := main_arg9) (by decide)]
  rfl

/-- Entry (a, b) of it is entry (344 + b, a) of main_arg9. -/
theorem arr_v52 (σ : Valuation τ sig (Elt Ideal)) (a : Fin 100) (b : Fin 172) :
    (StableHlo.after (List.flatten [hostOps0]) σ (Proc.devRef .tc main_call0_v52) : S100x172.Idx → EReal) (ix2 a b)
      = (σ (Proc.devRef .tc main_arg9) : S516x100.Idx → EReal) (ix2 (⟨344 + b.val, by omega⟩ : Fin 516) a) := by
  rw [term_v52, truncf_apply, transpose_ix2_apply, slice2_axis0_eq]

/-! ## The three row groups of main_arg10, each transposed -/

set_option maxHeartbeats 1000000 in
/-- The array at main_call0_v55: the rounding to bf16 of the transpose of rows 0 to 171 of main_arg10. -/
theorem term_v55 (σ : Valuation τ sig (Elt Ideal)) :
    (StableHlo.after (List.flatten [hostOps0]) σ (Proc.devRef .tc main_call0_v55) : FVec Ideal S172x172 .bf16)
      = truncf (F := Ideal) .bf16 (transpose S172x172 [1, 0] (extractStridedSlice S172x172 ![0, 0]
          (σ (Proc.devRef .tc main_arg10) : FVec Ideal S516x172 .f32) slices_S516x172_S172x172_0_0) transposes_S172x172_S172x172_1_0) bitsLt_bf16_f32 := by
  simp only [List.flatten_cons, List.flatten_nil, List.append_nil]
  refine (after_at hostOps0_writes written0_nodup σ 63 _ _ (by exact rfl) (by exact rfl)).trans ?_
  rw [StableHlo.unary_result, after_take_at hostOps0_writes written0_nodup σ 63 62 (by decide) _ _ (by exact rfl) (by exact rfl), StableHlo.unary_result,
    after_take_at hostOps0_writes written0_nodup σ 62 61 (by decide) _ _ (by exact rfl) (by exact rfl), StableHlo.unary_result,
    after_take_of_not_mem hostOps0_writes σ 61 (r := main_arg10) (by decide)]
  rfl

/-- Entry (a, b) of it is entry (0 + b, a) of main_arg10. -/
theorem arr_v55 (σ : Valuation τ sig (Elt Ideal)) (a : Fin 172) (b : Fin 172) :
    (StableHlo.after (List.flatten [hostOps0]) σ (Proc.devRef .tc main_call0_v55) : S172x172.Idx → EReal) (ix2 a b)
      = (σ (Proc.devRef .tc main_arg10) : S516x172.Idx → EReal) (ix2 (⟨0 + b.val, by omega⟩ : Fin 516) a) := by
  rw [term_v55, truncf_apply, transpose_ix2_apply, slice2_axis0_eq]

set_option maxHeartbeats 1000000 in
/-- The array at main_call0_v58: the rounding to bf16 of the transpose of rows 172 to 343 of main_arg10. -/
theorem term_v58 (σ : Valuation τ sig (Elt Ideal)) :
    (StableHlo.after (List.flatten [hostOps0]) σ (Proc.devRef .tc main_call0_v58) : FVec Ideal S172x172 .bf16)
      = truncf (F := Ideal) .bf16 (transpose S172x172 [1, 0] (extractStridedSlice S172x172 ![172, 0]
          (σ (Proc.devRef .tc main_arg10) : FVec Ideal S516x172 .f32) slices_S516x172_S172x172_172_0) transposes_S172x172_S172x172_1_0) bitsLt_bf16_f32 := by
  simp only [List.flatten_cons, List.flatten_nil, List.append_nil]
  refine (after_at hostOps0_writes written0_nodup σ 66 _ _ (by exact rfl) (by exact rfl)).trans ?_
  rw [StableHlo.unary_result, after_take_at hostOps0_writes written0_nodup σ 66 65 (by decide) _ _ (by exact rfl) (by exact rfl), StableHlo.unary_result,
    after_take_at hostOps0_writes written0_nodup σ 65 64 (by decide) _ _ (by exact rfl) (by exact rfl), StableHlo.unary_result,
    after_take_of_not_mem hostOps0_writes σ 64 (r := main_arg10) (by decide)]
  rfl

/-- Entry (a, b) of it is entry (172 + b, a) of main_arg10. -/
theorem arr_v58 (σ : Valuation τ sig (Elt Ideal)) (a : Fin 172) (b : Fin 172) :
    (StableHlo.after (List.flatten [hostOps0]) σ (Proc.devRef .tc main_call0_v58) : S172x172.Idx → EReal) (ix2 a b)
      = (σ (Proc.devRef .tc main_arg10) : S516x172.Idx → EReal) (ix2 (⟨172 + b.val, by omega⟩ : Fin 516) a) := by
  rw [term_v58, truncf_apply, transpose_ix2_apply, slice2_axis0_eq]

set_option maxHeartbeats 1000000 in
/-- The array at main_call0_v61: the rounding to bf16 of the transpose of rows 344 to 515 of main_arg10. -/
theorem term_v61 (σ : Valuation τ sig (Elt Ideal)) :
    (StableHlo.after (List.flatten [hostOps0]) σ (Proc.devRef .tc main_call0_v61) : FVec Ideal S172x172 .bf16)
      = truncf (F := Ideal) .bf16 (transpose S172x172 [1, 0] (extractStridedSlice S172x172 ![344, 0]
          (σ (Proc.devRef .tc main_arg10) : FVec Ideal S516x172 .f32) slices_S516x172_S172x172_344_0) transposes_S172x172_S172x172_1_0) bitsLt_bf16_f32 := by
  simp only [List.flatten_cons, List.flatten_nil, List.append_nil]
  refine (after_at hostOps0_writes written0_nodup σ 69 _ _ (by exact rfl) (by exact rfl)).trans ?_
  rw [StableHlo.unary_result, after_take_at hostOps0_writes written0_nodup σ 69 68 (by decide) _ _ (by exact rfl) (by exact rfl), StableHlo.unary_result,
    after_take_at hostOps0_writes written0_nodup σ 68 67 (by decide) _ _ (by exact rfl) (by exact rfl), StableHlo.unary_result,
    after_take_of_not_mem hostOps0_writes σ 67 (r := main_arg10) (by decide)]
  rfl

/-- Entry (a, b) of it is entry (344 + b, a) of main_arg10. -/
theorem arr_v61 (σ : Valuation τ sig (Elt Ideal)) (a : Fin 172) (b : Fin 172) :
    (StableHlo.after (List.flatten [hostOps0]) σ (Proc.devRef .tc main_call0_v61) : S172x172.Idx → EReal) (ix2 a b)
      = (σ (Proc.devRef .tc main_arg10) : S516x172.Idx → EReal) (ix2 (⟨344 + b.val, by omega⟩ : Fin 516) a) := by
  rw [term_v61, truncf_apply, transpose_ix2_apply, slice2_axis0_eq]

/-! ## The three thirds of main_arg11 and of main_arg12 -/

set_option maxHeartbeats 1000000 in
/-- The array at main_call0_v62: entries 0 to 171 of main_arg11. -/
theorem term_v62 (σ : Valuation τ sig (Elt Ideal)) :
    (StableHlo.after (List.flatten [hostOps0]) σ (Proc.devRef .tc main_call0_v62) : FVec Ideal S172 .f32)
      = extractStridedSlice S172 ![0] (σ (Proc.devRef .tc main_arg11) : FVec Ideal S516 .f32) slices_S516_S172_0 := by
  simp only [List.flatten_cons, List.flatten_nil, List.append_nil]
  refine (after_at hostOps0_writes written0_nodup σ 70 _ _ (by exact rfl) (by exact rfl)).trans ?_
  rw [StableHlo.unary_result, after_take_of_not_mem hostOps0_writes σ 70 (r := main_arg11) (by decide)]
  rfl

/-- Entry a of it is entry 0 + a of main_arg11. -/
theorem arr_v62 (σ : Valuation τ sig (Elt Ideal)) (a : Fin 172) :
    (StableHlo.after (List.flatten [hostOps0]) σ (Proc.devRef .tc main_call0_v62) : S172.Idx → EReal) (ix1 a)
      = (σ (Proc.devRef .tc main_arg11) : S516.Idx → EReal) (ix1 (⟨0 + a.val, by omega⟩ : Fin 516)) := by
  rw [term_v62]
  exact slice1_apply 0 _ _ a _ rfl

set_option maxHeartbeats 1000000 in
/-- The array at main_call0_v63: entries 172 to 343 of main_arg11. -/
theorem term_v63 (σ : Valuation τ sig (Elt Ideal)) :
    (StableHlo.after (List.flatten [hostOps0]) σ (Proc.devRef .tc main_call0_v63) : FVec Ideal S172 .f32)
      = extractStridedSlice S172 ![172] (σ (Proc.devRef .tc main_arg11) : FVec Ideal S516 .f32) slices_S516_S172_172 := by
  simp only [List.flatten_cons, List.flatten_nil, List.append_nil]
  refine (after_at hostOps0_writes written0_nodup σ 71 _ _ (by exact rfl) (by exact rfl)).trans ?_
  rw [StableHlo.unary_result, after_take_of_not_mem hostOps0_writes σ 71 (r := main_arg11) (by decide)]
  rfl

/-- Entry a of it is entry 172 + a of main_arg11. -/
theorem arr_v63 (σ : Valuation τ sig (Elt Ideal)) (a : Fin 172) :
    (StableHlo.after (List.flatten [hostOps0]) σ (Proc.devRef .tc main_call0_v63) : S172.Idx → EReal) (ix1 a)
      = (σ (Proc.devRef .tc main_arg11) : S516.Idx → EReal) (ix1 (⟨172 + a.val, by omega⟩ : Fin 516)) := by
  rw [term_v63]
  exact slice1_apply 172 _ _ a _ rfl

set_option maxHeartbeats 1000000 in
/-- The array at main_call0_v64: entries 344 to 515 of main_arg11. -/
theorem term_v64 (σ : Valuation τ sig (Elt Ideal)) :
    (StableHlo.after (List.flatten [hostOps0]) σ (Proc.devRef .tc main_call0_v64) : FVec Ideal S172 .f32)
      = extractStridedSlice S172 ![344] (σ (Proc.devRef .tc main_arg11) : FVec Ideal S516 .f32) slices_S516_S172_344 := by
  simp only [List.flatten_cons, List.flatten_nil, List.append_nil]
  refine (after_at hostOps0_writes written0_nodup σ 72 _ _ (by exact rfl) (by exact rfl)).trans ?_
  rw [StableHlo.unary_result, after_take_of_not_mem hostOps0_writes σ 72 (r := main_arg11) (by decide)]
  rfl

/-- Entry a of it is entry 344 + a of main_arg11. -/
theorem arr_v64 (σ : Valuation τ sig (Elt Ideal)) (a : Fin 172) :
    (StableHlo.after (List.flatten [hostOps0]) σ (Proc.devRef .tc main_call0_v64) : S172.Idx → EReal) (ix1 a)
      = (σ (Proc.devRef .tc main_arg11) : S516.Idx → EReal) (ix1 (⟨344 + a.val, by omega⟩ : Fin 516)) := by
  rw [term_v64]
  exact slice1_apply 344 _ _ a _ rfl

set_option maxHeartbeats 1000000 in
/-- The array at main_call0_v65: entries 0 to 171 of main_arg12. -/
theorem term_v65 (σ : Valuation τ sig (Elt Ideal)) :
    (StableHlo.after (List.flatten [hostOps0]) σ (Proc.devRef .tc main_call0_v65) : FVec Ideal S172 .f32)
      = extractStridedSlice S172 ![0] (σ (Proc.devRef .tc main_arg12) : FVec Ideal S516 .f32) slices_S516_S172_0 := by
  simp only [List.flatten_cons, List.flatten_nil, List.append_nil]
  refine (after_at hostOps0_writes written0_nodup σ 73 _ _ (by exact rfl) (by exact rfl)).trans ?_
  rw [StableHlo.unary_result, after_take_of_not_mem hostOps0_writes σ 73 (r := main_arg12) (by decide)]
  rfl

/-- Entry a of it is entry 0 + a of main_arg12. -/
theorem arr_v65 (σ : Valuation τ sig (Elt Ideal)) (a : Fin 172) :
    (StableHlo.after (List.flatten [hostOps0]) σ (Proc.devRef .tc main_call0_v65) : S172.Idx → EReal) (ix1 a)
      = (σ (Proc.devRef .tc main_arg12) : S516.Idx → EReal) (ix1 (⟨0 + a.val, by omega⟩ : Fin 516)) := by
  rw [term_v65]
  exact slice1_apply 0 _ _ a _ rfl

set_option maxHeartbeats 1000000 in
/-- The array at main_call0_v66: entries 172 to 343 of main_arg12. -/
theorem term_v66 (σ : Valuation τ sig (Elt Ideal)) :
    (StableHlo.after (List.flatten [hostOps0]) σ (Proc.devRef .tc main_call0_v66) : FVec Ideal S172 .f32)
      = extractStridedSlice S172 ![172] (σ (Proc.devRef .tc main_arg12) : FVec Ideal S516 .f32) slices_S516_S172_172 := by
  simp only [List.flatten_cons, List.flatten_nil, List.append_nil]
  refine (after_at hostOps0_writes written0_nodup σ 74 _ _ (by exact rfl) (by exact rfl)).trans ?_
  rw [StableHlo.unary_result, after_take_of_not_mem hostOps0_writes σ 74 (r := main_arg12) (by decide)]
  rfl

/-- Entry a of it is entry 172 + a of main_arg12. -/
theorem arr_v66 (σ : Valuation τ sig (Elt Ideal)) (a : Fin 172) :
    (StableHlo.after (List.flatten [hostOps0]) σ (Proc.devRef .tc main_call0_v66) : S172.Idx → EReal) (ix1 a)
      = (σ (Proc.devRef .tc main_arg12) : S516.Idx → EReal) (ix1 (⟨172 + a.val, by omega⟩ : Fin 516)) := by
  rw [term_v66]
  exact slice1_apply 172 _ _ a _ rfl

set_option maxHeartbeats 1000000 in
/-- The array at main_call0_v67: entries 344 to 515 of main_arg12. -/
theorem term_v67 (σ : Valuation τ sig (Elt Ideal)) :
    (StableHlo.after (List.flatten [hostOps0]) σ (Proc.devRef .tc main_call0_v67) : FVec Ideal S172 .f32)
      = extractStridedSlice S172 ![344] (σ (Proc.devRef .tc main_arg12) : FVec Ideal S516 .f32) slices_S516_S172_344 := by
  simp only [List.flatten_cons, List.flatten_nil, List.append_nil]
  refine (after_at hostOps0_writes written0_nodup σ 75 _ _ (by exact rfl) (by exact rfl)).trans ?_
  rw [StableHlo.unary_result, after_take_of_not_mem hostOps0_writes σ 75 (r := main_arg12) (by decide)]
  rfl

/-- Entry a of it is entry 344 + a of main_arg12. -/
theorem arr_v67 (σ : Valuation τ sig (Elt Ideal)) (a : Fin 172) :
    (StableHlo.after (List.flatten [hostOps0]) σ (Proc.devRef .tc main_call0_v67) : S172.Idx → EReal) (ix1 a)
      = (σ (Proc.devRef .tc main_arg12) : S516.Idx → EReal) (ix1 (⟨344 + a.val, by omega⟩ : Fin 516)) := by
  rw [term_v67]
  exact slice1_apply 344 _ _ a _ rfl

/-! ## main_arg3 and main_arg4 as rows -/

set_option maxHeartbeats 1000000 in
/-- The array at main_call0_v68: main_arg3 as one row. -/
theorem term_v68 (σ : Valuation τ sig (Elt Ideal)) :
    (StableHlo.after (List.flatten [hostOps0]) σ (Proc.devRef .tc main_call0_v68) : FVec Ideal S1x172 .f32)
      = shapeCast S1x172 (σ (Proc.devRef .tc main_arg3) : FVec Ideal S172 .f32) shapeCasts_S172_S1x172 := by
  simp only [List.flatten_cons, List.flatten_nil, List.append_nil]
  refine (after_at hostOps0_writes written0_nodup σ 76 _ _ (by exact rfl) (by exact rfl)).trans ?_
  rw [StableHlo.reshape_result, after_take_of_not_mem hostOps0_writes σ 76 (r := main_arg3) (by decide)]
  rfl

/-- Entry (0, a) of it is entry a of main_arg3. -/
theorem arr_v68 (σ : Valuation τ sig (Elt Ideal)) (a : Fin 172) :
    (StableHlo.after (List.flatten [hostOps0]) σ (Proc.devRef .tc main_call0_v68) : S1x172.Idx → EReal) (ix2 (0 : Fin 1) a)
      = (σ (Proc.devRef .tc main_arg3) : S172.Idx → EReal) (ix1 a) := by
  rw [term_v68, shapeCast_a_1a_apply]

set_option maxHeartbeats 1000000 in
/-- The array at main_call0_v69: main_arg4 as one row. -/
theorem term_v69 (σ : Valuation τ sig (Elt Ideal)) :
    (StableHlo.after (List.flatten [hostOps0]) σ (Proc.devRef .tc main_call0_v69) : FVec Ideal S1x172 .f32)
      = shapeCast S1x172 (σ (Proc.devRef .tc main_arg4) : FVec Ideal S172 .f32) shapeCasts_S172_S1x172 := by
  simp only [List.flatten_cons, List.flatten_nil, List.append_nil]
  refine (after_at hostOps0_writes written0_nodup σ 77 _ _ (by exact rfl) (by exact rfl)).trans ?_
  rw [StableHlo.reshape_result, after_take_of_not_mem hostOps0_writes σ 77 (r := main_arg4) (by decide)]
  rfl

/-- Entry (0, a) of it is entry a of main_arg4. -/
theorem arr_v69 (σ : Valuation τ sig (Elt Ideal)) (a : Fin 172) :
    (StableHlo.after (List.flatten [hostOps0]) σ (Proc.devRef .tc main_call0_v69) : S1x172.Idx → EReal) (ix2 (0 : Fin 1) a)
      = (σ (Proc.devRef .tc main_arg4) : S172.Idx → EReal) (ix1 a) := by
  rw [term_v69, shapeCast_a_1a_apply]

end Cert.KernelIdeal.HostArrs
-- ==== Proof.TailFn.lean ====
/-
  The write-back both programs end with, and the kernel program's copy of it.

  After the new memory rows are computed, @main writes them back into the node memory: among the interactions of
  one source node the one with the largest position in the batch is kept (a scatter by maximum of the positions,
  gathered back and compared with the position itself), the others are sent out of range, and the rows are
  scattered into the node memory at the kept nodes. The chain reads the batch's source nodes, the node memory and
  the array of new rows; it is carried as one function of those three and never opened.

  The kernel program's chain is the reference's, operation for operation. Each of its operations writes a buffer of
  its own, so what an initial stretch of the chain leaves at a buffer is the value of the one operation that writes
  it, over what the operations before left: stage by stage that value is the reference's stage of the same place,
  as a function of the source nodes.
-/
import proofs.«130114_j34711925686554_2_alg».proof.Proof.Gen.KernelIdeal.Launch
import proofs.«130114_j34711925686554_2_alg».proof.Proof.ReadP
import proofs.«130114_j34711925686554_2_alg».proof.Proof.HostArrs
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo
open Cert.KernelIdeal.HostArrs (WritesAt after_take_at after_take_of_not_mem after_at)

/-- The write-back: the new rows `X` scattered into the node memory `x0` at the kept source nodes of `x14`. -/
def scatterRows (x0 : (⟨Cert.ReferenceIdeal.S500000x172, .f32⟩ : BufTy).Contents (Elt Ideal))
    (x14 : (⟨Cert.ReferenceIdeal.S100000, .i32⟩ : BufTy).Contents (Elt Ideal))
    (X : (⟨Cert.ReferenceIdeal.S100000x172, .f32⟩ : BufTy).Contents (Elt Ideal)) :
    (⟨Cert.ReferenceIdeal.S500000x172, .f32⟩ : BufTy).Contents (Elt Ideal) :=
  Host.scatter Cert.ReferenceIdeal.scatter_S500000x172_S100000x1_S100000x172_1_0_0_1 (fun _ b => b) x0
    (Cert.ReferenceIdeal.ReadP.val_main_v106 (F := Ideal) x14) X

/-! ## The buffers the chain writes -/

/-- The buffers the host operations after the region write, in order. -/
abbrev written1 : List (Ref sig .tc) :=
  [main_call0_v71, main_call0_c_7, main_call0_v72, main_call0_v73, main_call0_v74, main_call0_c_8, main_call0_v75, main_call0_v76, main_call0_c_9, main_call0_v77, main_call0_v78, main_call0_v79, main_call0_v80, main_call0_v81, main_call0_v82, main_call0_c_10, main_call0_call0_v0, main_call0_call0_v1, main_call0_v83, main_call0_c_11, main_call0_v84, main_call0_v85, main_call0_c_12, main_call0_v86, main_call0_v87, main_call0_v88, main_call0_v89, main_v0]

theorem written1_nodup : written1.Nodup := by decide

set_option maxHeartbeats 4000000 in
theorem hostOps1_writes : WritesAt (hostOps1 : List (HloOp τ sig (Elt Ideal))) written1 := by
  repeat (first | exact List.Forall₂.nil | refine List.Forall₂.cons rfl ?_)

section

attribute [local irreducible] Host.scatter Host.gather

/-! ## The chain's stages, each the reference's stage of the same place -/

/-- The positions 0, 1, … of the batch. -/
theorem stage0 (W : Valuation τ sig (Elt Ideal)) (n : Nat) (hn : 0 < n) :
    after ((hostOps1 (F := Ideal)).take n) W (Proc.devRef .tc main_call0_v71) = Cert.ReferenceIdeal.ReadP.val_main_v88 (F := Ideal) := by
  rw [after_take_at hostOps1_writes written1_nodup W n 0 hn _ _ (by exact rfl) (by exact rfl), StableHlo.nullary_result]
  unfold Cert.ReferenceIdeal.ReadP.val_main_v88
  exact cast_eq_iff_heq.mpr (heq_of_eq rfl)

/-- The least 32-bit integer, as a scalar. -/
theorem stage1 (W : Valuation τ sig (Elt Ideal)) (n : Nat) (hn : 1 < n) :
    after ((hostOps1 (F := Ideal)).take n) W (Proc.devRef .tc main_call0_c_7) = Cert.ReferenceIdeal.ReadP.val_main_c_11 (F := Ideal) := by
  rw [after_take_at hostOps1_writes written1_nodup W n 1 hn _ _ (by exact rfl) (by exact rfl), StableHlo.nullary_result]
  unfold Cert.ReferenceIdeal.ReadP.val_main_c_11
  exact cast_eq_iff_heq.mpr (heq_of_eq rfl)

/-- The least integer at every node. -/
theorem stage2 (W : Valuation τ sig (Elt Ideal)) (n : Nat) (hn : 2 < n) :
    after ((hostOps1 (F := Ideal)).take n) W (Proc.devRef .tc main_call0_v72) = Cert.ReferenceIdeal.ReadP.val_main_v89 (F := Ideal) := by
  rw [after_take_at hostOps1_writes written1_nodup W n 2 hn _ _ (by exact rfl) (by exact rfl), StableHlo.unary_result,
    stage1 W 2 (by decide)]
  unfold Cert.ReferenceIdeal.ReadP.val_main_v89
  generalize Cert.ReferenceIdeal.ReadP.val_main_c_11 (F := Ideal) = a0
  exact cast_eq_iff_heq.mpr (heq_of_eq rfl)

/-- The source nodes as a column. -/
theorem stage3 (W : Valuation τ sig (Elt Ideal)) (n : Nat) (hn : 3 < n) :
    after ((hostOps1 (F := Ideal)).take n) W (Proc.devRef .tc main_call0_v73) = Cert.ReferenceIdeal.ReadP.val_main_v90 (F := Ideal) (W (Proc.devRef .tc main_arg14)) := by
  rw [after_take_at hostOps1_writes written1_nodup W n 3 hn _ _ (by exact rfl) (by exact rfl), StableHlo.unary_result,
    after_take_of_not_mem hostOps1_writes W 3 (r := main_arg14) (by decide)]
  unfold Cert.ReferenceIdeal.ReadP.val_main_v90
  generalize W (Proc.devRef .tc main_arg14) = a0
  exact cast_eq_iff_heq.mpr (heq_of_eq rfl)

/-- Per node, the largest position among the interactions whose source it is. -/
theorem stage4 (W : Valuation τ sig (Elt Ideal)) (n : Nat) (hn : 4 < n) :
    after ((hostOps1 (F := Ideal)).take n) W (Proc.devRef .tc main_call0_v74) = Cert.ReferenceIdeal.ReadP.val_main_v91 (F := Ideal) (W (Proc.devRef .tc main_arg14)) := by
  rw [after_take_at hostOps1_writes written1_nodup W n 4 hn _ _ (by exact rfl) (by exact rfl), StableHlo.ternary_result,
    stage2 W 4 (by decide),
    stage3 W 4 (by decide),
    stage0 W 4 (by decide)]
  unfold Cert.ReferenceIdeal.ReadP.val_main_v91
  generalize Cert.ReferenceIdeal.ReadP.val_main_v89 (F := Ideal) = a0
  generalize Cert.ReferenceIdeal.ReadP.val_main_v90 (F := Ideal) (W (Proc.devRef .tc main_arg14)) = a1
  generalize Cert.ReferenceIdeal.ReadP.val_main_v88 (F := Ideal) = a2
  exact cast_eq_iff_heq.mpr (heq_of_eq rfl)

/-- Zero, as a scalar. -/
theorem stage5 (W : Valuation τ sig (Elt Ideal)) (n : Nat) (hn : 5 < n) :
    after ((hostOps1 (F := Ideal)).take n) W (Proc.devRef .tc main_call0_c_8) = Cert.ReferenceIdeal.ReadP.val_main_c_12 (F := Ideal) := by
  rw [after_take_at hostOps1_writes written1_nodup W n 5 hn _ _ (by exact rfl) (by exact rfl), StableHlo.nullary_result]
  unfold Cert.ReferenceIdeal.ReadP.val_main_c_12
  exact cast_eq_iff_heq.mpr (heq_of_eq rfl)

/-- Zero at every interaction. -/
theorem stage6 (W : Valuation τ sig (Elt Ideal)) (n : Nat) (hn : 6 < n) :
    after ((hostOps1 (F := Ideal)).take n) W (Proc.devRef .tc main_call0_v75) = Cert.ReferenceIdeal.ReadP.val_main_v92 (F := Ideal) := by
  rw [after_take_at hostOps1_writes written1_nodup W n 6 hn _ _ (by exact rfl) (by exact rfl), StableHlo.unary_result,
    stage5 W 6 (by decide)]
  unfold Cert.ReferenceIdeal.ReadP.val_main_v92
  generalize Cert.ReferenceIdeal.ReadP.val_main_c_12 (F := Ideal) = a0
  exact cast_eq_iff_heq.mpr (heq_of_eq rfl)

/-- Whether a source node's index is negative. -/
theorem stage7 (W : Valuation τ sig (Elt Ideal)) (n : Nat) (hn : 7 < n) :
    after ((hostOps1 (F := Ideal)).take n) W (Proc.devRef .tc main_call0_v76) = Cert.ReferenceIdeal.ReadP.val_main_v93 (F := Ideal) (W (Proc.devRef .tc main_arg14)) := by
  rw [after_take_at hostOps1_writes written1_nodup W n 7 hn _ _ (by exact rfl) (by exact rfl), StableHlo.binary_result,
    after_take_of_not_mem hostOps1_writes W 7 (r := main_arg14) (by decide),
    stage6 W 7 (by decide)]
  unfold Cert.ReferenceIdeal.ReadP.val_main_v93
  generalize Cert.ReferenceIdeal.ReadP.val_main_v92 (F := Ideal) = a0
  generalize W (Proc.devRef .tc main_arg14) = a1
  exact cast_eq_iff_heq.mpr (heq_of_eq rfl)

/-- The number of nodes, as a scalar. -/
theorem stage8 (W : Valuation τ sig (Elt Ideal)) (n : Nat) (hn : 8 < n) :
    after ((hostOps1 (F := Ideal)).take n) W (Proc.devRef .tc main_call0_c_9) = Cert.ReferenceIdeal.ReadP.val_main_c_13 (F := Ideal) := by
  rw [after_take_at hostOps1_writes written1_nodup W n 8 hn _ _ (by exact rfl) (by exact rfl), StableHlo.nullary_result]
  unfold Cert.ReferenceIdeal.ReadP.val_main_c_13
  exact cast_eq_iff_heq.mpr (heq_of_eq rfl)

/-- The number of nodes at every interaction. -/
theorem stage9 (W : Valuation τ sig (Elt Ideal)) (n : Nat) (hn : 9 < n) :
    after ((hostOps1 (F := Ideal)).take n) W (Proc.devRef .tc main_call0_v77) = Cert.ReferenceIdeal.ReadP.val_main_v94 (F := Ideal) := by
  rw [after_take_at hostOps1_writes written1_nodup W n 9 hn _ _ (by exact rfl) (by exact rfl), StableHlo.unary_result,
    stage8 W 9 (by decide)]
  unfold Cert.ReferenceIdeal.ReadP.val_main_v94
  generalize Cert.ReferenceIdeal.ReadP.val_main_c_13 (F := Ideal) = a0
  exact cast_eq_iff_heq.mpr (heq_of_eq rfl)

/-- The source node's index moved up by the number of nodes. -/
theorem stage10 (W : Valuation τ sig (Elt Ideal)) (n : Nat) (hn : 10 < n) :
    after ((hostOps1 (F := Ideal)).take n) W (Proc.devRef .tc main_call0_v78) = Cert.ReferenceIdeal.ReadP.val_main_v95 (F := Ideal) (W (Proc.devRef .tc main_arg14)) := by
  rw [after_take_at hostOps1_writes written1_nodup W n 10 hn _ _ (by exact rfl) (by exact rfl), StableHlo.binary_result,
    after_take_of_not_mem hostOps1_writes W 10 (r := main_arg14) (by decide),
    stage9 W 10 (by decide)]
  unfold Cert.ReferenceIdeal.ReadP.val_main_v95
  generalize Cert.ReferenceIdeal.ReadP.val_main_v94 (F := Ideal) = a0
  generalize W (Proc.devRef .tc main_arg14) = a1
  exact cast_eq_iff_heq.mpr (heq_of_eq rfl)

/-- The source node's index, a negative one counted from the end. -/
theorem stage11 (W : Valuation τ sig (Elt Ideal)) (n : Nat) (hn : 11 < n) :
    after ((hostOps1 (F := Ideal)).take n) W (Proc.devRef .tc main_call0_v79) = Cert.ReferenceIdeal.ReadP.val_main_v96 (F := Ideal) (W (Proc.devRef .tc main_arg14)) := by
  rw [after_take_at hostOps1_writes written1_nodup W n 11 hn _ _ (by exact rfl) (by exact rfl), StableHlo.ternary_result,
    stage7 W 11 (by decide),
    stage10 W 11 (by decide),
    after_take_of_not_mem hostOps1_writes W 11 (r := main_arg14) (by decide)]
  unfold Cert.ReferenceIdeal.ReadP.val_main_v96
  generalize Cert.ReferenceIdeal.ReadP.val_main_v93 (F := Ideal) (W (Proc.devRef .tc main_arg14)) = a0
  generalize Cert.ReferenceIdeal.ReadP.val_main_v95 (F := Ideal) (W (Proc.devRef .tc main_arg14)) = a1
  generalize W (Proc.devRef .tc main_arg14) = a2
  exact cast_eq_iff_heq.mpr (heq_of_eq rfl)

/-- That index as a column. -/
theorem stage12 (W : Valuation τ sig (Elt Ideal)) (n : Nat) (hn : 12 < n) :
    after ((hostOps1 (F := Ideal)).take n) W (Proc.devRef .tc main_call0_v80) = Cert.ReferenceIdeal.ReadP.val_main_v97 (F := Ideal) (W (Proc.devRef .tc main_arg14)) := by
  rw [after_take_at hostOps1_writes written1_nodup W n 12 hn _ _ (by exact rfl) (by exact rfl), StableHlo.unary_result,
    stage11 W 12 (by decide)]
  unfold Cert.ReferenceIdeal.ReadP.val_main_v97
  generalize Cert.ReferenceIdeal.ReadP.val_main_v96 (F := Ideal) (W (Proc.devRef .tc main_arg14)) = a0
  exact cast_eq_iff_heq.mpr (heq_of_eq rfl)

/-- Per interaction, the largest position among the interactions of its source node. -/
theorem stage13 (W : Valuation τ sig (Elt Ideal)) (n : Nat) (hn : 13 < n) :
    after ((hostOps1 (F := Ideal)).take n) W (Proc.devRef .tc main_call0_v81) = Cert.ReferenceIdeal.ReadP.val_main_v98 (F := Ideal) (W (Proc.devRef .tc main_arg14)) := by
  rw [after_take_at hostOps1_writes written1_nodup W n 13 hn _ _ (by exact rfl) (by exact rfl), StableHlo.binary_result,
    stage4 W 13 (by decide),
    stage12 W 13 (by decide)]
  unfold Cert.ReferenceIdeal.ReadP.val_main_v98
  generalize Cert.ReferenceIdeal.ReadP.val_main_v91 (F := Ideal) (W (Proc.devRef .tc main_arg14)) = a0
  generalize Cert.ReferenceIdeal.ReadP.val_main_v97 (F := Ideal) (W (Proc.devRef .tc main_arg14)) = a1
  exact cast_eq_iff_heq.mpr (heq_of_eq rfl)

/-- Whether an interaction is the last one of its source node. -/
theorem stage14 (W : Valuation τ sig (Elt Ideal)) (n : Nat) (hn : 14 < n) :
    after ((hostOps1 (F := Ideal)).take n) W (Proc.devRef .tc main_call0_v82) = Cert.ReferenceIdeal.ReadP.val_main_v99 (F := Ideal) (W (Proc.devRef .tc main_arg14)) := by
  rw [after_take_at hostOps1_writes written1_nodup W n 14 hn _ _ (by exact rfl) (by exact rfl), StableHlo.binary_result,
    stage0 W 14 (by decide),
    stage13 W 14 (by decide)]
  unfold Cert.ReferenceIdeal.ReadP.val_main_v99
  generalize Cert.ReferenceIdeal.ReadP.val_main_v88 (F := Ideal) = a0
  generalize Cert.ReferenceIdeal.ReadP.val_main_v98 (F := Ideal) (W (Proc.devRef .tc main_arg14)) = a1
  exact cast_eq_iff_heq.mpr (heq_of_eq rfl)

/-- The number of nodes, as a scalar. -/
theorem stage15 (W : Valuation τ sig (Elt Ideal)) (n : Nat) (hn : 15 < n) :
    after ((hostOps1 (F := Ideal)).take n) W (Proc.devRef .tc main_call0_c_10) = Cert.ReferenceIdeal.ReadP.val_main_c_14 (F := Ideal) := by
  rw [after_take_at hostOps1_writes written1_nodup W n 15 hn _ _ (by exact rfl) (by exact rfl), StableHlo.nullary_result]
  unfold Cert.ReferenceIdeal.ReadP.val_main_c_14
  exact cast_eq_iff_heq.mpr (heq_of_eq rfl)

/-- The same scalar. -/
theorem stage16 (W : Valuation τ sig (Elt Ideal)) (n : Nat) (hn : 16 < n) :
    after ((hostOps1 (F := Ideal)).take n) W (Proc.devRef .tc main_call0_call0_v0) = Cert.ReferenceIdeal.ReadP.val_main_call1_v0 (F := Ideal) := by
  rw [after_take_at hostOps1_writes written1_nodup W n 16 hn _ _ (by exact rfl) (by exact rfl), StableHlo.unary_result,
    stage15 W 16 (by decide)]
  unfold Cert.ReferenceIdeal.ReadP.val_main_call1_v0
  generalize Cert.ReferenceIdeal.ReadP.val_main_c_14 (F := Ideal) = a0
  exact cast_eq_iff_heq.mpr (heq_of_eq rfl)

/-- The number of nodes at every interaction: an index out of range. -/
theorem stage17 (W : Valuation τ sig (Elt Ideal)) (n : Nat) (hn : 17 < n) :
    after ((hostOps1 (F := Ideal)).take n) W (Proc.devRef .tc main_call0_call0_v1) = Cert.ReferenceIdeal.ReadP.val_main_call1_v1 (F := Ideal) := by
  rw [after_take_at hostOps1_writes written1_nodup W n 17 hn _ _ (by exact rfl) (by exact rfl), StableHlo.unary_result,
    stage16 W 17 (by decide)]
  unfold Cert.ReferenceIdeal.ReadP.val_main_call1_v1
  generalize Cert.ReferenceIdeal.ReadP.val_main_call1_v0 (F := Ideal) = a0
  exact cast_eq_iff_heq.mpr (heq_of_eq rfl)

/-- The source node of an interaction that is its node's last, and an index out of range for the others. -/
theorem stage18 (W : Valuation τ sig (Elt Ideal)) (n : Nat) (hn : 18 < n) :
    after ((hostOps1 (F := Ideal)).take n) W (Proc.devRef .tc main_call0_v83) = Cert.ReferenceIdeal.ReadP.val_main_v100 (F := Ideal) (W (Proc.devRef .tc main_arg14)) := by
  rw [after_take_at hostOps1_writes written1_nodup W n 18 hn _ _ (by exact rfl) (by exact rfl), StableHlo.ternary_result,
    stage14 W 18 (by decide),
    after_take_of_not_mem hostOps1_writes W 18 (r := main_arg14) (by decide),
    stage17 W 18 (by decide)]
  unfold Cert.ReferenceIdeal.ReadP.val_main_v100
  generalize Cert.ReferenceIdeal.ReadP.val_main_v99 (F := Ideal) (W (Proc.devRef .tc main_arg14)) = a0
  generalize Cert.ReferenceIdeal.ReadP.val_main_call1_v1 (F := Ideal) = a1
  generalize W (Proc.devRef .tc main_arg14) = a2
  exact cast_eq_iff_heq.mpr (heq_of_eq rfl)

/-- Zero, as a scalar. -/
theorem stage19 (W : Valuation τ sig (Elt Ideal)) (n : Nat) (hn : 19 < n) :
    after ((hostOps1 (F := Ideal)).take n) W (Proc.devRef .tc main_call0_c_11) = Cert.ReferenceIdeal.ReadP.val_main_c_15 (F := Ideal) := by
  rw [after_take_at hostOps1_writes written1_nodup W n 19 hn _ _ (by exact rfl) (by exact rfl), StableHlo.nullary_result]
  unfold Cert.ReferenceIdeal.ReadP.val_main_c_15
  exact cast_eq_iff_heq.mpr (heq_of_eq rfl)

/-- Zero at every interaction. -/
theorem stage20 (W : Valuation τ sig (Elt Ideal)) (n : Nat) (hn : 20 < n) :
    after ((hostOps1 (F := Ideal)).take n) W (Proc.devRef .tc main_call0_v84) = Cert.ReferenceIdeal.ReadP.val_main_v101 (F := Ideal) := by
  rw [after_take_at hostOps1_writes written1_nodup W n 20 hn _ _ (by exact rfl) (by exact rfl), StableHlo.unary_result,
    stage19 W 20 (by decide)]
  unfold Cert.ReferenceIdeal.ReadP.val_main_v101
  generalize Cert.ReferenceIdeal.ReadP.val_main_c_15 (F := Ideal) = a0
  exact cast_eq_iff_heq.mpr (heq_of_eq rfl)

/-- Whether the kept index is negative. -/
theorem stage21 (W : Valuation τ sig (Elt Ideal)) (n : Nat) (hn : 21 < n) :
    after ((hostOps1 (F := Ideal)).take n) W (Proc.devRef .tc main_call0_v85) = Cert.ReferenceIdeal.ReadP.val_main_v102 (F := Ideal) (W (Proc.devRef .tc main_arg14)) := by
  rw [after_take_at hostOps1_writes written1_nodup W n 21 hn _ _ (by exact rfl) (by exact rfl), StableHlo.binary_result,
    stage18 W 21 (by decide),
    stage20 W 21 (by decide)]
  unfold Cert.ReferenceIdeal.ReadP.val_main_v102
  generalize Cert.ReferenceIdeal.ReadP.val_main_v100 (F := Ideal) (W (Proc.devRef .tc main_arg14)) = a0
  generalize Cert.ReferenceIdeal.ReadP.val_main_v101 (F := Ideal) = a1
  exact cast_eq_iff_heq.mpr (heq_of_eq rfl)

/-- The number of nodes, as a scalar. -/
theorem stage22 (W : Valuation τ sig (Elt Ideal)) (n : Nat) (hn : 22 < n) :
    after ((hostOps1 (F := Ideal)).take n) W (Proc.devRef .tc main_call0_c_12) = Cert.ReferenceIdeal.ReadP.val_main_c_16 (F := Ideal) := by
  rw [after_take_at hostOps1_writes written1_nodup W n 22 hn _ _ (by exact rfl) (by exact rfl), StableHlo.nullary_result]
  unfold Cert.ReferenceIdeal.ReadP.val_main_c_16
  exact cast_eq_iff_heq.mpr (heq_of_eq rfl)

/-- The number of nodes at every interaction. -/
theorem stage23 (W : Valuation τ sig (Elt Ideal)) (n : Nat) (hn : 23 < n) :
    after ((hostOps1 (F := Ideal)).take n) W (Proc.devRef .tc main_call0_v86) = Cert.ReferenceIdeal.ReadP.val_main_v103 (F := Ideal) := by
  rw [after_take_at hostOps1_writes written1_nodup W n 23 hn _ _ (by exact rfl) (by exact rfl), StableHlo.unary_result,
    stage22 W 23 (by decide)]
  unfold Cert.ReferenceIdeal.ReadP.val_main_v103
  generalize Cert.ReferenceIdeal.ReadP.val_main_c_16 (F := Ideal) = a0
  exact cast_eq_iff_heq.mpr (heq_of_eq rfl)

/-- The kept index moved up by the number of nodes. -/
theorem stage24 (W : Valuation τ sig (Elt Ideal)) (n : Nat) (hn : 24 < n) :
    after ((hostOps1 (F := Ideal)).take n) W (Proc.devRef .tc main_call0_v87) = Cert.ReferenceIdeal.ReadP.val_main_v104 (F := Ideal) (W (Proc.devRef .tc main_arg14)) := by
  rw [after_take_at hostOps1_writes written1_nodup W n 24 hn _ _ (by exact rfl) (by exact rfl), StableHlo.binary_result,
    stage18 W 24 (by decide),
    stage23 W 24 (by decide)]
  unfold Cert.ReferenceIdeal.ReadP.val_main_v104
  generalize Cert.ReferenceIdeal.ReadP.val_main_v100 (F := Ideal) (W (Proc.devRef .tc main_arg14)) = a0
  generalize Cert.ReferenceIdeal.ReadP.val_main_v103 (F := Ideal) = a1
  exact cast_eq_iff_heq.mpr (heq_of_eq rfl)

/-- The kept index, a negative one counted from the end. -/
theorem stage25 (W : Valuation τ sig (Elt Ideal)) (n : Nat) (hn : 25 < n) :
    after ((hostOps1 (F := Ideal)).take n) W (Proc.devRef .tc main_call0_v88) = Cert.ReferenceIdeal.ReadP.val_main_v105 (F := Ideal) (W (Proc.devRef .tc main_arg14)) := by
  rw [after_take_at hostOps1_writes written1_nodup W n 25 hn _ _ (by exact rfl) (by exact rfl), StableHlo.ternary_result,
    stage21 W 25 (by decide),
    stage24 W 25 (by decide),
    stage18 W 25 (by decide)]
  unfold Cert.ReferenceIdeal.ReadP.val_main_v105
  generalize Cert.ReferenceIdeal.ReadP.val_main_v102 (F := Ideal) (W (Proc.devRef .tc main_arg14)) = a0
  generalize Cert.ReferenceIdeal.ReadP.val_main_v104 (F := Ideal) (W (Proc.devRef .tc main_arg14)) = a1
  generalize Cert.ReferenceIdeal.ReadP.val_main_v100 (F := Ideal) (W (Proc.devRef .tc main_arg14)) = a2
  exact cast_eq_iff_heq.mpr (heq_of_eq rfl)

/-- The kept indices as a column. -/
theorem stage26 (W : Valuation τ sig (Elt Ideal)) (n : Nat) (hn : 26 < n) :
    after ((hostOps1 (F := Ideal)).take n) W (Proc.devRef .tc main_call0_v89) = Cert.ReferenceIdeal.ReadP.val_main_v106 (F := Ideal) (W (Proc.devRef .tc main_arg14)) := by
  rw [after_take_at hostOps1_writes written1_nodup W n 26 hn _ _ (by exact rfl) (by exact rfl), StableHlo.unary_result,
    stage25 W 26 (by decide)]
  unfold Cert.ReferenceIdeal.ReadP.val_main_v106
  generalize Cert.ReferenceIdeal.ReadP.val_main_v105 (F := Ideal) (W (Proc.devRef .tc main_arg14)) = a0
  exact cast_eq_iff_heq.mpr (heq_of_eq rfl)

/-! ## The chain's result -/

set_option maxHeartbeats 8000000 in
/-- The host operations after the region, run from ANY buffer contents `W`, leave in the result buffer the write-back
    of what `W` holds in the region's output array, read with the node memory and the source nodes `W` holds. -/
theorem tail_of (W : Valuation τ sig (Elt Ideal)) :
    after (hostOps1 (F := Ideal)) W (Proc.devRef .tc main_v0)
      = scatterRows (W (Proc.devRef .tc main_arg0)) (W (Proc.devRef .tc main_arg14)) (W (Proc.devRef .tc main_call0_v70)) := by
  refine (after_at hostOps1_writes written1_nodup W 27 _ _ (by exact rfl) (by exact rfl)).trans ?_
  rw [StableHlo.ternary_result, after_take_of_not_mem hostOps1_writes W 27 (r := main_arg0) (by decide),
    stage26 W 27 (by decide),
    after_take_of_not_mem hostOps1_writes W 27 (r := main_call0_v70) (by decide)]
  unfold scatterRows
  generalize Cert.ReferenceIdeal.ReadP.val_main_v106 (F := Ideal) (W (Proc.devRef .tc main_arg14)) = kept
  generalize W (Proc.devRef .tc main_arg0) = x0
  generalize W (Proc.devRef .tc main_call0_v70) = X
  exact cast_eq_iff_heq.mpr (heq_of_eq rfl)

end

end Cert.KernelIdeal.Tail

end
-- ==== Proof.Tail.lean ====
/-
  The kernel program's run with its result named.

  After the region, @main writes the region's output array (one new memory row per interaction) back into the
  node memory by the same chain of host operations as the reference: among the interactions of one source node
  the one with the largest position in the batch is kept (a scatter by maximum of the positions, gathered back
  and compared with the position itself), the others are sent out of range, and the rows are scattered into the
  node memory at the kept nodes. That chain reads the batch's source nodes and the node memory as launched and
  the output array as the region left it; it is carried here as one function of those three and never opened.
-/
import proofs.«130114_j34711925686554_2_alg».proof.Proof.FrameKI
import proofs.«130114_j34711925686554_2_alg».proof.Proof.TailFn

noncomputable section

namespace Cert.KernelIdeal.Tail

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-- The host operations after the region leave, in the result buffer, the write-back of the region's output array. -/
theorem tail_eq (c : Dev nD) :
    Pipeline.afterTail₀ cfgs (dats m) 0 (V0 m) [hostOps1] c main_v0
      = scatterRows (m ((c.tc : Thread nD τ).loc main_arg0)) (m ((c.tc : Thread nD τ).loc main_arg14))
          ((dats m 0 c).arrAt 25 (cfgs 0).N) := by
  unfold Pipeline.afterTail₀
  simp only [List.flatten_cons, List.flatten_nil, List.append_nil]
  have h0 := (Pipeline.withArrays_of_ne (cfgs 0).spec c (V0 m c) (fun w => (dats m 0 c).arrAt w (cfgs 0).N) main_arg0
    (by exact (by decide : ∀ w, Pipeline.arrRef spec0 w ≠ main_arg0))).trans (V_main_arg0 m c)
  have h14 := (Pipeline.withArrays_of_ne (cfgs 0).spec c (V0 m c) (fun w => (dats m 0 c).arrAt w (cfgs 0).N) main_arg14
    (by exact (by decide : ∀ w, Pipeline.arrRef spec0 w ≠ main_arg14))).trans (V_main_arg14 m c)
  have h70 := Pipeline.withArrays_arr (cfgs 0).spec launch0.win.arr_inj c (V0 m c) (fun w => (dats m 0 c).arrAt w (cfgs 0).N) 25
  have ht := tail_of (Pipeline.withArrays (cfgs 0).spec c (V0 m c) (fun w => (dats m 0 c).arrAt w (cfgs 0).N))
  rw [h0, h14] at ht
  exact (ht.trans (congrArg (scatterRows _ _) h70))

/-- Every weakly fair execution of the kernel program terminates with the result buffer at the write-back of the
    region's output array and the argument arrays as launched. -/
theorem run : θ_run defs (onTc (τ := τ) (main (F := Ideal))) ⟨m, fun _ => 0, ρ⟩ (fun r => ∀ c : Dev nD,
      r.2.mem ((c.tc : Thread nD τ).loc main_v0)
        = scatterRows (m ((c.tc : Thread nD τ).loc main_arg0)) (m ((c.tc : Thread nD τ).loc main_arg14)) ((dats m 0 c).arrAt 25 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 10).trans ((((dats m) 0 c).arrAt_in 10 rfl _).trans ((A_eq m c 10).trans (V_main_arg6 m c))),
      (((h c).2 main_arg7 (Pipeline.mem_restRefs_of main_arg7 (by decide) (by decide))).trans (W_main_arg7 m (dats m) c)),
      ((h c).1 12).trans ((((dats m) 0 c).arrAt_in 12 rfl _).trans ((A_eq m c 12).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩) (run_main m ρ)

end Cert.KernelIdeal.Tail

end
-- ==== Proof.Spec.lean ====
/-
  One interaction's memory candidate, at exact arithmetic.

  An interaction (an edge of the batch) reads three feature rows of length 172 — its source node's memory,
  its destination node's memory, the edge's features —, one elapsed time, and the layers' weights. It
  computes, on the extended reals,
    φ(k)   = cos (dt · tw(k) + tb(k))                                          the time encoding,
    hid(j) = max (Σₖ src(k)·A0(k,j) + Σₖ dst(k)·A1(k,j) + Σₖ e(k)·A2(k,j) + Σₖ φ(k)·A3(k,j) + b1(j)) 0,
    msg(l) = Σⱼ hid(j)·B(j,l) + b2(l)                                          the message,
    gx_g(q) = Σₗ msg(l)·C_g(l,q) + c_g(q),   gh_g(q) = Σₖ src(k)·D_g(k,q) + d_g(q)    (g = 0, 1, 2)
    r = σ (gx₀ + gh₀),  z = σ (gx₁ + gh₁),  n = tanh (gx₂ + r · gh₂),
    new(q) = (1 − z(q)) · n(q) + z(q) · src(q)                                  the gated update.
  The four matrices A0 … A3 are the four column groups of the first layer's weight (the raw message is the
  concatenation src ‖ dst ‖ e ‖ φ), and C_g, D_g, c_g, d_g are the three row groups of the recurrent cell's
  weights and biases: a sum over the concatenated axis is the sum of the four partial sums, and a row group of
  a product is the product with that row group. Everything here is a function of ONE row of each gathered
  array, which is why a tiling of the batch into row blocks computes the same numbers.
-/
import Idealize.ShloMosaic.PureOps.Ideal

noncomputable section

namespace MsgGru

open Idealize.ShloMosaic

/-- What one interaction's update reads: one row of each gathered array, the elapsed time, the weights. -/
structure RowIn where
  src : Fin 172 → EReal
  dst : Fin 172 → EReal
  e : Fin 172 → EReal
  dt : EReal
  tw : Fin 172 → EReal
  tb : Fin 172 → EReal
  A0 : Fin 172 → Fin 344 → EReal
  A1 : Fin 172 → Fin 344 → EReal
  A2 : Fin 172 → Fin 344 → EReal
  A3 : Fin 172 → Fin 344 → EReal
  b1 : Fin 344 → EReal
  B : Fin 344 → Fin 100 → EReal
  b2 : Fin 100 → EReal
  C0 : Fin 100 → Fin 172 → EReal
  C1 : Fin 100 → Fin 172 → EReal
  C2 : Fin 100 → Fin 172 → EReal
  D0 : Fin 172 → Fin 172 → EReal
  D1 : Fin 172 → Fin 172 → EReal
  D2 : Fin 172 → Fin 172 → EReal
  c0 : Fin 172 → EReal
  c1 : Fin 172 → EReal
  c2 : Fin 172 → EReal
  d0 : Fin 172 → EReal
  d1 : Fin 172 → EReal
  d2 : Fin 172 → EReal

variable (I : RowIn)

/-- The time encoding: the cosine of an affine function of the elapsed time. -/
def phi (k : Fin 172) : EReal := Ideal.cos (I.dt * I.tw k + I.tb k)

/-- The part of the hidden layer's pre-activation that comes from the three feature rows. -/
def hidFeat (j : Fin 344) : EReal :=
  ((∑ k : Fin 172, I.src k * I.A0 k j) + ∑ k : Fin 172, I.dst k * I.A1 k j) + ∑ k : Fin 172, I.e k * I.A2 k j

/-- The hidden layer: the four partial products, the bias, clipped at zero. -/
def hid (j : Fin 344) : EReal :=
  max ((hidFeat I j + ∑ k : Fin 172, phi I k * I.A3 k j) + I.b1 j) (Ideal.ofBits .f32 0x00000000#32)

/-- The message. -/
def msg (l : Fin 100) : EReal := (∑ j : Fin 344, hid I j * I.B j l) + I.b2 l

/-- The message's contribution to the three gates. -/
def gx0 (q : Fin 172) : EReal := (∑ l : Fin 100, msg I l * I.C0 l q) + I.c0 q
def gx1 (q : Fin 172) : EReal := (∑ l : Fin 100, msg I l * I.C1 l q) + I.c1 q
def gx2 (q : Fin 172) : EReal := (∑ l : Fin 100, msg I l * I.C2 l q) + I.c2 q

/-- The source memory's contribution to the three gates. -/
def gh0 (q : Fin 172) : EReal := (∑ k : Fin 172, I.src k * I.D0 k q) + I.d0 q
def gh1 (q : Fin 172) : EReal := (∑ k : Fin 172, I.src k * I.D1 k q) + I.d1 q
def gh2 (q : Fin 172) : EReal := (∑ k : Fin 172, I.src k * I.D2 k q) + I.d2 q

/-- The gated update of the source node's memory. -/
def hnew (q : Fin 172) : EReal :=
  (Ideal.ofBits .f32 0x3F800000#32 - Ideal.logistic (gx1 I q + gh1 I q))
      * Ideal.tanh (gx2 I q + Ideal.logistic (gx0 I q + gh0 I q) * gh2 I q)
    + Ideal.logistic (gx1 I q + gh1 I q) * I.src q

/-- The f32 word of 1.0 denotes the real 1. -/
theorem ofBits_one : Ideal.ofBits .f32 0x3F800000#32 = 1 := by
  simp [Ideal.ofBits, Ideal.ieee, -EReal.coe_mul]; norm_num

/-- The logistic function written out with the word of 1.0 for its two ones. -/
theorem logistic_spelt (x : EReal) :
    Ideal.div (Ideal.ofBits .f32 0x3F800000#32) (Ideal.ofBits .f32 0x3F800000#32 + Ideal.exp (-x)) = Ideal.logistic x := by
  rw [ofBits_one]; rfl

end MsgGru

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KernelRow.lean ====
/-
  One row of a block. The kernel body works on a block of 1000 interactions: three feature blocks [1000, 172],
  the elapsed times as a column [1000, 1], and the weights whole. Each value it stores at (p, q) depends only on
  row p of the feature blocks and entry p of the column: the products are sums over the contracted axis of row
  entries times weight entries, the biases are rows repeated down the block, the rest is entry by entry. Stage by
  stage the body's value at (p, ·) is the per-interaction formula of Spec.lean at the row's data.
-/
import proofs.«130114_j34711925686554_2_alg».proof.Proof.Gen.KernelIdeal.Skeleton
import proofs.«130114_j34711925686554_2_alg».proof.Proof.Spec
import proofs.«130114_j34711925686554_2_alg».proof.Proof.LibMatmulIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx MsgGru

/-! ## Layout: a bias row repeated down a block, a column repeated across it -/

/-- A vector of length b placed as the row [1, b] and repeated down a rows reads, at (p, q), the vector at q. -/
theorem rowBias_apply {α : Type} {a b : ℕ} (v : (⟨1, ![b]⟩ : Shape).Idx → α) (h2 : (⟨1, ![b]⟩ : Shape).ShapeCasts ⟨2, ![1, b]⟩)
    (h3 : (⟨2, ![1, b]⟩ : Shape).Broadcasts ⟨2, ![a, b]⟩) (p : Fin a) (q : Fin b) :
    broadcastTo ⟨2, ![a, b]⟩ (shapeCast ⟨2, ![1, b]⟩ v h2) h3 (ix2 p q) = v (ix1 q) := by
  rw [broadcastTo_1b_ab_apply, shapeCast_a_1a_apply]

/-- A column [a, 1] repeated across b columns reads, at (p, q), the column at p. -/
theorem colBcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The four products of the body, at an entry -/

/-- The product of an 1000×172 block with a 172×344 matrix into a zero accumulator, at an entry. -/
theorem mmA {φ₁ φ₂ : FTy} (l : FVec Ideal S1000x172 φ₁) (r : FVec Ideal S172x344 φ₂) (p : Fin 1000) (q : Fin 344) :
    matmul dot_S1000x172_S172x344_S1000x344_1_0_0_1_n_n none l r (constant S1000x344 .f32 0x00000000#32) (ix2 p q)
      = ∑ k : Fin 172, l (ix2 p k) * r (ix2 k q) :=
  LibMatmulIdx.matmul2_apply dot_S1000x172_S172x344_S1000x344_1_0_0_1_n_n rfl rfl
    (fun j k => by
      unfold DotDims.lhsIdx
      rw [dif_neg (show ¬(0 : Fin S1000x172.rank) ∈ dot_S1000x172_S172x344_S1000x344_1_0_0_1_n_n.lhsBatch by decide),
        dif_pos (show (0 : Fin S1000x172.rank) ∈ dot_S1000x172_S172x344_S1000x344_1_0_0_1_n_n.lhsNonContracting by decide)]
      rfl)
    (fun j k => dot_S1000x172_S172x344_S1000x344_1_0_0_1_n_n.lhsIdx_val_of_single rfl j k)
    (fun j k => dot_S1000x172_S172x344_S1000x344_1_0_0_1_n_n.rhsIdx_val_of_single rfl j k)
    (fun j k => by
      unfold DotDims.rhsIdx
      rw [dif_neg (show ¬(1 : Fin S172x344.rank) ∈ dot_S1000x172_S172x344_S1000x344_1_0_0_1_n_n.rhsBatch by decide),
        dif_pos (show (1 : Fin S172x344.rank) ∈ dot_S1000x172_S172x344_S1000x344_1_0_0_1_n_n.rhsNonContracting by decide)]
      rfl)
    none l r (ix2 p q)

/-- The product of an 1000×344 block with a 344×100 matrix into a zero accumulator, at an entry. -/
theorem mmB {φ₁ φ₂ : FTy} (l : FVec Ideal S1000x344 φ₁) (r : FVec Ideal S344x100 φ₂) (p : Fin 1000) (q : Fin 100) :
    matmul dot_S1000x344_S344x100_S1000x100_1_0_0_1_n_n none l r (constant S1000x100 .f32 0x00000000#32) (ix2 p q)
      = ∑ k : Fin 344, l (ix2 p k) * r (ix2 k q) :=
  LibMatmulIdx.matmul2_apply dot_S1000x344_S344x100_S1000x100_1_0_0_1_n_n rfl rfl
    (fun j k => by
      unfold DotDims.lhsIdx
      rw [dif_neg (show ¬(0 : Fin S1000x344.rank) ∈ dot_S1000x344_S344x100_S1000x100_1_0_0_1_n_n.lhsBatch by decide),
        dif_pos (show (0 : Fin S1000x344.rank) ∈ dot_S1000x344_S344x100_S1000x100_1_0_0_1_n_n.lhsNonContracting by decide)]
      rfl)
    (fun j k => dot_S1000x344_S344x100_S1000x100_1_0_0_1_n_n.lhsIdx_val_of_single rfl j k)
    (fun j k => dot_S1000x344_S344x100_S1000x100_1_0_0_1_n_n.rhsIdx_val_of_single rfl j k)
    (fun j k => by
      unfold DotDims.rhsIdx
      rw [dif_neg (show ¬(1 : Fin S344x100.rank) ∈ dot_S1000x344_S344x100_S1000x100_1_0_0_1_n_n.rhsBatch by decide),
        dif_pos (show (1 : Fin S344x100.rank) ∈ dot_S1000x344_S344x100_S1000x100_1_0_0_1_n_n.rhsNonContracting by decide)]
      rfl)
    none l r (ix2 p q)

/-- The product of an 1000×100 block with a 100×172 matrix into a zero accumulator, at an entry. -/
theorem mmC {φ₁ φ₂ : FTy} (l : FVec Ideal S1000x100 φ₁) (r : FVec Ideal S100x172 φ₂) (p : Fin 1000) (q : Fin 172) :
    matmul dot_S1000x100_S100x172_S1000x172_1_0_0_1_n_n none l r (constant S1000x172 .f32 0x00000000#32) (ix2 p q)
      = ∑ k : Fin 100, l (ix2 p k) * r (ix2 k q) :=
  LibMatmulIdx.matmul2_apply dot_S1000x100_S100x172_S1000x172_1_0_0_1_n_n rfl rfl
    (fun j k => by
      unfold DotDims.lhsIdx
      rw [dif_neg (show ¬(0 : Fin S1000x100.rank) ∈ dot_S1000x100_S100x172_S1000x172_1_0_0_1_n_n.lhsBatch by decide),
        dif_pos (show (0 : Fin S1000x100.rank) ∈ dot_S1000x100_S100x172_S1000x172_1_0_0_1_n_n.lhsNonContracting by decide)]
      rfl)
    (fun j k => dot_S1000x100_S100x172_S1000x172_1_0_0_1_n_n.lhsIdx_val_of_single rfl j k)
    (fun j k => dot_S1000x100_S100x172_S1000x172_1_0_0_1_n_n.rhsIdx_val_of_single rfl j k)
    (fun j k => by
      unfold DotDims.rhsIdx
      rw [dif_neg (show ¬(1 : Fin S100x172.rank) ∈ dot_S1000x100_S100x172_S1000x172_1_0_0_1_n_n.rhsBatch by decide),
        dif_pos (show (1 : Fin S100x172.rank) ∈ dot_S1000x100_S100x172_S1000x172_1_0_0_1_n_n.rhsNonContracting by decide)]
      rfl)
    none l r (ix2 p q)

/-- The product of an 1000×172 block with a 172×172 matrix into a zero accumulator, at an entry. -/
theorem mmD {φ₁ φ₂ : FTy} (l : FVec Ideal S1000x172 φ₁) (r : FVec Ideal S172x172 φ₂) (p : Fin 1000) (q : Fin 172) :
    matmul dot_S1000x172_S172x172_S1000x172_1_0_0_1_n_n none l r (constant S1000x172 .f32 0x00000000#32) (ix2 p q)
      = ∑ k : Fin 172, l (ix2 p k) * r (ix2 k q) :=
  LibMatmulIdx.matmul2_apply dot_S1000x172_S172x172_S1000x172_1_0_0_1_n_n rfl rfl
    (fun j k => by
      unfold DotDims.lhsIdx
      rw [dif_neg (show ¬(0 : Fin S1000x172.rank) ∈ dot_S1000x172_S172x172_S1000x172_1_0_0_1_n_n.lhsBatch by decide),
        dif_pos (show (0 : Fin S1000x172.rank) ∈ dot_S1000x172_S172x172_S1000x172_1_0_0_1_n_n.lhsNonContracting by decide)]
      rfl)
    (fun j k => dot_S1000x172_S172x172_S1000x172_1_0_0_1_n_n.lhsIdx_val_of_single rfl j k)
    (fun j k => dot_S1000x172_S172x172_S1000x172_1_0_0_1_n_n.rhsIdx_val_of_single rfl j k)
    (fun j k => by
      unfold DotDims.rhsIdx
      rw [dif_neg (show ¬(1 : Fin S172x172.rank) ∈ dot_S1000x172_S172x172_S1000x172_1_0_0_1_n_n.rhsBatch by decide),
        dif_pos (show (1 : Fin S172x172.rank) ∈ dot_S1000x172_S172x172_S1000x172_1_0_0_1_n_n.rhsNonContracting by decide)]
      rfl)
    none l r (ix2 p q)

/-! ## The body's stages at row p -/

/-- The source block is read as it is. -/
theorem pay2_eq (v0 : FVec Ideal S1000x172 .f32) : k0_pay2 (F := Ideal) v0 = v0 := by
  unfold k0_pay2
  exact shapeCast_self _ _

/-- The source block handed to the products is the source block: at exact arithmetic narrowing changes nothing. -/
theorem pay3_apply (v0 : FVec Ideal S1000x172 .f32) (i : S1000x172.Idx) : (k0_pay3 (F := Ideal) v0 i : EReal) = v0 i := by
  unfold k0_pay3
  rw [pay2_eq]
  rfl

/-- The time encoding of row p: the cosine of the row's elapsed time times the frequency plus the phase. -/
theorem pay4_apply (v6 : FVec Ideal S1000x1 .f32) (v8 v13 : FVec Ideal S1x172 .f32) (p : Fin 1000) (k : Fin 172) :
    k0_pay4 (F := Ideal) v6 v8 v13 (ix2 p k)
      = Ideal.cos (v6 (ix2 p (0 : Fin 1)) * v8 (ix2 (0 : Fin 1) k) + v13 (ix2 (0 : Fin 1) k)) := by
  unfold k0_pay4
  simp only [shapeCast_self]
  show Ideal.cos (broadcastTo S1000x172 v6 _ (ix2 p k) * broadcastTo S1000x172 v8 _ (ix2 p k)
    + broadcastTo S1000x172 v13 _ (ix2 p k)) = _
  rw [colBcast_apply, broadcastTo_1b_ab_apply, broadcastTo_1b_ab_apply]

/-- The three feature products of the hidden layer, at (p, j). -/
theorem pay5_apply (v0 v2 v4 : FVec Ideal S1000x172 .f32) (v22 v25 v29 : FVec Ideal S172x344 .bf16) (p : Fin 1000) (j : Fin 344) :
    k0_pay5 (F := Ideal) v0 v2 v4 v22 v25 v29 (ix2 p j)
      = ((∑ k : Fin 172, v0 (ix2 p k) * v22 (ix2 k j)) + ∑ k : Fin 172, v2 (ix2 p k) * v25 (ix2 k j))
          + ∑ k : Fin 172, v4 (ix2 p k) * v29 (ix2 k j) := by
  unfold k0_pay5 k0_pay3 k0_pay2
  simp only [shapeCast_self]
  show (matmul (F := Ideal) dot_S1000x172_S172x344_S1000x344_1_0_0_1_n_n none (truncf .bf16 v0 bitsLt_bf16_f32) v22 (constant S1000x344 .f32 0x00000000#32) (ix2 p j)
      + matmul (F := Ideal) dot_S1000x172_S172x344_S1000x344_1_0_0_1_n_n none (truncf .bf16 v2 bitsLt_bf16_f32) v25 (constant S1000x344 .f32 0x00000000#32) (ix2 p j))
      + matmul (F := Ideal) dot_S1000x172_S172x344_S1000x344_1_0_0_1_n_n none (truncf .bf16 v4 bitsLt_bf16_f32) v29 (constant S1000x344 .f32 0x00000000#32) (ix2 p j) = _
  rw [mmA, mmA, mmA]
  rfl

/-- The last weight of the hidden layer is read as it is. -/
theorem pay6_eq (v33 : FVec Ideal S172x344 .bf16) : k0_pay6 (F := Ideal) v33 = v33 := by
  unfold k0_pay6
  exact shapeCast_self _ _

/-- The message of row p, at l: the hidden layer (features, time encoding, bias, clipped at zero) against the
    message layer's weight, plus its bias. -/
theorem pay7_apply (v21 : FVec Ideal S1000x172 .bf16) (v32 : FVec Ideal S1000x344 .f32) (v34 : FVec Ideal S172x344 .bf16)
    (v37 : FVec Ideal S344 .f32) (v44 : FVec Ideal S344x100 .bf16) (v47 : FVec Ideal S100 .f32) (p : Fin 1000) (l : Fin 100) :
    k0_pay7 (F := Ideal) v21 v32 v34 (constant S1000x344 .f32 0x00000000#32) v37 v44 v47 (ix2 p l)
      = (∑ j : Fin 344, max ((v32 (ix2 p j) + ∑ k : Fin 172, v21 (ix2 p k) * v34 (ix2 k j)) + v37 (ix1 j))
            (Ideal.ofBits .f32 0x00000000#32) * v44 (ix2 j l)) + v47 (ix1 l) := by
  unfold k0_pay7
  simp only [shapeCast_self]
  show matmul (F := Ideal) (φ₁ := .bf16) dot_S1000x344_S344x100_S1000x100_1_0_0_1_n_n none _ v44 (constant S1000x100 .f32 0x00000000#32) (ix2 p l)
      + broadcastTo S1000x100 (shapeCast S1x100 v47 _) _ (ix2 p l) = _
  rw [mmB, rowBias_apply]
  refine congrArg (· + v47 (ix1 l)) (Finset.sum_congr rfl fun j _ => congrArg (· * v44 (ix2 j l)) ?_)
  show max ((v32 (ix2 p j) + matmul (F := Ideal) dot_S1000x172_S172x344_S1000x344_1_0_0_1_n_n none v21 v34 (constant S1000x344 .f32 0x00000000#32) (ix2 p j))
      + broadcastTo S1000x344 (shapeCast S1x344 v37 _) _ (ix2 p j)) (Ideal.ofBits .f32 0x00000000#32) = _
  rw [mmA, rowBias_apply]

/-- A gate's contribution from the message, at (p, q): the message row against the gate's weight, plus its bias. -/
theorem gate_apply (msg : FVec Ideal S1000x100 .bf16) (w : FVec Ideal S100x172 .bf16) (b : FVec Ideal S172 .f32) (p : Fin 1000) (q : Fin 172) :
    addf (matmul dot_S1000x100_S100x172_S1000x172_1_0_0_1_n_n none msg (shapeCast S100x172 w shapeCasts_S100x172_S100x172) (constant S1000x172 .f32 0x00000000#32))
        (broadcastTo S1000x172 (shapeCast S1x172 (shapeCast S172 b shapeCasts_S172_S172) shapeCasts_S172_S1x172) broadcasts_S1x172_S1000x172) (ix2 p q)
      = (∑ l : Fin 100, msg (ix2 p l) * w (ix2 l q)) + b (ix1 q) := by
  simp only [shapeCast_self]
  show matmul (F := Ideal) dot_S1000x100_S100x172_S1000x172_1_0_0_1_n_n none msg w (constant S1000x172 .f32 0x00000000#32) (ix2 p q)
      + broadcastTo S1000x172 (shapeCast S1x172 b _) _ (ix2 p q) = _
  rw [mmC, rowBias_apply]

/-- The source memory's contribution to a gate, at (p, q). -/
theorem rec_apply (h : FVec Ideal S1000x172 .bf16) (w : FVec Ideal S172x172 .bf16) (b : FVec Ideal S172 .f32) (p : Fin 1000) (q : Fin 172) :
    addf (matmul dot_S1000x172_S172x172_S1000x172_1_0_0_1_n_n none h (shapeCast S172x172 w shapeCasts_S172x172_S172x172) (constant S1000x172 .f32 0x00000000#32))
        (broadcastTo S1000x172 (shapeCast S1x172 (shapeCast S172 b shapeCasts_S172_S172) shapeCasts_S172_S1x172) broadcasts_S1x172_S1000x172) (ix2 p q)
      = (∑ k : Fin 172, h (ix2 p k) * w (ix2 k q)) + b (ix1 q) := by
  simp only [shapeCast_self]
  show matmul (F := Ideal) dot_S1000x172_S172x172_S1000x172_1_0_0_1_n_n none h w (constant S1000x172 .f32 0x00000000#32) (ix2 p q)
      + broadcastTo S1000x172 (shapeCast S1x172 b _) _ (ix2 p q) = _
  rw [mmD, rowBias_apply]

/-- The message's contribution to the first gate, at (p, q): the message row against the gate's weight, plus its bias. -/
theorem pay8_apply (v21 : FVec Ideal S1000x172 .bf16) (v32 : FVec Ideal S1000x344 .f32) (v34 : FVec Ideal S172x344 .bf16)
    (v37 : FVec Ideal S344 .f32) (v44 : FVec Ideal S344x100 .bf16) (v47 : FVec Ideal S100 .f32)
    (w : FVec Ideal S100x172 .bf16) (b : FVec Ideal S172 .f32) (p : Fin 1000) (q : Fin 172) :
    k0_pay8 (F := Ideal) v21 v32 v34 (constant S1000x344 .f32 0x00000000#32) v37 v44 v47 w b (ix2 p q)
      = (∑ l : Fin 100, k0_pay7 (F := Ideal) v21 v32 v34 (constant S1000x344 .f32 0x00000000#32) v37 v44 v47 (ix2 p l) * w (ix2 l q)) + b (ix1 q) := by
  unfold k0_pay8
  exact gate_apply _ w b p q

/-- The message's contribution to the second gate, at (p, q). -/
theorem pay9_apply (v21 : FVec Ideal S1000x172 .bf16) (v32 : FVec Ideal S1000x344 .f32) (v34 : FVec Ideal S172x344 .bf16)
    (v37 : FVec Ideal S344 .f32) (v44 : FVec Ideal S344x100 .bf16) (v47 : FVec Ideal S100 .f32)
    (w : FVec Ideal S100x172 .bf16) (b : FVec Ideal S172 .f32) (p : Fin 1000) (q : Fin 172) :
    k0_pay9 (F := Ideal) v21 v32 v34 (constant S1000x344 .f32 0x00000000#32) v37 v44 v47 w b (ix2 p q)
      = (∑ l : Fin 100, k0_pay7 (F := Ideal) v21 v32 v34 (constant S1000x344 .f32 0x00000000#32) v37 v44 v47 (ix2 p l) * w (ix2 l q)) + b (ix1 q) := by
  unfold k0_pay9
  exact gate_apply _ w b p q

/-- The message's contribution to the candidate, at (p, q). -/
theorem pay10_apply (v21 : FVec Ideal S1000x172 .bf16) (v32 : FVec Ideal S1000x344 .f32) (v34 : FVec Ideal S172x344 .bf16)
    (v37 : FVec Ideal S344 .f32) (v44 : FVec Ideal S344x100 .bf16) (v47 : FVec Ideal S100 .f32)
    (w : FVec Ideal S100x172 .bf16) (b : FVec Ideal S172 .f32) (p : Fin 1000) (q : Fin 172) :
    k0_pay10 (F := Ideal) v21 v32 v34 (constant S1000x344 .f32 0x00000000#32) v37 v44 v47 w b (ix2 p q)
      = (∑ l : Fin 100, k0_pay7 (F := Ideal) v21 v32 v34 (constant S1000x344 .f32 0x00000000#32) v37 v44 v47 (ix2 p l) * w (ix2 l q)) + b (ix1 q) := by
  unfold k0_pay10
  exact gate_apply _ w b p q

/-- The stored value at (p, q), from the three message contributions: the three contributions of the source
    memory, the two gates, the candidate, and the convex combination of the candidate with the source memory. -/
theorem pay1_apply (v1 : FVec Ideal S1000x172 .f32) (v18 : FVec Ideal S1000x172 .bf16) (v59 v67 v75 : FVec Ideal S1000x172 .f32)
    (v76 : FVec Ideal S172x172 .bf16) (v79 : FVec Ideal S172 .f32) (v84 : FVec Ideal S172x172 .bf16) (v87 : FVec Ideal S172 .f32)
    (v92 : FVec Ideal S172x172 .bf16) (v95 : FVec Ideal S172 .f32) (p : Fin 1000) (q : Fin 172) :
    k0_pay1 (F := Ideal) v1 v18 v59 v67 v75 v76 v79 v84 v87 v92 v95 (ix2 p q)
      = (Ideal.ofBits .f32 0x3F800000#32
            - Ideal.logistic (v67 (ix2 p q) + ((∑ k : Fin 172, v18 (ix2 p k) * v84 (ix2 k q)) + v87 (ix1 q))))
          * Ideal.tanh (v75 (ix2 p q)
              + Ideal.logistic (v59 (ix2 p q) + ((∑ k : Fin 172, v18 (ix2 p k) * v76 (ix2 k q)) + v79 (ix1 q)))
                * ((∑ k : Fin 172, v18 (ix2 p k) * v92 (ix2 k q)) + v95 (ix1 q)))
        + Ideal.logistic (v67 (ix2 p q) + ((∑ k : Fin 172, v18 (ix2 p k) * v84 (ix2 k q)) + v87 (ix1 q))) * v1 (ix2 p q) := by
  rw [← rec_apply v18 v76 v79 p q, ← rec_apply v18 v84 v87 p q, ← rec_apply v18 v92 v95 p q]
  rfl

/-! ## Row p of a block as one interaction's data -/

/-- What the interaction of row p reads: row p of the three feature blocks, entry p of the elapsed times, the
    frequency and phase rows, and the weights and biases whole. -/
def rowInK (x0 x1 x2 : Vec Ideal S1000x172 .f32) (x3 : Vec Ideal S1000x1 .f32) (x4 x5 : Vec Ideal S1x172 .f32)
    (x6 x7 x8 x9 : Vec Ideal S172x344 .bf16) (x10 : Vec Ideal S344 .f32) (x11 : Vec Ideal S344x100 .bf16) (x12 : Vec Ideal S100 .f32)
    (x13 x14 x15 : Vec Ideal S100x172 .bf16) (x16 x17 x18 : Vec Ideal S172x172 .bf16)
    (x19 x20 x21 x22 x23 x24 : Vec Ideal S172 .f32)
    (p : Fin 1000) : MsgGru.RowIn where
  src k := x0 (ix2 p k)
  dst k := x1 (ix2 p k)
  e k := x2 (ix2 p k)
  dt := x3 (ix2 p (0 : Fin 1))
  tw k := x4 (ix2 (0 : Fin 1) k)
  tb k := x5 (ix2 (0 : Fin 1) k)
  A0 k j := x6 (ix2 k j)
  A1 k j := x7 (ix2 k j)
  A2 k j := x8 (ix2 k j)
  A3 k j := x9 (ix2 k j)
  b1 j := x10 (ix1 j)
  B j l := x11 (ix2 j l)
  b2 l := x12 (ix1 l)
  C0 l q := x13 (ix2 l q)
  C1 l q := x14 (ix2 l q)
  C2 l q := x15 (ix2 l q)
  D0 k q := x16 (ix2 k q)
  D1 k q := x17 (ix2 k q)
  D2 k q := x18 (ix2 k q)
  c0 q := x19 (ix1 q)
  c1 q := x20 (ix1 q)
  c2 q := x21 (ix1 q)
  d0 q := x22 (ix1 q)
  d1 q := x23 (ix1 q)
  d2 q := x24 (ix1 q)

/-- The body's message at (p, l) is the message of the interaction of row p. -/
theorem msg_row (x0 x1 x2 : Vec Ideal S1000x172 .f32) (x3 : Vec Ideal S1000x1 .f32) (x4 x5 : Vec Ideal S1x172 .f32)
    (x6 x7 x8 x9 : Vec Ideal S172x344 .bf16) (x10 : Vec Ideal S344 .f32) (x11 : Vec Ideal S344x100 .bf16) (x12 : Vec Ideal S100 .f32)
    (x13 x14 x15 : Vec Ideal S100x172 .bf16) (x16 x17 x18 : Vec Ideal S172x172 .bf16)
    (x19 x20 x21 x22 x23 x24 : Vec Ideal S172 .f32)
    (p : Fin 1000) (l : Fin 100) :
    (k0_pay7 (F := Ideal) (k0_pay4 x3 x4 x5) (k0_pay5 x0 x1 x2 x6 x7 x8) (k0_pay6 x9) (constant S1000x344 .f32 0x00000000#32) x10 x11 x12 (ix2 p l) : EReal)
      = MsgGru.msg (rowInK x0 x1 x2 x3 x4 x5 x6 x7 x8 x9 x10 x11 x12 x13 x14 x15 x16 x17 x18 x19 x20 x21 x22 x23 x24 p) l := by
  rw [pay7_apply]
  refine congrArg (· + x12 (ix1 l)) (Finset.sum_congr rfl fun j _ => congrArg (· * x11 (ix2 j l)) ?_)
  rw [pay5_apply, pay6_eq]
  exact congrArg
    (fun t : EReal => max ((MsgGru.hidFeat (rowInK x0 x1 x2 x3 x4 x5 x6 x7 x8 x9 x10 x11 x12 x13 x14 x15 x16 x17 x18 x19 x20 x21 x22 x23 x24 p) j + t) + x10 (ix1 j)) (Ideal.ofBits .f32 0x00000000#32))
    (Finset.sum_congr rfl fun k _ => congrArg (· * x9 (ix2 k j)) (pay4_apply x3 x4 x5 p k))

/-- The value the body stores at (p, q) is the gated update of the interaction of row p, at q. -/
theorem pay_hnew (x0 x1 x2 : Vec Ideal S1000x172 .f32) (x3 : Vec Ideal S1000x1 .f32) (x4 x5 : Vec Ideal S1x172 .f32)
    (x6 x7 x8 x9 : Vec Ideal S172x344 .bf16) (x10 : Vec Ideal S344 .f32) (x11 : Vec Ideal S344x100 .bf16) (x12 : Vec Ideal S100 .f32)
    (x13 x14 x15 : Vec Ideal S100x172 .bf16) (x16 x17 x18 : Vec Ideal S172x172 .bf16)
    (x19 x20 x21 x22 x23 x24 : Vec Ideal S172 .f32)
    (p : Fin 1000) (q : Fin 172) :
    k0_pay1 (F := Ideal) (k0_pay2 x0) (k0_pay3 x0)
        (k0_pay8 (k0_pay4 x3 x4 x5) (k0_pay5 x0 x1 x2 x6 x7 x8) (k0_pay6 x9) (constant S1000x344 .f32 0x00000000#32) x10 x11 x12 x13 x19)
        (k0_pay9 (k0_pay4 x3 x4 x5) (k0_pay5 x0 x1 x2 x6 x7 x8) (k0_pay6 x9) (constant S1000x344 .f32 0x00000000#32) x10 x11 x12 x14 x20)
        (k0_pay10 (k0_pay4 x3 x4 x5) (k0_pay5 x0 x1 x2 x6 x7 x8) (k0_pay6 x9) (constant S1000x344 .f32 0x00000000#32) x10 x11 x12 x15 x21)
        x16 x22 x17 x23 x18 x24 (ix2 p q)
      = MsgGru.hnew (rowInK x0 x1 x2 x3 x4 x5 x6 x7 x8 x9 x10 x11 x12 x13 x14 x15 x16 x17 x18 x19 x20 x21 x22 x23 x24 p) q := by
  rw [pay1_apply, pay8_apply, pay9_apply, pay10_apply, pay2_eq]
  simp only [msg_row x0 x1 x2 x3 x4 x5 x6 x7 x8 x9 x10 x11 x12 x13 x14 x15 x16 x17 x18 x19 x20 x21 x22 x23 x24 p, pay3_apply]
  rfl

end Cert.KernelIdeal.Row

end
-- ==== Proof.RefRowIn.lean ====
/-
  The reference's rows. Row r of the reference's gathered arrays, its elapsed time, and the weights in the
  arrangement the per-interaction formula (Spec.lean) reads them in: the first layer's weight w1 [344, 688] by
  its four groups of 172 columns, transposed; the message layer's weight w2 [100, 344] transposed; the
  recurrent cell's weights w_ih [516, 100], w_hh [516, 172] and biases [516] by their three groups of 172 rows,
  the matrices transposed.
-/
import proofs.«130114_j34711925686554_2_alg».proof.Proof.ReadP
import proofs.«130114_j34711925686554_2_alg».proof.Proof.Spec

noncomputable section

namespace MsgGru

/-- Position `o + k` of an axis of length `N`, for `k` in a group of `n` consecutive positions starting at `o`. -/
def off {n : ℕ} (N o : ℕ) (h : o + n ≤ N) (k : Fin n) : Fin N := ⟨o + k.val, by have := k.isLt; omega⟩

@[simp] theorem off_val {n : ℕ} (N o : ℕ) (h : o + n ≤ N) (k : Fin n) : (off N o h k).val = o + k.val := rfl

end MsgGru

namespace Cert.ReferenceIdeal.Rows

open Cert.ReferenceIdeal Cert.ReferenceIdeal.ReadP Idealize.ShloMosaic Idealize.ShloMosaic.ValueIdx MsgGru

variable (x0 : (⟨S500000x172, .f32⟩ : BufTy).Contents (Elt Ideal)) (x1 : (⟨S500000, .f32⟩ : BufTy).Contents (Elt Ideal))
  (x2 : (⟨S500000x172, .f32⟩ : BufTy).Contents (Elt Ideal)) (x3 x4 : (⟨S172, .f32⟩ : BufTy).Contents (Elt Ideal))
  (x5 : (⟨S344x688, .f32⟩ : BufTy).Contents (Elt Ideal)) (x6 : (⟨S344, .f32⟩ : BufTy).Contents (Elt Ideal))
  (x7 : (⟨S100x344, .f32⟩ : BufTy).Contents (Elt Ideal)) (x8 : (⟨S100, .f32⟩ : BufTy).Contents (Elt Ideal))
  (x9 : (⟨S516x100, .f32⟩ : BufTy).Contents (Elt Ideal)) (x10 : (⟨S516x172, .f32⟩ : BufTy).Contents (Elt Ideal))
  (x11 x12 : (⟨S516, .f32⟩ : BufTy).Contents (Elt Ideal)) (x13 : (⟨S100000, .f32⟩ : BufTy).Contents (Elt Ideal))
  (x14 x15 x16 : (⟨S100000, .i32⟩ : BufTy).Contents (Elt Ideal))

/-- What interaction `r` reads, from the reference's arrays: row `r` of the three gathered arrays and of the
    elapsed times, and the weights by their groups. -/
def rowIn (r : Fin 100000) : MsgGru.RowIn where
  src k := val_main_v6 (F := Ideal) x0 x14 (ix2 r k)
  dst k := val_main_v13 (F := Ideal) x0 x15 (ix2 r k)
  e k := val_main_v20 (F := Ideal) x2 x16 (ix2 r k)
  dt := val_main_v28 (F := Ideal) x1 x13 x14 (ix1 r)
  tw k := x3 (ix1 k)
  tb k := x4 (ix1 k)
  A0 k j := x5 (ix2 j (off 688 0 (by norm_num) k))
  A1 k j := x5 (ix2 j (off 688 172 (by norm_num) k))
  A2 k j := x5 (ix2 j (off 688 344 (by norm_num) k))
  A3 k j := x5 (ix2 j (off 688 516 (by norm_num) k))
  b1 j := x6 (ix1 j)
  B j l := x7 (ix2 l j)
  b2 l := x8 (ix1 l)
  C0 l q := x9 (ix2 (off 516 0 (by norm_num) q) l)
  C1 l q := x9 (ix2 (off 516 172 (by norm_num) q) l)
  C2 l q := x9 (ix2 (off 516 344 (by norm_num) q) l)
  D0 k q := x10 (ix2 (off 516 0 (by norm_num) q) k)
  D1 k q := x10 (ix2 (off 516 172 (by norm_num) q) k)
  D2 k q := x10 (ix2 (off 516 344 (by norm_num) q) k)
  c0 q := x11 (ix1 (off 516 0 (by norm_num) q))
  c1 q := x11 (ix1 (off 516 172 (by norm_num) q))
  c2 q := x11 (ix1 (off 516 344 (by norm_num) q))
  d0 q := x12 (ix1 (off 516 0 (by norm_num) q))
  d1 q := x12 (ix1 (off 516 172 (by norm_num) q))
  d2 q := x12 (ix1 (off 516 344 (by norm_num) q))

end Cert.ReferenceIdeal.Rows

end
-- ==== Proof.GatherArrs.lean ====
/-
  The gathered row blocks. Before its region the kernel's program gathers, by the three index vectors, the rows
  of the two feature tables that the interactions read, and forms the elapsed times as a column: the event times
  minus the gathered last-update times. These are the same operations, in the same order, as the first stages of
  the reference; so each of the four arrays the region's first four windows read is, entry by entry, the
  reference's gathered array over the same arguments. An index vector is first wrapped (a negative index counts
  from the end) and then placed as a column; the elapsed times become a column by a cast that keeps the
  row-major order, which at (r, 0) reads entry r.
-/
import proofs.«130114_j34711925686554_2_alg».proof.Proof.Gen.KernelIdeal.Launch
import proofs.«130114_j34711925686554_2_alg».proof.Proof.ReadP
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.GatherArrs

open Cert.KernelIdeal Cert.KernelIdeal.Gen Idealize.ShloMosaic Idealize.ShloMosaic.TcCoe Idealize.ShloMosaic.ValueIdx
  Idealize.SL.Sem Idealize.ShloMosaic.StableHlo

/-- A vector of length a cast to the column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (σ : Valuation τ sig (Elt Ideal))

/-! ## The four arrays as functions -/

/-- The source rows: the first table gathered by the first index vector, as the reference gathers it. -/
theorem arr_src_fn :
    StableHlo.after (List.flatten [hostOps0 (F := Ideal)]) σ (Proc.devRef .tc main_call0_v6)
      = Cert.ReferenceIdeal.ReadP.val_main_v6 (F := Ideal) (σ (Proc.devRef .tc main_arg0)) (σ (Proc.devRef .tc main_arg14)) := by
  simp only [hostOps0, List.flatten_cons, List.flatten_nil, List.append_nil, List.cons_append, List.nil_append]
  after_results_simp
  rfl

/-- The destination rows: the first table gathered by the second index vector. -/
theorem arr_dst_fn :
    StableHlo.after (List.flatten [hostOps0 (F := Ideal)]) σ (Proc.devRef .tc main_call0_v13)
      = Cert.ReferenceIdeal.ReadP.val_main_v13 (F := Ideal) (σ (Proc.devRef .tc main_arg0)) (σ (Proc.devRef .tc main_arg15)) := by
  simp only [hostOps0, List.flatten_cons, List.flatten_nil, List.append_nil, List.cons_append, List.nil_append]
  after_results_simp
  rfl

/-- The edge rows: the second table gathered by the third index vector. -/
theorem arr_edge_fn :
    StableHlo.after (List.flatten [hostOps0 (F := Ideal)]) σ (Proc.devRef .tc main_call0_v20)
      = Cert.ReferenceIdeal.ReadP.val_main_v20 (F := Ideal) (σ (Proc.devRef .tc main_arg2)) (σ (Proc.devRef .tc main_arg16)) := by
  simp only [hostOps0, List.flatten_cons, List.flatten_nil, List.append_nil, List.cons_append, List.nil_append]
  after_results_simp
  rfl

/-- The elapsed times as a column: the reference's elapsed times, cast to [100000, 1]. -/
theorem arr_dt_fn :
    StableHlo.after (List.flatten [hostOps0 (F := Ideal)]) σ (Proc.devRef .tc main_call0_v29)
      = shapeCast S100000x1 (Cert.ReferenceIdeal.ReadP.val_main_v28 (F := Ideal) (σ (Proc.devRef .tc main_arg1)) (σ (Proc.devRef .tc main_arg13)) (σ (Proc.devRef .tc main_arg14))) shapeCasts_S100000_S100000x1 := by
  simp only [hostOps0, List.flatten_cons, List.flatten_nil, List.append_nil, List.cons_append, List.nil_append]
  after_results_simp
  rfl

/-! ## The four arrays at an entry -/

/-- Row r of the gathered source rows, at k. -/
theorem arr_src (r : Fin 100000) (k : Fin 172) :
    (StableHlo.after (List.flatten [hostOps0 (F := Ideal)]) σ (Proc.devRef .tc main_call0_v6) : S100000x172.Idx → EReal) (ix2 r k)
      = Cert.ReferenceIdeal.ReadP.val_main_v6 (F := Ideal) (σ (Proc.devRef .tc main_arg0)) (σ (Proc.devRef .tc main_arg14)) (ix2 r k) :=
  congrFun (arr_src_fn σ) (ix2 r k)

/-- Row r of the gathered destination rows, at k. -/
theorem arr_dst (r : Fin 100000) (k : Fin 172) :
    (StableHlo.after (List.flatten [hostOps0 (F := Ideal)]) σ (Proc.devRef .tc main_call0_v13) : S100000x172.Idx → EReal) (ix2 r k)
      = Cert.ReferenceIdeal.ReadP.val_main_v13 (F := Ideal) (σ (Proc.devRef .tc main_arg0)) (σ (Proc.devRef .tc main_arg15)) (ix2 r k) :=
  congrFun (arr_dst_fn σ) (ix2 r k)

/-- Row r of the gathered edge rows, at k. -/
theorem arr_edge (r : Fin 100000) (k : Fin 172) :
    (StableHlo.after (List.flatten [hostOps0 (F := Ideal)]) σ (Proc.devRef .tc main_call0_v20) : S100000x172.Idx → EReal) (ix2 r k)
      = Cert.ReferenceIdeal.ReadP.val_main_v20 (F := Ideal) (σ (Proc.devRef .tc main_arg2)) (σ (Proc.devRef .tc main_arg16)) (ix2 r k) :=
  congrFun (arr_edge_fn σ) (ix2 r k)

/-- Entry r of the column of elapsed times is the reference's elapsed time of interaction r. -/
theorem arr_dt (r : Fin 100000) :
    (StableHlo.after (List.flatten [hostOps0 (F := Ideal)]) σ (Proc.devRef .tc main_call0_v29) : S100000x1.Idx → EReal) (ix2 r (0 : Fin 1))
      = Cert.ReferenceIdeal.ReadP.val_main_v28 (F := Ideal) (σ (Proc.devRef .tc main_arg1)) (σ (Proc.devRef .tc main_arg13)) (σ (Proc.devRef .tc main_arg14)) (ix1 r) :=
  (congrFun (arr_dt_fn σ) (ix2 r (0 : Fin 1))).trans (shapeCast_a_a1_apply _ _ r (0 : Fin 1))

end Cert.KernelIdeal.GatherArrs

end
-- ==== Proof.BlocksRows.lean ====
/-
  The four windows that move with the grid. The region walks the 100000 interactions in 100 blocks of 1000 rows:
  at point t the first four windows hold rows 1000 t … 1000 t + 999 of the gathered source, destination and
  edge rows and of the column of elapsed times. Read at row p, each is the reference's gathered array at row
  1000 t + p.
-/
import proofs.«130114_j34711925686554_2_alg».proof.Proof.FrameKI
import proofs.«130114_j34711925686554_2_alg».proof.Proof.GatherArrs
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.GatherArrs

variable (m : (ℓ : Loc nD τ sig) → Buf (Elt Ideal) ℓ)

/-! ## Rows of blocks as rows of the arrays -/

/-- Row p of the block at point t is row 1000 t + p of the array. -/
def row (t : Fin cfg0.N) (p : Fin 1000) : Fin 100000 :=
  ⟨1000 * t.val + p.val, by have ht := t.isLt; have hp := p.isLt; have hN : cfg0.N = 100 := N_0; omega⟩

@[simp] theorem row_val (t : Fin cfg0.N) (p : Fin 1000) : (row t p).val = 1000 * t.val + p.val := rfl

/-- The windows that move with the grid read block t at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_25.index t (0 : Fin 2) = t.val ∧ win0_25.index t (1 : Fin 2) = 0 :=
  (by decide +kernel : ∀ t : Fin grid0.N, _)

/-- Row p of the source block at point t is the reference's gathered source row of interaction 1000 t + p. -/
theorem blk_src (c : Dev nD) (t : Fin cfg0.N) (p : Fin 1000) (k : Fin 172) :
    (iblk m c 0 t : Vec Ideal S1000x172 .f32) (ix2 p k)
      = Cert.ReferenceIdeal.ReadP.val_main_v6 (F := Ideal) (m ((c : Thread nD τ).loc main_arg0)) (m ((c : Thread nD τ).loc main_arg14)) (ix2 (row t p) k) := by
  obtain ⟨e0, e1, -, -, -, -, -, -, -, -⟩ := idx_rows t
  unfold iblk
  rw [View.read_apply]
  show V m c main_call0_v6 (((cfg0.win 0).blk t).view.emb (ix2 p k)) = _
  have hemb : ((cfg0.win 0).blk t).view.emb (ix2 p k) = ix2 (row t p) k := by
    funext a; apply Fin.ext
    match a with
    | ⟨0, _⟩ => show win0_0.index t (0 : Fin 2) * 1000 + 1 * p.val = 1000 * t.val + p.val; rw [e0]; omega
    | ⟨1, _⟩ => show win0_0.index t (1 : Fin 2) * 172 + 1 * k.val = k.val; rw [e1]; omega
  rw [hemb]
  exact arr_src (fun b => m (c, b)) (row t p) k

/-- Row p of the destination block at point t is the reference's gathered destination row of interaction 1000 t + p. -/
theorem blk_dst (c : Dev nD) (t : Fin cfg0.N) (p : Fin 1000) (k : Fin 172) :
    (iblk m c 1 t : Vec Ideal S1000x172 .f32) (ix2 p k)
      = Cert.ReferenceIdeal.ReadP.val_main_v13 (F := Ideal) (m ((c : Thread nD τ).loc main_arg0)) (m ((c : Thread nD τ).loc main_arg15)) (ix2 (row t p) k) := by
  obtain ⟨-, -, e0, e1, -, -, -, -, -, -⟩ := idx_rows t
  unfold iblk
  rw [View.read_apply]
  show V m c main_call0_v13 (((cfg0.win 1).blk t).view.emb (ix2 p k)) = _
  have hemb : ((cfg0.win 1).blk t).view.emb (ix2 p k) = ix2 (row t p) k := by
    funext a; apply Fin.ext
    match a with
    | ⟨0, _⟩ => show win0_1.index t (0 : Fin 2) * 1000 + 1 * p.val = 1000 * t.val + p.val; rw [e0]; omega
    | ⟨1, _⟩ => show win0_1.index t (1 : Fin 2) * 172 + 1 * k.val = k.val; rw [e1]; omega
  rw [hemb]
  exact arr_dst (fun b => m (c, b)) (row t p) k

/-- Row p of the edge block at point t is the reference's gathered edge row of interaction 1000 t + p. -/
theorem blk_edge (c : Dev nD) (t : Fin cfg0.N) (p : Fin 1000) (k : Fin 172) :
    (iblk m c 2 t : Vec Ideal S1000x172 .f32) (ix2 p k)
      = Cert.ReferenceIdeal.ReadP.val_main_v20 (F := Ideal) (m ((c : Thread nD τ).loc main_arg2)) (m ((c : Thread nD τ).loc main_arg16)) (ix2 (row t p) k) := by
  obtain ⟨-, -, -, -, e0, e1, -, -, -, -⟩ := idx_rows t
  unfold iblk
  rw [View.read_apply]
  show V m c main_call0_v20 (((cfg0.win 2).blk t).view.emb (ix2 p k)) = _
  have hemb : ((cfg0.win 2).blk t).view.emb (ix2 p k) = ix2 (row t p) k := by
    funext a; apply Fin.ext
    match a with
    | ⟨0, _⟩ => show win0_2.index t (0 : Fin 2) * 1000 + 1 * p.val = 1000 * t.val + p.val; rw [e0]; omega
    | ⟨1, _⟩ => show win0_2.index t (1 : Fin 2) * 172 + 1 * k.val = k.val; rw [e1]; omega
  rw [hemb]
  exact arr_edge (fun b => m (c, b)) (row t p) k

/-- Entry p of the elapsed-time block at point t is the reference's elapsed time of interaction 1000 t + p. -/
theorem blk_dt (c : Dev nD) (t : Fin cfg0.N) (p : Fin 1000) :
    (iblk m c 3 t : Vec Ideal S1000x1 .f32) (ix2 p (0 : Fin 1))
      = Cert.ReferenceIdeal.ReadP.val_main_v28 (F := Ideal) (m ((c : Thread nD τ).loc main_arg1)) (m ((c : Thread nD τ).loc main_arg13)) (m ((c : Thread nD τ).loc main_arg14)) (ix1 (row t p)) := by
  obtain ⟨-, -, -, -, -, -, e0, e1, -, -⟩ := idx_rows t
  unfold iblk
  rw [View.read_apply]
  show V m c main_call0_v29 (((cfg0.win 3).blk t).view.emb (ix2 p (0 : Fin 1))) = _
  have hemb : ((cfg0.win 3).blk t).view.emb (ix2 p (0 : Fin 1)) = ix2 (row t p) (0 : Fin 1) := by
    funext a; apply Fin.ext
    match a with
    | ⟨0, _⟩ => show win0_3.index t (0 : Fin 2) * 1000 + 1 * p.val = 1000 * t.val + p.val; rw [e0]; omega
    | ⟨1, _⟩ => show win0_3.index t (1 : Fin 2) * 1 + 1 * 0 = 0; rw [e1]
  rw [hemb]
  exact arr_dt (fun b => m (c, b)) (row t p)

end Cert.KernelIdeal.Blocks

end
-- ==== Proof.BlocksW1.lean ====
/-
  The windows that hold a weight whole, at every point: the frequency and phase rows of the time encoding and
  the first three column groups of the hidden layer's weight. Each block, read at an entry, is the argument
  array at the entry the per-interaction formula reads.
-/
import proofs.«130114_j34711925686554_2_alg».proof.Proof.FrameKI
import proofs.«130114_j34711925686554_2_alg».proof.Proof.HostArrs
import proofs.«130114_j34711925686554_2_alg».proof.Proof.RefRowIn
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ)

theorem idx4 : ∀ t : Fin cfg0.N, win0_4.index t (0 : Fin 2) = 0 ∧ win0_4.index t (1 : Fin 2) = 0 :=
  (by decide +kernel : ∀ t : Fin grid0.N, _)
/-- The frequency row, at every point: the frequencies. -/
theorem blk_tw (c : Dev nD) (t : Fin cfg0.N) (k : Fin 172) :
    (iblk m c 4 t : Vec Ideal S1x172 .f32) (ix2 (0 : Fin 1) k) = (m ((c : Thread nD τ).loc main_arg3)) (ix1 k) := by
  obtain ⟨e0, e1⟩ := idx4 t
  unfold iblk
  rw [View.read_apply]
  show V m c main_call0_v68 (((cfg0.win 4).blk t).view.emb (ix2 (0 : Fin 1) k)) = _
  have hemb : ((cfg0.win 4).blk t).view.emb (ix2 (0 : Fin 1) k) = ix2 (0 : Fin 1) k := by
    funext a; apply Fin.ext
    match a with
    | ⟨0, _⟩ => show win0_4.index t (0 : Fin 2) * 1 + 1 * 0 = 0; rw [e0]
    | ⟨1, _⟩ => show win0_4.index t (1 : Fin 2) * 172 + 1 * k.val = k.val; rw [e1]; omega
  rw [hemb]
  exact HostArrs.arr_v68 (fun b => m (c, b)) k

theorem idx5 : ∀ t : Fin cfg0.N, win0_5.index t (0 : Fin 2) = 0 ∧ win0_5.index t (1 : Fin 2) = 0 :=
  (by decide +kernel : ∀ t : Fin grid0.N, _)
/-- The phase row, at every point: the phases. -/
theorem blk_tb (c : Dev nD) (t : Fin cfg0.N) (k : Fin 172) :
    (iblk m c 5 t : Vec Ideal S1x172 .f32) (ix2 (0 : Fin 1) k) = (m ((c : Thread nD τ).loc main_arg4)) (ix1 k) := by
  obtain ⟨e0, e1⟩ := idx5 t
  unfold iblk
  rw [View.read_apply]
  show V m c main_call0_v69 (((cfg0.win 5).blk t).view.emb (ix2 (0 : Fin 1) k)) = _
  have hemb : ((cfg0.win 5).blk t).view.emb (ix2 (0 : Fin 1) k) = ix2 (0 : Fin 1) k := by
    funext a; apply Fin.ext
    match a with
    | ⟨0, _⟩ => show win0_5.index t (0 : Fin 2) * 1 + 1 * 0 = 0; rw [e0]
    | ⟨1, _⟩ => show win0_5.index t (1 : Fin 2) * 172 + 1 * k.val = k.val; rw [e1]; omega
  rw [hemb]
  exact HostArrs.arr_v69 (fun b => m (c, b)) k

theorem idx6 : ∀ t : Fin cfg0.N, win0_6.index t (0 : Fin 2) = 0 ∧ win0_6.index t (1 : Fin 2) = 0 :=
  (by decide +kernel : ∀ t : Fin grid0.N, _)
/-- The hidden layer's weight group at columns 0 … 171, transposed, at every point. -/
theorem blk_A0 (c : Dev nD) (t : Fin cfg0.N) (k : Fin 172) (j : Fin 344) :
    (iblk m c 6 t : Vec Ideal S172x344 .bf16) (ix2 k j) = (m ((c : Thread nD τ).loc main_arg5)) (ix2 j (MsgGru.off 688 0 (by omega) k)) := by
  obtain ⟨e0, e1⟩ := idx6 t
  unfold iblk
  rw [View.read_apply]
  show V m c main_call0_v32 (((cfg0.win 6).blk t).view.emb (ix2 k j)) = _
  have hemb : ((cfg0.win 6).blk t).view.emb (ix2 k j) = ix2 k j := by
    funext a; apply Fin.ext
    match a with
    | ⟨0, _⟩ => show win0_6.index t (0 : Fin 2) * 172 + 1 * k.val = k.val; rw [e0]; omega
    | ⟨1, _⟩ => show win0_6.index t (1 : Fin 2) * 344 + 1 * j.val = j.val; rw [e1]; omega
  rw [hemb]
  exact HostArrs.arr_v32 (fun b => m (c, b)) k j

theorem idx7 : ∀ t : Fin cfg0.N, win0_7.index t (0 : Fin 2) = 0 ∧ win0_7.index t (1 : Fin 2) = 0 :=
  (by decide +kernel : ∀ t : Fin grid0.N, _)
/-- The hidden layer's weight group at columns 172 … 343, transposed, at every point. -/
theorem blk_A1 (c : Dev nD) (t : Fin cfg0.N) (k : Fin 172) (j : Fin 344) :
    (iblk m c 7 t : Vec Ideal S172x344 .bf16) (ix2 k j) = (m ((c : Thread nD τ).loc main_arg5)) (ix2 j (MsgGru.off 688 172 (by omega) k)) := by
  obtain ⟨e0, e1⟩ := idx7 t
  unfold iblk
  rw [View.read_apply]
  show V m c main_call0_v35 (((cfg0.win 7).blk t).view.emb (ix2 k j)) = _
  have hemb : ((cfg0.win 7).blk t).view.emb (ix2 k j) = ix2 k j := by
    funext a; apply Fin.ext
    match a with
    | ⟨0, _⟩ => show win0_7.index t (0 : Fin 2) * 172 + 1 * k.val = k.val; rw [e0]; omega
    | ⟨1, _⟩ => show win0_7.index t (1 : Fin 2) * 344 + 1 * j.val = j.val; rw [e1]; omega
  rw [hemb]
  exact HostArrs.arr_v35 (fun b => m (c, b)) k j

theorem idx8 : ∀ t : Fin cfg0.N, win0_8.index t (0 : Fin 2) = 0 ∧ win0_8.index t (1 : Fin 2) = 0 :=
  (by decide +kernel : ∀ t : Fin grid0.N, _)
/-- The hidden layer's weight group at columns 344 … 515, transposed, at every point. -/
theorem blk_A2 (c : Dev nD) (t : Fin cfg0.N) (k : Fin 172) (j : Fin 344) :
    (iblk m c 8 t : Vec Ideal S172x344 .bf16) (ix2 k j) = (m ((c : Thread nD τ).loc main_arg5)) (ix2 j (MsgGru.off 688 344 (by omega) k)) := by
  obtain ⟨e0, e1⟩ := idx8 t
  unfold iblk
  rw [View.read_apply]
  show V m c main_call0_v38 (((cfg0.win 8).blk t).view.emb (ix2 k j)) = _
  have hemb : ((cfg0.win 8).blk t).view.emb (ix2 k j) = ix2 k j := by
    funext a; apply Fin.ext
    match a with
    | ⟨0, _⟩ => show win0_8.index t (0 : Fin 2) * 172 + 1 * k.val = k.val; rw [e0]; omega
    | ⟨1, _⟩ => show win0_8.index t (1 : Fin 2) * 344 + 1 * j.val = j.val; rw [e1]; omega
  rw [hemb]
  exact HostArrs.arr_v38 (fun b => m (c, b)) k j

end Cert.KernelIdeal.Blocks

end
-- ==== Proof.BlocksW2.lean ====
/-
  The windows that hold a weight whole, at every point: the hidden layer's last column group and bias, the
  message layer's weight and bias, and the first row group of the cell's input weight.
-/
import proofs.«130114_j34711925686554_2_alg».proof.Proof.FrameKI
import proofs.«130114_j34711925686554_2_alg».proof.Proof.HostArrs
import proofs.«130114_j34711925686554_2_alg».proof.Proof.RefRowIn
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ)

theorem idx9 : ∀ t : Fin cfg0.N, win0_9.index t (0 : Fin 2) = 0 ∧ win0_9.index t (1 : Fin 2) = 0 :=
  (by decide +kernel : ∀ t : Fin grid0.N, _)
/-- The hidden layer's weight group at columns 516 … 687, transposed, at every point. -/
theorem blk_A3 (c : Dev nD) (t : Fin cfg0.N) (k : Fin 172) (j : Fin 344) :
    (iblk m c 9 t : Vec Ideal S172x344 .bf16) (ix2 k j) = (m ((c : Thread nD τ).loc main_arg5)) (ix2 j (MsgGru.off 688 516 (by omega) k)) := by
  obtain ⟨e0, e1⟩ := idx9 t
  unfold iblk
  rw [View.read_apply]
  show V m c main_call0_v41 (((cfg0.win 9).blk t).view.emb (ix2 k j)) = _
  have hemb : ((cfg0.win 9).blk t).view.emb (ix2 k j) = ix2 k j := by
    funext a; apply Fin.ext
    match a with
    | ⟨0, _⟩ => show win0_9.index t (0 : Fin 2) * 172 + 1 * k.val = k.val; rw [e0]; omega
    | ⟨1, _⟩ => show win0_9.index t (1 : Fin 2) * 344 + 1 * j.val = j.val; rw [e1]; omega
  rw [hemb]
  exact HostArrs.arr_v41 (fun b => m (c, b)) k j

theorem idx10 : ∀ t : Fin cfg0.N, win0_10.index t (0 : Fin 1) = 0 :=
  (by decide +kernel : ∀ t : Fin grid0.N, _)
/-- The hidden layer's bias, at every point. -/
theorem blk_b1 (c : Dev nD) (t : Fin cfg0.N) (j : Fin 344) :
    (iblk m c 10 t : Vec Ideal S344 .f32) (ix1 j) = (m ((c : Thread nD τ).loc main_arg6)) (ix1 j) := by
  have e0 := idx10 t
  unfold iblk
  rw [View.read_apply]
  show V m c main_arg6 (((cfg0.win 10).blk t).view.emb (ix1 j)) = _
  have hemb : ((cfg0.win 10).blk t).view.emb (ix1 j) = ix1 j := by
    funext a; apply Fin.ext
    match a with
    | ⟨0, _⟩ => show win0_10.index t (0 : Fin 1) * 344 + 1 * j.val = j.val; rw [e0]; omega
  rw [hemb]
  exact congrFun (V_main_arg6 m c) (ix1 j)

theorem idx11 : ∀ t : Fin cfg0.N, win0_11.index t (0 : Fin 2) = 0 ∧ win0_11.index t (1 : Fin 2) = 0 :=
  (by decide +kernel : ∀ t : Fin grid0.N, _)
/-- The message layer's weight, transposed, at every point. -/
theorem blk_B (c : Dev nD) (t : Fin cfg0.N) (j : Fin 344) (l : Fin 100) :
    (iblk m c 11 t : Vec Ideal S344x100 .bf16) (ix2 j l) = (m ((c : Thread nD τ).loc main_arg7)) (ix2 l j) := by
  obtain ⟨e0, e1⟩ := idx11 t
  unfold iblk
  rw [View.read_apply]
  show V m c main_call0_v43 (((cfg0.win 11).blk t).view.emb (ix2 j l)) = _
  have hemb : ((cfg0.win 11).blk t).view.emb (ix2 j l) = ix2 j l := by
    funext a; apply Fin.ext
    match a with
    | ⟨0, _⟩ => show win0_11.index t (0 : Fin 2) * 344 + 1 * j.val = j.val; rw [e0]; omega
    | ⟨1, _⟩ => show win0_11.index t (1 : Fin 2) * 100 + 1 * l.val = l.val; rw [e1]; omega
  rw [hemb]
  exact HostArrs.arr_v43 (fun b => m (c, b)) j l

theorem idx12 : ∀ t : Fin cfg0.N, win0_12.index t (0 : Fin 1) = 0 :=
  (by decide +kernel : ∀ t : Fin grid0.N, _)
/-- The message layer's bias, at every point. -/
theorem blk_b2 (c : Dev nD) (t : Fin cfg0.N) (l : Fin 100) :
    (iblk m c 12 t : Vec Ideal S100 .f32) (ix1 l) = (m ((c : Thread nD τ).loc main_arg8)) (ix1 l) := by
  have e0 := idx12 t
  unfold iblk
  rw [View.read_apply]
  show V m c main_arg8 (((cfg0.win 12).blk t).view.emb (ix1 l)) = _
  have hemb : ((cfg0.win 12).blk t).view.emb (ix1 l) = ix1 l := by
    funext a; apply Fin.ext
    match a with
    | ⟨0, _⟩ => show win0_12.index t (0 : Fin 1) * 100 + 1 * l.val = l.val; rw [e0]; omega
  rw [hemb]
  exact congrFun (V_main_arg8 m c) (ix1 l)

theorem idx13 : ∀ t : Fin cfg0.N, win0_13.index t (0 : Fin 2) = 0 ∧ win0_13.index t (1 : Fin 2) = 0 :=
  (by decide +kernel : ∀ t : Fin grid0.N, _)
/-- The cell's input weight, rows 0 … 171, transposed, at every point. -/
theorem blk_C0 (c : Dev nD) (t : Fin cfg0.N) (l : Fin 100) (q : Fin 172) :
    (iblk m c 13 t : Vec Ideal S100x172 .bf16) (ix2 l q) = (m ((c : Thread nD τ).loc main_arg9)) (ix2 (MsgGru.off 516 0 (by omega) q) l) := by
  obtain ⟨e0, e1⟩ := idx13 t
  unfold iblk
  rw [View.read_apply]
  show V m c main_call0_v46 (((cfg0.win 13).blk t).view.emb (ix2 l q)) = _
  have hemb : ((cfg0.win 13).blk t).view.emb (ix2 l q) = ix2 l q := by
    funext a; apply Fin.ext
    match a with
    | ⟨0, _⟩ => show win0_13.index t (0 : Fin 2) * 100 + 1 * l.val = l.val; rw [e0]; omega
    | ⟨1, _⟩ => show win0_13.index t (1 : Fin 2) * 172 + 1 * q.val = q.val; rw [e1]; omega
  rw [hemb]
  exact HostArrs.arr_v46 (fun b => m (c, b)) l q

end Cert.KernelIdeal.Blocks

end
-- ==== Proof.BlocksW3.lean ====
/-
  The windows that hold a weight whole, at every point: the other two row groups of the cell's input weight and
  the three row groups of its memory weight.
-/
import proofs.«130114_j34711925686554_2_alg».proof.Proof.FrameKI
import proofs.«130114_j34711925686554_2_alg».proof.Proof.HostArrs
import proofs.«130114_j34711925686554_2_alg».proof.Proof.RefRowIn
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ)

theorem idx14 : ∀ t : Fin cfg0.N, win0_14.index t (0 : Fin 2) = 0 ∧ win0_14.index t (1 : Fin 2) = 0 :=
  (by decide +kernel : ∀ t : Fin grid0.N, _)
/-- The cell's input weight, rows 172 … 343, transposed, at every point. -/
theorem blk_C1 (c : Dev nD) (t : Fin cfg0.N) (l : Fin 100) (q : Fin 172) :
    (iblk m c 14 t : Vec Ideal S100x172 .bf16) (ix2 l q) = (m ((c : Thread nD τ).loc main_arg9)) (ix2 (MsgGru.off 516 172 (by omega) q) l) := by
  obtain ⟨e0, e1⟩ := idx14 t
  unfold iblk
  rw [View.read_apply]
  show V m c main_call0_v49 (((cfg0.win 14).blk t).view.emb (ix2 l q)) = _
  have hemb : ((cfg0.win 14).blk t).view.emb (ix2 l q) = ix2 l q := by
    funext a; apply Fin.ext
    match a with
    | ⟨0, _⟩ => show win0_14.index t (0 : Fin 2) * 100 + 1 * l.val = l.val; rw [e0]; omega
    | ⟨1, _⟩ => show win0_14.index t (1 : Fin 2) * 172 + 1 * q.val = q.val; rw [e1]; omega
  rw [hemb]
  exact HostArrs.arr_v49 (fun b => m (c, b)) l q

theorem idx15 : ∀ t : Fin cfg0.N, win0_15.index t (0 : Fin 2) = 0 ∧ win0_15.index t (1 : Fin 2) = 0 :=
  (by decide +kernel : ∀ t : Fin grid0.N, _)
/-- The cell's input weight, rows 344 … 515, transposed, at every point. -/
theorem blk_C2 (c : Dev nD) (t : Fin cfg0.N) (l : Fin 100) (q : Fin 172) :
    (iblk m c 15 t : Vec Ideal S100x172 .bf16) (ix2 l q) = (m ((c : Thread nD τ).loc main_arg9)) (ix2 (MsgGru.off 516 344 (by omega) q) l) := by
  obtain ⟨e0, e1⟩ := idx15 t
  unfold iblk
  rw [View.read_apply]
  show V m c main_call0_v52 (((cfg0.win 15).blk t).view.emb (ix2 l q)) = _
  have hemb : ((cfg0.win 15).blk t).view.emb (ix2 l q) = ix2 l q := by
    funext a; apply Fin.ext
    match a with
    | ⟨0, _⟩ => show win0_15.index t (0 : Fin 2) * 100 + 1 * l.val = l.val; rw [e0]; omega
    | ⟨1, _⟩ => show win0_15.index t (1 : Fin 2) * 172 + 1 * q.val = q.val; rw [e1]; omega
  rw [hemb]
  exact HostArrs.arr_v52 (fun b => m (c, b)) l q

theorem idx16 : ∀ t : Fin cfg0.N, win0_16.index t (0 : Fin 2) = 0 ∧ win0_16.index t (1 : Fin 2) = 0 :=
  (by decide +kernel : ∀ t : Fin grid0.N, _)
/-- The cell's memory weight, rows 0 … 171, transposed, at every point. -/
theorem blk_D0 (c : Dev nD) (t : Fin cfg0.N) (k : Fin 172) (q : Fin 172) :
    (iblk m c 16 t : Vec Ideal S172x172 .bf16) (ix2 k q) = (m ((c : Thread nD τ).loc main_arg10)) (ix2 (MsgGru.off 516 0 (by omega) q) k) := by
  obtain ⟨e0, e1⟩ := idx16 t
  unfold iblk
  rw [View.read_apply]
  show V m c main_call0_v55 (((cfg0.win 16).blk t).view.emb (ix2 k q)) = _
  have hemb : ((cfg0.win 16).blk t).view.emb (ix2 k q) = ix2 k q := by
    funext a; apply Fin.ext
    match a with
    | ⟨0, _⟩ => show win0_16.index t (0 : Fin 2) * 172 + 1 * k.val = k.val; rw [e0]; omega
    | ⟨1, _⟩ => show win0_16.index t (1 : Fin 2) * 172 + 1 * q.val = q.val; rw [e1]; omega
  rw [hemb]
  exact HostArrs.arr_v55 (fun b => m (c, b)) k q

theorem idx17 : ∀ t : Fin cfg0.N, win0_17.index t (0 : Fin 2) = 0 ∧ win0_17.index t (1 : Fin 2) = 0 :=
  (by decide +kernel : ∀ t : Fin grid0.N, _)
/-- The cell's memory weight, rows 172 … 343, transposed, at every point. -/
theorem blk_D1 (c : Dev nD) (t : Fin cfg0.N) (k : Fin 172) (q : Fin 172) :
    (iblk m c 17 t : Vec Ideal S172x172 .bf16) (ix2 k q) = (m ((c : Thread nD τ).loc main_arg10)) (ix2 (MsgGru.off 516 172 (by omega) q) k) := by
  obtain ⟨e0, e1⟩ := idx17 t
  unfold iblk
  rw [View.read_apply]
  show V m c main_call0_v58 (((cfg0.win 17).blk t).view.emb (ix2 k q)) = _
  have hemb : ((cfg0.win 17).blk t).view.emb (ix2 k q) = ix2 k q := by
    funext a; apply Fin.ext
    match a with
    | ⟨0, _⟩ => show win0_17.index t (0 : Fin 2) * 172 + 1 * k.val = k.val; rw [e0]; omega
    | ⟨1, _⟩ => show win0_17.index t (1 : Fin 2) * 172 + 1 * q.val = q.val; rw [e1]; omega
  rw [hemb]
  exact HostArrs.arr_v58 (fun b => m (c, b)) k q

theorem idx18 : ∀ t : Fin cfg0.N, win0_18.index t (0 : Fin 2) = 0 ∧ win0_18.index t (1 : Fin 2) = 0 :=
  (by decide +kernel : ∀ t : Fin grid0.N, _)
/-- The cell's memory weight, rows 344 … 515, transposed, at every point. -/
theorem blk_D2 (c : Dev nD) (t : Fin cfg0.N) (k : Fin 172) (q : Fin 172) :
    (iblk m c 18 t : Vec Ideal S172x172 .bf16) (ix2 k q) = (m ((c : Thread nD τ).loc main_arg10)) (ix2 (MsgGru.off 516 344 (by omega) q) k) := by
  obtain ⟨e0, e1⟩ := idx18 t
  unfold iblk
  rw [View.read_apply]
  show V m c main_call0_v61 (((cfg0.win 18).blk t).view.emb (ix2 k q)) = _
  have hemb : ((cfg0.win 18).blk t).view.emb (ix2 k q) = ix2 k q := by
    funext a; apply Fin.ext
    match a with
    | ⟨0, _⟩ => show win0_18.index t (0 : Fin 2) * 172 + 1 * k.val = k.val; rw [e0]; omega
    | ⟨1, _⟩ => show win0_18.index t (1 : Fin 2) * 172 + 1 * q.val = q.val; rw [e1]; omega
  rw [hemb]
  exact HostArrs.arr_v61 (fun b => m (c, b)) k q

end Cert.KernelIdeal.Blocks

end
-- ==== Proof.BlocksW4.lean ====
/-
  The windows that hold a weight whole, at every point: the three groups of the cell's input bias and of its
  memory bias.
-/
import proofs.«130114_j34711925686554_2_alg».proof.Proof.FrameKI
import proofs.«130114_j34711925686554_2_alg».proof.Proof.HostArrs
import proofs.«130114_j34711925686554_2_alg».proof.Proof.RefRowIn
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ)

theorem idx19 : ∀ t : Fin cfg0.N, win0_19.index t (0 : Fin 1) = 0 :=
  (by decide +kernel : ∀ t : Fin grid0.N, _)
/-- The cell's input bias, entries 0 … 171, at every point. -/
theorem blk_c0 (c : Dev nD) (t : Fin cfg0.N) (q : Fin 172) :
    (iblk m c 19 t : Vec Ideal S172 .f32) (ix1 q) = (m ((c : Thread nD τ).loc main_arg11)) (ix1 (MsgGru.off 516 0 (by omega) q)) := by
  have e0 := idx19 t
  unfold iblk
  rw [View.read_apply]
  show V m c main_call0_v62 (((cfg0.win 19).blk t).view.emb (ix1 q)) = _
  have hemb : ((cfg0.win 19).blk t).view.emb (ix1 q) = ix1 q := by
    funext a; apply Fin.ext
    match a with
    | ⟨0, _⟩ => show win0_19.index t (0 : Fin 1) * 172 + 1 * q.val = q.val; rw [e0]; omega
  rw [hemb]
  exact HostArrs.arr_v62 (fun b => m (c, b)) q

theorem idx20 : ∀ t : Fin cfg0.N, win0_20.index t (0 : Fin 1) = 0 :=
  (by decide +kernel : ∀ t : Fin grid0.N, _)
/-- The cell's input bias, entries 172 … 343, at every point. -/
theorem blk_c1 (c : Dev nD) (t : Fin cfg0.N) (q : Fin 172) :
    (iblk m c 20 t : Vec Ideal S172 .f32) (ix1 q) = (m ((c : Thread nD τ).loc main_arg11)) (ix1 (MsgGru.off 516 172 (by omega) q)) := by
  have e0 := idx20 t
  unfold iblk
  rw [View.read_apply]
  show V m c main_call0_v63 (((cfg0.win 20).blk t).view.emb (ix1 q)) = _
  have hemb : ((cfg0.win 20).blk t).view.emb (ix1 q) = ix1 q := by
    funext a; apply Fin.ext
    match a with
    | ⟨0, _⟩ => show win0_20.index t (0 : Fin 1) * 172 + 1 * q.val = q.val; rw [e0]; omega
  rw [hemb]
  exact HostArrs.arr_v63 (fun b => m (c, b)) q

theorem idx21 : ∀ t : Fin cfg0.N, win0_21.index t (0 : Fin 1) = 0 :=
  (by decide +kernel : ∀ t : Fin grid0.N, _)
/-- The cell's input bias, entries 344 … 515, at every point. -/
theorem blk_c2 (c : Dev nD) (t : Fin cfg0.N) (q : Fin 172) :
    (iblk m c 21 t : Vec Ideal S172 .f32) (ix1 q) = (m ((c : Thread nD τ).loc main_arg11)) (ix1 (MsgGru.off 516 344 (by omega) q)) := by
  have e0 := idx21 t
  unfold iblk
  rw [View.read_apply]
  show V m c main_call0_v64 (((cfg0.win 21).blk t).view.emb (ix1 q)) = _
  have hemb : ((cfg0.win 21).blk t).view.emb (ix1 q) = ix1 q := by
    funext a; apply Fin.ext
    match a with
    | ⟨0, _⟩ => show win0_21.index t (0 : Fin 1) * 172 + 1 * q.val = q.val; rw [e0]; omega
  rw [hemb]
  exact HostArrs.arr_v64 (fun b => m (c, b)) q

theorem idx22 : ∀ t : Fin cfg0.N, win0_22.index t (0 : Fin 1) = 0 :=
  (by decide +kernel : ∀ t : Fin grid0.N, _)
/-- The cell's memory bias, entries 0 … 171, at every point. -/
theorem blk_d0 (c : Dev nD) (t : Fin cfg0.N) (q : Fin 172) :
    (iblk m c 22 t : Vec Ideal S172 .f32) (ix1 q) = (m ((c : Thread nD τ).loc main_arg12)) (ix1 (MsgGru.off 516 0 (by omega) q)) := by
  have e0 := idx22 t
  unfold iblk
  rw [View.read_apply]
  show V m c main_call0_v65 (((cfg0.win 22).blk t).view.emb (ix1 q)) = _
  have hemb : ((cfg0.win 22).blk t).view.emb (ix1 q) = ix1 q := by
    funext a; apply Fin.ext
    match a with
    | ⟨0, _⟩ => show win0_22.index t (0 : Fin 1) * 172 + 1 * q.val = q.val; rw [e0]; omega
  rw [hemb]
  exact HostArrs.arr_v65 (fun b => m (c, b)) q

theorem idx23 : ∀ t : Fin cfg0.N, win0_23.index t (0 : Fin 1) = 0 :=
  (by decide +kernel : ∀ t : Fin grid0.N, _)
/-- The cell's memory bias, entries 172 … 343, at every point. -/
theorem blk_d1 (c : Dev nD) (t : Fin cfg0.N) (q : Fin 172) :
    (iblk m c 23 t : Vec Ideal S172 .f32) (ix1 q) = (m ((c : Thread nD τ).loc main_arg12)) (ix1 (MsgGru.off 516 172 (by omega) q)) := by
  have e0 := idx23 t
  unfold iblk
  rw [View.read_apply]
  show V m c main_call0_v66 (((cfg0.win 23).blk t).view.emb (ix1 q)) = _
  have hemb : ((cfg0.win 23).blk t).view.emb (ix1 q) = ix1 q := by
    funext a; apply Fin.ext
    match a with
    | ⟨0, _⟩ => show win0_23.index t (0 : Fin 1) * 172 + 1 * q.val = q.val; rw [e0]; omega
  rw [hemb]
  exact HostArrs.arr_v66 (fun b => m (c, b)) q

theorem idx24 : ∀ t : Fin cfg0.N, win0_24.index t (0 : Fin 1) = 0 :=
  (by decide +kernel : ∀ t : Fin grid0.N, _)
/-- The cell's memory bias, entries 344 … 515, at every point. -/
theorem blk_d2 (c : Dev nD) (t : Fin cfg0.N) (q : Fin 172) :
    (iblk m c 24 t : Vec Ideal S172 .f32) (ix1 q) = (m ((c : Thread nD τ).loc main_arg12)) (ix1 (MsgGru.off 516 344 (by omega) q)) := by
  have e0 := idx24 t
  unfold iblk
  rw [View.read_apply]
  show V m c main_call0_v67 (((cfg0.win 24).blk t).view.emb (ix1 q)) = _
  have hemb : ((cfg0.win 24).blk t).view.emb (ix1 q) = ix1 q := by
    funext a; apply Fin.ext
    match a with
    | ⟨0, _⟩ => show win0_24.index t (0 : Fin 1) * 172 + 1 * q.val = q.val; rw [e0]; omega
  rw [hemb]
  exact HostArrs.arr_v67 (fun b => m (c, b)) q

end Cert.KernelIdeal.Blocks

end
-- ==== Proof.Blocks.lean ====
/-
  From blocks to the array. The region walks the 100000 interactions in 100 blocks of 1000 rows. At point t the
  first four windows hold rows 1000 t … 1000 t + 999 of the gathered source, destination and edge rows and of
  the elapsed times; the other input windows hold the weights whole, at every point. So row p of the blocks at
  point t is the data of interaction 1000 t + p, the value the body stores at (p, q) is that interaction's
  gated update at q, and the blocks written back tile the result array: the array ends holding, at (r, q), the
  gated update of interaction r at q.
-/
import proofs.«130114_j34711925686554_2_alg».proof.Proof.FrameKI
import proofs.«130114_j34711925686554_2_alg».proof.Proof.KernelRow
import proofs.«130114_j34711925686554_2_alg».proof.Proof.RefRowIn
import proofs.«130114_j34711925686554_2_alg».proof.Proof.BlocksRows
import proofs.«130114_j34711925686554_2_alg».proof.Proof.BlocksW1
import proofs.«130114_j34711925686554_2_alg».proof.Proof.BlocksW2
import proofs.«130114_j34711925686554_2_alg».proof.Proof.BlocksW3
import proofs.«130114_j34711925686554_2_alg».proof.Proof.BlocksW4
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Row

variable (m : (ℓ : Loc nD τ sig) → Buf (Elt Ideal) ℓ)

/-! ## Row p of the blocks at point t is interaction 1000 t + p -/

/-- Two interactions' data agree when every field does. -/
theorem rowIn_ext (I J : MsgGru.RowIn)
    (h_src : I.src = J.src)
    (h_dst : I.dst = J.dst)
    (h_e : I.e = J.e)
    (h_dt : I.dt = J.dt)
    (h_tw : I.tw = J.tw)
    (h_tb : I.tb = J.tb)
    (h_A0 : I.A0 = J.A0)
    (h_A1 : I.A1 = J.A1)
    (h_A2 : I.A2 = J.A2)
    (h_A3 : I.A3 = J.A3)
    (h_b1 : I.b1 = J.b1)
    (h_B : I.B = J.B)
    (h_b2 : I.b2 = J.b2)
    (h_C0 : I.C0 = J.C0)
    (h_C1 : I.C1 = J.C1)
    (h_C2 : I.C2 = J.C2)
    (h_D0 : I.D0 = J.D0)
    (h_D1 : I.D1 = J.D1)
    (h_D2 : I.D2 = J.D2)
    (h_c0 : I.c0 = J.c0)
    (h_c1 : I.c1 = J.c1)
    (h_c2 : I.c2 = J.c2)
    (h_d0 : I.d0 = J.d0)
    (h_d1 : I.d1 = J.d1)
    (h_d2 : I.d2 = J.d2) : I = J := by
  cases I; cases J
  simp only [MsgGru.RowIn.mk.injEq]
  exact ⟨h_src, h_dst, h_e, h_dt, h_tw, h_tb, h_A0, h_A1, h_A2, h_A3, h_b1, h_B, h_b2, h_C0, h_C1, h_C2, h_D0, h_D1, h_D2, h_c0, h_c1, h_c2, h_d0, h_d1, h_d2⟩

/-- Row p of 25 blocks is interaction r's data as soon as each block, read at row p (the weights at every entry),
    is the reference's array read where the per-interaction formula reads it. -/
theorem rows_of_fields (x0 x1 x2 : Vec Ideal S1000x172 .f32) (x3 : Vec Ideal S1000x1 .f32) (x4 x5 : Vec Ideal S1x172 .f32)
    (x6 x7 x8 x9 : Vec Ideal S172x344 .bf16) (x10 : Vec Ideal S344 .f32) (x11 : Vec Ideal S344x100 .bf16) (x12 : Vec Ideal S100 .f32)
    (x13 x14 x15 : Vec Ideal S100x172 .bf16) (x16 x17 x18 : Vec Ideal S172x172 .bf16)
    (x19 x20 x21 x22 x23 x24 : Vec Ideal S172 .f32)
    (y0 : (⟨Cert.ReferenceIdeal.S500000x172, .f32⟩ : BufTy).Contents (Elt Ideal)) (y1 : (⟨Cert.ReferenceIdeal.S500000, .f32⟩ : BufTy).Contents (Elt Ideal))
    (y2 : (⟨Cert.ReferenceIdeal.S500000x172, .f32⟩ : BufTy).Contents (Elt Ideal)) (y3 y4 : (⟨Cert.ReferenceIdeal.S172, .f32⟩ : BufTy).Contents (Elt Ideal))
    (y5 : (⟨Cert.ReferenceIdeal.S344x688, .f32⟩ : BufTy).Contents (Elt Ideal)) (y6 : (⟨Cert.ReferenceIdeal.S344, .f32⟩ : BufTy).Contents (Elt Ideal))
    (y7 : (⟨Cert.ReferenceIdeal.S100x344, .f32⟩ : BufTy).Contents (Elt Ideal)) (y8 : (⟨Cert.ReferenceIdeal.S100, .f32⟩ : BufTy).Contents (Elt Ideal))
    (y9 : (⟨Cert.ReferenceIdeal.S516x100, .f32⟩ : BufTy).Contents (Elt Ideal)) (y10 : (⟨Cert.ReferenceIdeal.S516x172, .f32⟩ : BufTy).Contents (Elt Ideal))
    (y11 y12 : (⟨Cert.ReferenceIdeal.S516, .f32⟩ : BufTy).Contents (Elt Ideal)) (y13 : (⟨Cert.ReferenceIdeal.S100000, .f32⟩ : BufTy).Contents (Elt Ideal))
    (y14 y15 y16 : (⟨Cert.ReferenceIdeal.S100000, .i32⟩ : BufTy).Contents (Elt Ideal))
    (r : Fin 100000) (p : Fin 1000)
    (h_src : ∀ k : Fin 172, x0 (ix2 p k) = Cert.ReferenceIdeal.ReadP.val_main_v6 (F := Ideal) y0 y14 (ix2 r k))
    (h_dst : ∀ k : Fin 172, x1 (ix2 p k) = Cert.ReferenceIdeal.ReadP.val_main_v13 (F := Ideal) y0 y15 (ix2 r k))
    (h_e : ∀ k : Fin 172, x2 (ix2 p k) = Cert.ReferenceIdeal.ReadP.val_main_v20 (F := Ideal) y2 y16 (ix2 r k))
    (h_dt : x3 (ix2 p (0 : Fin 1)) = Cert.ReferenceIdeal.ReadP.val_main_v28 (F := Ideal) y1 y13 y14 (ix1 r))
    (h_tw : ∀ k : Fin 172, x4 (ix2 (0 : Fin 1) k) = y3 (ix1 k))
    (h_tb : ∀ k : Fin 172, x5 (ix2 (0 : Fin 1) k) = y4 (ix1 k))
    (h_A0 : ∀ (k : Fin 172) (j : Fin 344), x6 (ix2 k j) = y5 (ix2 j (MsgGru.off 688 0 (by omega) k)))
    (h_A1 : ∀ (k : Fin 172) (j : Fin 344), x7 (ix2 k j) = y5 (ix2 j (MsgGru.off 688 172 (by omega) k)))
    (h_A2 : ∀ (k : Fin 172) (j : Fin 344), x8 (ix2 k j) = y5 (ix2 j (MsgGru.off 688 344 (by omega) k)))
    (h_A3 : ∀ (k : Fin 172) (j : Fin 344), x9 (ix2 k j) = y5 (ix2 j (MsgGru.off 688 516 (by omega) k)))
    (h_b1 : ∀ j : Fin 344, x10 (ix1 j) = y6 (ix1 j))
    (h_B : ∀ (j : Fin 344) (l : Fin 100), x11 (ix2 j l) = y7 (ix2 l j))
    (h_b2 : ∀ l : Fin 100, x12 (ix1 l) = y8 (ix1 l))
    (h_C0 : ∀ (l : Fin 100) (q : Fin 172), x13 (ix2 l q) = y9 (ix2 (MsgGru.off 516 0 (by omega) q) l))
    (h_C1 : ∀ (l : Fin 100) (q : Fin 172), x14 (ix2 l q) = y9 (ix2 (MsgGru.off 516 172 (by omega) q) l))
    (h_C2 : ∀ (l : Fin 100) (q : Fin 172), x15 (ix2 l q) = y9 (ix2 (MsgGru.off 516 344 (by omega) q) l))
    (h_D0 : ∀ (k : Fin 172) (q : Fin 172), x16 (ix2 k q) = y10 (ix2 (MsgGru.off 516 0 (by omega) q) k))
    (h_D1 : ∀ (k : Fin 172) (q : Fin 172), x17 (ix2 k q) = y10 (ix2 (MsgGru.off 516 172 (by omega) q) k))
    (h_D2 : ∀ (k : Fin 172) (q : Fin 172), x18 (ix2 k q) = y10 (ix2 (MsgGru.off 516 344 (by omega) q) k))
    (h_c0 : ∀ q : Fin 172, x19 (ix1 q) = y11 (ix1 (MsgGru.off 516 0 (by omega) q)))
    (h_c1 : ∀ q : Fin 172, x20 (ix1 q) = y11 (ix1 (MsgGru.off 516 172 (by omega) q)))
    (h_c2 : ∀ q : Fin 172, x21 (ix1 q) = y11 (ix1 (MsgGru.off 516 344 (by omega) q)))
    (h_d0 : ∀ q : Fin 172, x22 (ix1 q) = y12 (ix1 (MsgGru.off 516 0 (by omega) q)))
    (h_d1 : ∀ q : Fin 172, x23 (ix1 q) = y12 (ix1 (MsgGru.off 516 172 (by omega) q)))
    (h_d2 : ∀ q : Fin 172, x24 (ix1 q) = y12 (ix1 (MsgGru.off 516 344 (by omega) q))) :
    rowInK x0 x1 x2 x3 x4 x5 x6 x7 x8 x9 x10 x11 x12 x13 x14 x15 x16 x17 x18 x19 x20 x21 x22 x23 x24 p = Cert.ReferenceIdeal.Rows.rowIn y0 y1 y2 y3 y4 y5 y6 y7 y8 y9 y10 y11 y12 y13 y14 y15 y16 r :=
  rowIn_ext (rowInK x0 x1 x2 x3 x4 x5 x6 x7 x8 x9 x10 x11 x12 x13 x14 x15 x16 x17 x18 x19 x20 x21 x22 x23 x24 p) (Cert.ReferenceIdeal.Rows.rowIn y0 y1 y2 y3 y4 y5 y6 y7 y8 y9 y10 y11 y12 y13 y14 y15 y16 r)
    (funext h_src) (funext h_dst) (funext h_e) h_dt (funext h_tw) (funext h_tb) (funext fun a => funext fun b => h_A0 a b) (funext fun a => funext fun b => h_A1 a b) (funext fun a => funext fun b => h_A2 a b) (funext fun a => funext fun b => h_A3 a b) (funext h_b1) (funext fun a => funext fun b => h_B a b) (funext h_b2) (funext fun a => funext fun b => h_C0 a b) (funext fun a => funext fun b => h_C1 a b) (funext fun a => funext fun b => h_C2 a b) (funext fun a => funext fun b => h_D0 a b) (funext fun a => funext fun b => h_D1 a b) (funext fun a => funext fun b => h_D2 a b) (funext h_c0) (funext h_c1) (funext h_c2) (funext h_d0) (funext h_d1) (funext h_d2)

set_option maxHeartbeats 4000000 in
/-- Row p of the 25 input blocks at point t is what the reference's interaction 1000 t + p reads. -/
theorem rows_eq (c : Dev nD) (t : Fin cfg0.N) (p : Fin 1000) :
    rowInK (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p
      = Cert.ReferenceIdeal.Rows.rowIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (row t p) :=
  rows_of_fields (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (row t p) p
    (blk_src m c t p) (blk_dst m c t p) (blk_edge m c t p) (blk_dt m c t p) (blk_tw m c t) (blk_tb m c t) (blk_A0 m c t) (blk_A1 m c t) (blk_A2 m c t) (blk_A3 m c t) (blk_b1 m c t) (blk_B m c t) (blk_b2 m c t) (blk_C0 m c t) (blk_C1 m c t) (blk_C2 m c t) (blk_D0 m c t) (blk_D1 m c t) (blk_D2 m c t) (blk_c0 m c t) (blk_c1 m c t) (blk_c2 m c t) (blk_d0 m c t) (blk_d1 m c t) (blk_d2 m c t)

/-! ## The array the region leaves -/

/-- The result array: at (r, q), the gated update of interaction r at q, from the 17 argument arrays. -/
def G (y0 : (⟨Cert.ReferenceIdeal.S500000x172, .f32⟩ : BufTy).Contents (Elt Ideal)) (y1 : (⟨Cert.ReferenceIdeal.S500000, .f32⟩ : BufTy).Contents (Elt Ideal))
    (y2 : (⟨Cert.ReferenceIdeal.S500000x172, .f32⟩ : BufTy).Contents (Elt Ideal)) (y3 y4 : (⟨Cert.ReferenceIdeal.S172, .f32⟩ : BufTy).Contents (Elt Ideal))
    (y5 : (⟨Cert.ReferenceIdeal.S344x688, .f32⟩ : BufTy).Contents (Elt Ideal)) (y6 : (⟨Cert.ReferenceIdeal.S344, .f32⟩ : BufTy).Contents (Elt Ideal))
    (y7 : (⟨Cert.ReferenceIdeal.S100x344, .f32⟩ : BufTy).Contents (Elt Ideal)) (y8 : (⟨Cert.ReferenceIdeal.S100, .f32⟩ : BufTy).Contents (Elt Ideal))
    (y9 : (⟨Cert.ReferenceIdeal.S516x100, .f32⟩ : BufTy).Contents (Elt Ideal)) (y10 : (⟨Cert.ReferenceIdeal.S516x172, .f32⟩ : BufTy).Contents (Elt Ideal))
    (y11 y12 : (⟨Cert.ReferenceIdeal.S516, .f32⟩ : BufTy).Contents (Elt Ideal)) (y13 : (⟨Cert.ReferenceIdeal.S100000, .f32⟩ : BufTy).Contents (Elt Ideal))
    (y14 y15 y16 : (⟨Cert.ReferenceIdeal.S100000, .i32⟩ : BufTy).Contents (Elt Ideal)) :
    (⟨Cert.ReferenceIdeal.S100000x172, .f32⟩ : BufTy).Contents (Elt Ideal) :=
  fun i => MsgGru.hnew (Cert.ReferenceIdeal.Rows.rowIn y0 y1 y2 y3 y4 y5 y6 y7 y8 y9 y10 y11 y12 y13 y14 y15 y16 ⟨(i 0).val, (i 0).isLt⟩) ⟨(i 1).val, (i 1).isLt⟩

/-- The result array at an index whose coordinates are r and q. -/
theorem G_at (y0 : (⟨Cert.ReferenceIdeal.S500000x172, .f32⟩ : BufTy).Contents (Elt Ideal)) (y1 : (⟨Cert.ReferenceIdeal.S500000, .f32⟩ : BufTy).Contents (Elt Ideal))
    (y2 : (⟨Cert.ReferenceIdeal.S500000x172, .f32⟩ : BufTy).Contents (Elt Ideal)) (y3 y4 : (⟨Cert.ReferenceIdeal.S172, .f32⟩ : BufTy).Contents (Elt Ideal))
    (y5 : (⟨Cert.ReferenceIdeal.S344x688, .f32⟩ : BufTy).Contents (Elt Ideal)) (y6 : (⟨Cert.ReferenceIdeal.S344, .f32⟩ : BufTy).Contents (Elt Ideal))
    (y7 : (⟨Cert.ReferenceIdeal.S100x344, .f32⟩ : BufTy).Contents (Elt Ideal)) (y8 : (⟨Cert.ReferenceIdeal.S100, .f32⟩ : BufTy).Contents (Elt Ideal))
    (y9 : (⟨Cert.ReferenceIdeal.S516x100, .f32⟩ : BufTy).Contents (Elt Ideal)) (y10 : (⟨Cert.ReferenceIdeal.S516x172, .f32⟩ : BufTy).Contents (Elt Ideal))
    (y11 y12 : (⟨Cert.ReferenceIdeal.S516, .f32⟩ : BufTy).Contents (Elt Ideal)) (y13 : (⟨Cert.ReferenceIdeal.S100000, .f32⟩ : BufTy).Contents (Elt Ideal))
    (y14 y15 y16 : (⟨Cert.ReferenceIdeal.S100000, .i32⟩ : BufTy).Contents (Elt Ideal))
    (i : Cert.ReferenceIdeal.S100000x172.Idx) (r : Fin 100000) (q : Fin 172) (h0 : (i 0).val = r.val) (h1 : (i 1).val = q.val) :
    G y0 y1 y2 y3 y4 y5 y6 y7 y8 y9 y10 y11 y12 y13 y14 y15 y16 i = MsgGru.hnew (Cert.ReferenceIdeal.Rows.rowIn y0 y1 y2 y3 y4 y5 y6 y7 y8 y9 y10 y11 y12 y13 y14 y15 y16 r) q := by
  have e0 : (⟨(i 0).val, (i 0).isLt⟩ : Fin 100000) = r := Fin.ext h0
  have e1 : (⟨(i 1).val, (i 1).isLt⟩ : Fin 172) = q := Fin.ext h1
  show MsgGru.hnew (Cert.ReferenceIdeal.Rows.rowIn y0 y1 y2 y3 y4 y5 y6 y7 y8 y9 y10 y11 y12 y13 y14 y15 y16 ⟨(i 0).val, (i 0).isLt⟩) ⟨(i 1).val, (i 1).isLt⟩ = _
  rw [e0, e1]

theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, from 25 input blocks whose rows are interactions r p: at (p, q), the
    gated update of interaction r p at q. -/
theorem block_value (x0 x1 x2 : Vec Ideal S1000x172 .f32) (x3 : Vec Ideal S1000x1 .f32) (x4 x5 : Vec Ideal S1x172 .f32)
    (x6 x7 x8 x9 : Vec Ideal S172x344 .bf16) (x10 : Vec Ideal S344 .f32) (x11 : Vec Ideal S344x100 .bf16) (x12 : Vec Ideal S100 .f32)
    (x13 x14 x15 : Vec Ideal S100x172 .bf16) (x16 x17 x18 : Vec Ideal S172x172 .bf16)
    (x19 x20 x21 x22 x23 x24 : Vec Ideal S172 .f32)
    (y0 : (⟨Cert.ReferenceIdeal.S500000x172, .f32⟩ : BufTy).Contents (Elt Ideal)) (y1 : (⟨Cert.ReferenceIdeal.S500000, .f32⟩ : BufTy).Contents (Elt Ideal))
    (y2 : (⟨Cert.ReferenceIdeal.S500000x172, .f32⟩ : BufTy).Contents (Elt Ideal)) (y3 y4 : (⟨Cert.ReferenceIdeal.S172, .f32⟩ : BufTy).Contents (Elt Ideal))
    (y5 : (⟨Cert.ReferenceIdeal.S344x688, .f32⟩ : BufTy).Contents (Elt Ideal)) (y6 : (⟨Cert.ReferenceIdeal.S344, .f32⟩ : BufTy).Contents (Elt Ideal))
    (y7 : (⟨Cert.ReferenceIdeal.S100x344, .f32⟩ : BufTy).Contents (Elt Ideal)) (y8 : (⟨Cert.ReferenceIdeal.S100, .f32⟩ : BufTy).Contents (Elt Ideal))
    (y9 : (⟨Cert.ReferenceIdeal.S516x100, .f32⟩ : BufTy).Contents (Elt Ideal)) (y10 : (⟨Cert.ReferenceIdeal.S516x172, .f32⟩ : BufTy).Contents (Elt Ideal))
    (y11 y12 : (⟨Cert.ReferenceIdeal.S516, .f32⟩ : BufTy).Contents (Elt Ideal)) (y13 : (⟨Cert.ReferenceIdeal.S100000, .f32⟩ : BufTy).Contents (Elt Ideal))
    (y14 y15 y16 : (⟨Cert.ReferenceIdeal.S100000, .i32⟩ : BufTy).Contents (Elt Ideal))
    (r : Fin 1000 → Fin 100000)
    (h : ∀ p, rowInK x0 x1 x2 x3 x4 x5 x6 x7 x8 x9 x10 x11 x12 x13 x14 x15 x16 x17 x18 x19 x20 x21 x22 x23 x24 p = Cert.ReferenceIdeal.Rows.rowIn y0 y1 y2 y3 y4 y5 y6 y7 y8 y9 y10 y11 y12 y13 y14 y15 y16 (r p)) :
    out0_25 (F := Ideal) x0 x1 x2 x3 x4 x5 x6 x7 x8 x9 x10 x11 x12 x13 x14 x15 x16 x17 x18 x19 x20 x21 x22 x23 x24
      = fun j : S1000x172.Idx => MsgGru.hnew (Cert.ReferenceIdeal.Rows.rowIn y0 y1 y2 y3 y4 y5 y6 y7 y8 y9 y10 y11 y12 y13 y14 y15 y16 (r ⟨(j 0).val, (j 0).isLt⟩)) ⟨(j 1).val, (j 1).isLt⟩ := by
  unfold out0_25
  rw [View.canon_unit_zero hz2]
  simp only [View.ld_unit_zero (S := S1000x172) hz2, View.ld_unit_zero (S := S1000x1) hz2, View.ld_unit_zero (S := S1x172) hz2,
    View.ld_unit_zero (S := S172x344) hz2, View.ld_unit_zero (S := S344) hz1, View.ld_unit_zero (S := S344x100) hz2,
    View.ld_unit_zero (S := S100) hz1, View.ld_unit_zero (S := S100x172) hz2, View.ld_unit_zero (S := S172) hz1,
    View.ld_unit_zero (S := S172x172) hz2]
  funext j
  obtain ⟨p, q, rfl⟩ : ∃ (p : Fin 1000) (q : Fin 172), j = ix2 p q := ⟨j 0, j 1, eq_ix2 j⟩
  rw [pay_hnew, h]

set_option maxHeartbeats 4000000 in
/-- What point t writes back is block t of the result array. -/
theorem flushed_eq (c : Dev nD) (t : Fin cfg0.N) :
    (dats m 0 c).flushed 25 t = ((cfg0.win 25).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show (cfg0.win 25).cut (grid0.coords t) ((dats m 0 c).after 25 t) = _
  rw [after0_25, block_value (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (row t) (rows_eq m c t)]
  obtain ⟨-, -, -, -, -, -, -, -, e0, e1⟩ := idx_rows t
  funext j
  rw [View.read_apply]
  have h0 : ((((cfg0.win 25).blk t).view.emb j) 0).val = (row t ⟨(j 0).val, (j 0).isLt⟩).val := by
    show win0_25.index t (0 : Fin 2) * 1000 + 1 * (j 0).val = 1000 * t.val + (j 0).val; rw [e0]; omega
  have h1 : ((((cfg0.win 25).blk t).view.emb j) 1).val = (⟨(j 1).val, (j 1).isLt⟩ : Fin 172).val := by
    show win0_25.index t (1 : Fin 2) * 172 + 1 * (j 1).val = (j 1).val; rw [e1]; omega
  exact (G_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (((cfg0.win 25).blk t).view.emb j) (row t ⟨(j 0).val, (j 0).isLt⟩) ⟨(j 1).val, (j 1).isLt⟩ h0 h1).symm

/-- An index of the result array is in point t's block iff each coordinate is in the block's range on its axis. -/
theorem mem_blk (t : Fin cfg0.N) (i : S100000x172.Idx) :
    i ∈ ((cfg0.win 25).blk t).view.set ↔ ∀ a : Fin 2, win0_25.index t a * S1000x172.size a ≤ (i a).val ∧ (i a).val < win0_25.index t a * S1000x172.size a + S1000x172.size a := by
  show i ∈ ((View.whole main_call0_v70).slice (win0_25.rect t)).set ↔ _
  rw [View.set_slice_whole, Rect.mem_set_unit]
  exact Iff.rfl

/-- Row r of the result array is written back at point r / 1000. -/
theorem cover (i : S100000x172.Idx) :
    ∃ t : Fin cfg0.N, (cfg0.win 25).flush t = true ∧ i ∈ ((cfg0.win 25).blk t).view.set := by
  have hi0 : (i 0).val < 100000 := (i 0).isLt
  have hi1 : (i 1).val < 172 := (i 1).isLt
  have hN : cfg0.N = 100 := N_0
  obtain ⟨t, ht⟩ : ∃ t : Fin cfg0.N, t.val = (i 0).val / 1000 := ⟨⟨(i 0).val / 1000, by omega⟩, rfl⟩
  obtain ⟨-, -, -, -, -, -, -, -, e0, e1⟩ := idx_rows t
  refine ⟨t, flush0_25 t, ?_⟩
  rw [mem_blk]
  intro a
  match a with
  | ⟨0, _⟩ => show win0_25.index t (0 : Fin 2) * 1000 ≤ (i 0).val ∧ (i 0).val < win0_25.index t (0 : Fin 2) * 1000 + 1000; rw [e0]; omega
  | ⟨1, _⟩ => show win0_25.index t (1 : Fin 2) * 172 ≤ (i 1).val ∧ (i 1).val < win0_25.index t (1 : Fin 2) * 172 + 172; rw [e1]; omega

/-- The result array after the region: at (r, q), the gated update of interaction r at q. -/
theorem final (c : Dev nD) :
    (dats m 0 c).arrAt 25 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (dats m 0 c).arrAt_eq_of_cover 25 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (fun t _ => flushed_eq m c t) cover

end Cert.KernelIdeal.Blocks

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.RefRow.lean ====
/-
  The reference's value at one interaction. Row r of the reference's candidate array — the array of gated updates
  its last scatter writes back — is the per-interaction formula of Spec.lean applied to what interaction r reads
  (RefRowIn.lean). The reference computes every layer for all interactions at once: the time encoding as a cosine of
  broadcast arrays, the raw message as a concatenation of four arrays along the columns, each linear layer as one
  matrix product with a transposed weight plus a broadcast bias, the gates as column slices of two [100000, 516]
  arrays. Read at a fixed row r these are, stage by stage, the sums and products of the formula: a product with a
  transposed weight at (r, j) is the sum over k of row r times row j of the weight; the sum over the 688
  concatenated columns is the sum of its four blocks of 172; a column slice at (r, q) is the sliced array at
  (r, o + q); and the logistic function written with its two ones is the logistic function.
-/
import proofs.«130114_j34711925686554_2_alg».proof.Proof.RefRowIn
import proofs.«130114_j34711925686554_2_alg».proof.Proof.LibTileSums
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.ReadP Idealize.ShloMosaic Idealize.ShloMosaic.ValueIdx MsgGru

/-- A sum over 688 consecutive positions is the sum of its four blocks of 172 positions. -/
theorem sum_four_blocks {M : Type*} [AddCommMonoid M] (f : Fin 688 → M) :
    ∑ c : Fin 688, f c
      = ((∑ k : Fin 172, f (off 688 0 (by norm_num) k) + ∑ k : Fin 172, f (off 688 172 (by norm_num) k))
          + ∑ k : Fin 172, f (off 688 344 (by norm_num) k)) + ∑ k : Fin 172, f (off 688 516 (by norm_num) k) := by
  let g : ℕ → M := fun n => if h : n < 688 then f ⟨n, h⟩ else 0
  have hg : ∀ (n : ℕ) (h : n < 688), g n = f ⟨n, h⟩ := fun n h => dif_pos h
  have h1 : ∑ c : Fin 688, f c = ∑ c : Fin 688, g c.val :=
    Finset.sum_congr rfl fun c _ => (hg c.val c.isLt).symm
  rw [h1, LibTileSums.sum_tiles 4 172 688 (by norm_num) g]
  simp only [Finset.sum_range_succ, Finset.sum_range_zero, zero_add]
  have blk : ∀ (o m : ℕ) (ho : o + 172 ≤ 688) (hm : 172 * m = o),
      ∑ k : Fin 172, g (172 * m + k.val) = ∑ k : Fin 172, f (off 688 o ho k) := fun o m ho hm =>
    Finset.sum_congr rfl fun k _ => by
      have hk := k.isLt
      rw [hg (172 * m + k.val) (by omega)]
      exact congrArg f (Fin.ext (by show 172 * m + k.val = o + k.val; omega))
  rw [blk 0 0 (by norm_num) rfl, blk 172 1 (by norm_num) rfl, blk 344 2 (by norm_num) rfl, blk 516 3 (by norm_num) rfl]

variable (x0 : (⟨S500000x172, .f32⟩ : BufTy).Contents (Elt Ideal)) (x1 : (⟨S500000, .f32⟩ : BufTy).Contents (Elt Ideal))
  (x2 : (⟨S500000x172, .f32⟩ : BufTy).Contents (Elt Ideal)) (x3 x4 : (⟨S172, .f32⟩ : BufTy).Contents (Elt Ideal))
  (x5 : (⟨S344x688, .f32⟩ : BufTy).Contents (Elt Ideal)) (x6 : (⟨S344, .f32⟩ : BufTy).Contents (Elt Ideal))
  (x7 : (⟨S100x344, .f32⟩ : BufTy).Contents (Elt Ideal)) (x8 : (⟨S100, .f32⟩ : BufTy).Contents (Elt Ideal))
  (x9 : (⟨S516x100, .f32⟩ : BufTy).Contents (Elt Ideal)) (x10 : (⟨S516x172, .f32⟩ : BufTy).Contents (Elt Ideal))
  (x11 x12 : (⟨S516, .f32⟩ : BufTy).Contents (Elt Ideal)) (x13 : (⟨S100000, .f32⟩ : BufTy).Contents (Elt Ideal))
  (x14 x15 x16 : (⟨S100000, .i32⟩ : BufTy).Contents (Elt Ideal))

/-- The time encoding at (r, k): the cosine of the elapsed time of interaction r times the k-th frequency plus the k-th
    phase, the three broadcasts read at their one source element. -/
theorem phi_eq (r : Fin 100000) (k : Fin 172) :
    val_main_v37 (F := Ideal) x1 x3 x4 x13 x14 (ix2 r k) = MsgGru.phi (rowIn x0 x1 x2 x3 x4 x5 x6 x7 x8 x9 x10 x11 x12 x13 x14 x15 x16 r) k := by
  rw [val_main_v37_apply, val_main_v36_apply, val_main_v33_apply, val_main_v31_apply, val_main_v29_apply,
    val_main_v32_apply, val_main_v30_apply, val_main_v35_apply, val_main_v34_apply]
  have e1 : idx_main_v29 (idx_main_v31 (ix2 r k)) = ix1 r := funext fun a => match a with | ⟨0, _⟩ => rfl
  have e2 : idx_main_v30 (idx_main_v32 (ix2 r k)) = ix1 k := funext fun a => match a with | ⟨0, _⟩ => rfl
  have e3 : idx_main_v34 (idx_main_v35 (ix2 r k)) = ix1 k := funext fun a => match a with | ⟨0, _⟩ => rfl
  rw [e1, e2, e3]
  rfl

/-- The raw message's first 172 columns are the source node's memory row. -/
theorem raw_src (r : Fin 100000) (k : Fin 172) :
    val_main_v38 (F := Ideal) x0 x1 x2 x3 x4 x13 x14 x15 x16 (ix2 r (off 688 0 (by norm_num) k))
      = val_main_v6 (F := Ideal) x0 x14 (ix2 r k) := by
  unfold val_main_v38
  generalize val_main_v6 (F := Ideal) x0 x14 = y0
  generalize val_main_v13 (F := Ideal) x0 x15 = y1
  generalize val_main_v20 (F := Ideal) x2 x16 = y2
  generalize val_main_v37 (F := Ideal) x1 x3 x4 x13 x14 = y3
  exact concatenate_apply_piece (1 : Fin S100000x688.rank) _ _ (ix2 r (off 688 0 (by norm_num) k)) 0 (by show (_ : ℕ) < 4; norm_num)
    S100000x172 y0 rfl rfl 0 rfl (ix2 r k)
    (fun b => match b with
      | ⟨0, _⟩ => fun _ => rfl
      | ⟨1, _⟩ => fun h => absurd rfl h)
    rfl

/-- The raw message's columns 172 … 343 are the destination node's memory row. -/
theorem raw_dst (r : Fin 100000) (k : Fin 172) :
    val_main_v38 (F := Ideal) x0 x1 x2 x3 x4 x13 x14 x15 x16 (ix2 r (off 688 172 (by norm_num) k))
      = val_main_v13 (F := Ideal) x0 x15 (ix2 r k) := by
  unfold val_main_v38
  generalize val_main_v6 (F := Ideal) x0 x14 = y0
  generalize val_main_v13 (F := Ideal) x0 x15 = y1
  generalize val_main_v20 (F := Ideal) x2 x16 = y2
  generalize val_main_v37 (F := Ideal) x1 x3 x4 x13 x14 = y3
  exact concatenate_apply_piece (1 : Fin S100000x688.rank) _ _ (ix2 r (off 688 172 (by norm_num) k)) 1 (by show (_ : ℕ) < 4; norm_num)
    S100000x172 y1 rfl rfl 172 rfl (ix2 r k)
    (fun b => match b with
      | ⟨0, _⟩ => fun _ => rfl
      | ⟨1, _⟩ => fun h => absurd rfl h)
    rfl

/-- The raw message's columns 344 … 515 are the edge's feature row. -/
theorem raw_e (r : Fin 100000) (k : Fin 172) :
    val_main_v38 (F := Ideal) x0 x1 x2 x3 x4 x13 x14 x15 x16 (ix2 r (off 688 344 (by norm_num) k))
      = val_main_v20 (F := Ideal) x2 x16 (ix2 r k) := by
  unfold val_main_v38
  generalize val_main_v6 (F := Ideal) x0 x14 = y0
  generalize val_main_v13 (F := Ideal) x0 x15 = y1
  generalize val_main_v20 (F := Ideal) x2 x16 = y2
  generalize val_main_v37 (F := Ideal) x1 x3 x4 x13 x14 = y3
  exact concatenate_apply_piece (1 : Fin S100000x688.rank) _ _ (ix2 r (off 688 344 (by norm_num) k)) 2 (by show (_ : ℕ) < 4; norm_num)
    S100000x172 y2 rfl rfl 344 rfl (ix2 r k)
    (fun b => match b with
      | ⟨0, _⟩ => fun _ => rfl
      | ⟨1, _⟩ => fun h => absurd rfl h)
    rfl

/-- The raw message's last 172 columns are the time encoding. -/
theorem raw_phi (r : Fin 100000) (k : Fin 172) :
    val_main_v38 (F := Ideal) x0 x1 x2 x3 x4 x13 x14 x15 x16 (ix2 r (off 688 516 (by norm_num) k))
      = val_main_v37 (F := Ideal) x1 x3 x4 x13 x14 (ix2 r k) := by
  unfold val_main_v38
  generalize val_main_v6 (F := Ideal) x0 x14 = y0
  generalize val_main_v13 (F := Ideal) x0 x15 = y1
  generalize val_main_v20 (F := Ideal) x2 x16 = y2
  generalize val_main_v37 (F := Ideal) x1 x3 x4 x13 x14 = y3
  exact concatenate_apply_piece (1 : Fin S100000x688.rank) _ _ (ix2 r (off 688 516 (by norm_num) k)) 3 (by show (_ : ℕ) < 4; norm_num)
    S100000x172 y3 rfl rfl 516 rfl (ix2 r k)
    (fun b => match b with
      | ⟨0, _⟩ => fun _ => rfl
      | ⟨1, _⟩ => fun h => absurd rfl h)
    rfl

/-- The first layer's product at (r, j): the sum over the 688 raw columns of row r of the raw message times row j of
    the weight (the weight enters transposed). -/
theorem lin1_cols (r : Fin 100000) (j : Fin 344) :
    val_main_v40 (F := Ideal) x0 x1 x2 x3 x4 x5 x13 x14 x15 x16 (ix2 r j)
      = ∑ c : Fin 688, val_main_v38 (F := Ideal) x0 x1 x2 x3 x4 x13 x14 x15 x16 (ix2 r c) * x5 (ix2 j c) := by
  rw [val_main_v40_apply]
  refine Finset.sum_congr rfl fun c _ => ?_
  have e1 : lidx_main_v40 (ix2 r j) c = ix2 r c := funext fun a => match a with | ⟨0, _⟩ => rfl | ⟨1, _⟩ => rfl
  have e2 : idx_main_v39 (ridx_main_v40 (ix2 r j) c) = ix2 j c := funext fun a => match a with | ⟨0, _⟩ => rfl | ⟨1, _⟩ => rfl
  rw [e1, val_main_v39_apply, e2]

/-- The first layer's product at (r, j), by the four blocks of the raw message: the three feature rows' partial
    products and the time encoding's. -/
theorem lin1_eq (r : Fin 100000) (j : Fin 344) :
    val_main_v40 (F := Ideal) x0 x1 x2 x3 x4 x5 x13 x14 x15 x16 (ix2 r j)
      = MsgGru.hidFeat (rowIn x0 x1 x2 x3 x4 x5 x6 x7 x8 x9 x10 x11 x12 x13 x14 x15 x16 r) j + ∑ k : Fin 172, MsgGru.phi (rowIn x0 x1 x2 x3 x4 x5 x6 x7 x8 x9 x10 x11 x12 x13 x14 x15 x16 r) k * (rowIn x0 x1 x2 x3 x4 x5 x6 x7 x8 x9 x10 x11 x12 x13 x14 x15 x16 r).A3 k j := by
  rw [lin1_cols, sum_four_blocks]
  simp only [raw_src, raw_dst, raw_e, raw_phi, phi_eq x0 x1 x2 x3 x4 x5 x6 x7 x8 x9 x10 x11 x12 x13 x14 x15 x16]
  rfl

/-- The hidden layer at (r, j): the product plus the broadcast bias, clipped at the zero word. -/
theorem hid_eq (r : Fin 100000) (j : Fin 344) :
    val_main_v44 (F := Ideal) x0 x1 x2 x3 x4 x5 x6 x13 x14 x15 x16 (ix2 r j) = MsgGru.hid (rowIn x0 x1 x2 x3 x4 x5 x6 x7 x8 x9 x10 x11 x12 x13 x14 x15 x16 r) j := by
  rw [val_main_v44_apply, val_main_v43_apply, val_main_call0_v0_apply, val_main_call0_cst_apply, val_main_v42_apply,
    val_main_v41_apply, lin1_eq x0 x1 x2 x3 x4 x5 x6 x7 x8 x9 x10 x11 x12 x13 x14 x15 x16]
  have e : idx_main_v41 (idx_main_v42 (ix2 r j)) = ix1 j := funext fun a => match a with | ⟨0, _⟩ => rfl
  rw [e]
  rfl

/-- The message layer's product at (r, l): the sum over the 344 hidden units of the hidden layer times row l of the
    weight. -/
theorem lin2_eq (r : Fin 100000) (l : Fin 100) :
    val_main_v46 (F := Ideal) x0 x1 x2 x3 x4 x5 x6 x7 x13 x14 x15 x16 (ix2 r l) = ∑ j : Fin 344, MsgGru.hid (rowIn x0 x1 x2 x3 x4 x5 x6 x7 x8 x9 x10 x11 x12 x13 x14 x15 x16 r) j * (rowIn x0 x1 x2 x3 x4 x5 x6 x7 x8 x9 x10 x11 x12 x13 x14 x15 x16 r).B j l := by
  rw [val_main_v46_apply]
  refine Finset.sum_congr rfl fun j _ => ?_
  have e1 : lidx_main_v46 (ix2 r l) j = ix2 r j := funext fun a => match a with | ⟨0, _⟩ => rfl | ⟨1, _⟩ => rfl
  have e2 : idx_main_v45 (ridx_main_v46 (ix2 r l) j) = ix2 l j := funext fun a => match a with | ⟨0, _⟩ => rfl | ⟨1, _⟩ => rfl
  rw [e1, val_main_v45_apply, e2, hid_eq x0 x1 x2 x3 x4 x5 x6 x7 x8 x9 x10 x11 x12 x13 x14 x15 x16]
  rfl

/-- The message at (r, l). -/
theorem msg_eq (r : Fin 100000) (l : Fin 100) :
    val_main_v49 (F := Ideal) x0 x1 x2 x3 x4 x5 x6 x7 x8 x13 x14 x15 x16 (ix2 r l) = MsgGru.msg (rowIn x0 x1 x2 x3 x4 x5 x6 x7 x8 x9 x10 x11 x12 x13 x14 x15 x16 r) l := by
  rw [val_main_v49_apply, val_main_v48_apply, val_main_v47_apply, lin2_eq x0 x1 x2 x3 x4 x5 x6 x7 x8 x9 x10 x11 x12 x13 x14 x15 x16]
  have e : idx_main_v47 (idx_main_v48 (ix2 r l)) = ix1 l := funext fun a => match a with | ⟨0, _⟩ => rfl
  rw [e]
  rfl

/-- The message's product with the cell's input weight at (r, p), p one of the 516 gate rows. -/
theorem lin3_eq (r : Fin 100000) (p : Fin 516) :
    val_main_v51 (F := Ideal) x0 x1 x2 x3 x4 x5 x6 x7 x8 x9 x13 x14 x15 x16 (ix2 r p) = ∑ l : Fin 100, MsgGru.msg (rowIn x0 x1 x2 x3 x4 x5 x6 x7 x8 x9 x10 x11 x12 x13 x14 x15 x16 r) l * x9 (ix2 p l) := by
  rw [val_main_v51_apply]
  refine Finset.sum_congr rfl fun l _ => ?_
  have e1 : lidx_main_v51 (ix2 r p) l = ix2 r l := funext fun a => match a with | ⟨0, _⟩ => rfl | ⟨1, _⟩ => rfl
  have e2 : idx_main_v50 (ridx_main_v51 (ix2 r p) l) = ix2 p l := funext fun a => match a with | ⟨0, _⟩ => rfl | ⟨1, _⟩ => rfl
  rw [e1, val_main_v50_apply, e2, msg_eq x0 x1 x2 x3 x4 x5 x6 x7 x8 x9 x10 x11 x12 x13 x14 x15 x16]

/-- The message's contribution to the gates at (r, p): the product plus the broadcast bias. -/
theorem gx_eq (r : Fin 100000) (p : Fin 516) :
    val_main_v54 (F := Ideal) x0 x1 x2 x3 x4 x5 x6 x7 x8 x9 x11 x13 x14 x15 x16 (ix2 r p)
      = (∑ l : Fin 100, MsgGru.msg (rowIn x0 x1 x2 x3 x4 x5 x6 x7 x8 x9 x10 x11 x12 x13 x14 x15 x16 r) l * x9 (ix2 p l)) + x11 (ix1 p) := by
  rw [val_main_v54_apply, val_main_v53_apply, val_main_v52_apply, lin3_eq x0 x1 x2 x3 x4 x5 x6 x7 x8 x9 x10 x11 x12 x13 x14 x15 x16]
  have e : idx_main_v52 (idx_main_v53 (ix2 r p)) = ix1 p := funext fun a => match a with | ⟨0, _⟩ => rfl
  rw [e]
  rfl

/-- The source memory's product with the cell's recurrent weight at (r, p). -/
theorem lin4_eq (r : Fin 100000) (p : Fin 516) :
    val_main_v56 (F := Ideal) x0 x10 x14 (ix2 r p)
      = ∑ k : Fin 172, val_main_v6 (F := Ideal) x0 x14 (ix2 r k) * x10 (ix2 p k) := by
  rw [val_main_v56_apply]
  refine Finset.sum_congr rfl fun k _ => ?_
  have e1 : lidx_main_v56 (ix2 r p) k = ix2 r k := funext fun a => match a with | ⟨0, _⟩ => rfl | ⟨1, _⟩ => rfl
  have e2 : idx_main_v55 (ridx_main_v56 (ix2 r p) k) = ix2 p k := funext fun a => match a with | ⟨0, _⟩ => rfl | ⟨1, _⟩ => rfl
  rw [e1, val_main_v55_apply, e2]

/-- The source memory's contribution to the gates at (r, p): the product plus the broadcast bias. -/
theorem gh_eq (r : Fin 100000) (p : Fin 516) :
    val_main_v59 (F := Ideal) x0 x10 x12 x14 (ix2 r p)
      = (∑ k : Fin 172, val_main_v6 (F := Ideal) x0 x14 (ix2 r k) * x10 (ix2 p k)) + x12 (ix1 p) := by
  rw [val_main_v59_apply, val_main_v58_apply, val_main_v57_apply, lin4_eq]
  have e : idx_main_v57 (idx_main_v58 (ix2 r p)) = ix1 p := funext fun a => match a with | ⟨0, _⟩ => rfl
  rw [e]
  rfl

/-- The reset gate's input part: columns 0 … 171 of the message's contribution. -/
theorem gx0_eq (r : Fin 100000) (q : Fin 172) :
    val_main_v60 (F := Ideal) x0 x1 x2 x3 x4 x5 x6 x7 x8 x9 x11 x13 x14 x15 x16 (ix2 r q) = MsgGru.gx0 (rowIn x0 x1 x2 x3 x4 x5 x6 x7 x8 x9 x10 x11 x12 x13 x14 x15 x16 r) q := by
  have e : idx_main_v60 (ix2 r q) = ix2 r (off 516 0 (by norm_num) q) :=
    funext fun a => match a with
      | ⟨0, _⟩ => rfl
      | ⟨1, _⟩ => Fin.ext (by show q.val = 0 + q.val; omega)
  rw [val_main_v60_apply, e, gx_eq x0 x1 x2 x3 x4 x5 x6 x7 x8 x9 x10 x11 x12 x13 x14 x15 x16]
  rfl

/-- The update gate's input part: columns 172 … 343 of the message's contribution. -/
theorem gx1_eq (r : Fin 100000) (q : Fin 172) :
    val_main_v61 (F := Ideal) x0 x1 x2 x3 x4 x5 x6 x7 x8 x9 x11 x13 x14 x15 x16 (ix2 r q) = MsgGru.gx1 (rowIn x0 x1 x2 x3 x4 x5 x6 x7 x8 x9 x10 x11 x12 x13 x14 x15 x16 r) q := by
  have e : idx_main_v61 (ix2 r q) = ix2 r (off 516 172 (by norm_num) q) :=
    funext fun a => match a with
      | ⟨0, _⟩ => rfl
      | ⟨1, _⟩ => Fin.ext (by show 172 + q.val = 172 + q.val; omega)
  rw [val_main_v61_apply, e, gx_eq x0 x1 x2 x3 x4 x5 x6 x7 x8 x9 x10 x11 x12 x13 x14 x15 x16]
  rfl

/-- The candidate's input part: columns 344 … 515 of the message's contribution. -/
theorem gx2_eq (r : Fin 100000) (q : Fin 172) :
    val_main_v62 (F := Ideal) x0 x1 x2 x3 x4 x5 x6 x7 x8 x9 x11 x13 x14 x15 x16 (ix2 r q) = MsgGru.gx2 (rowIn x0 x1 x2 x3 x4 x5 x6 x7 x8 x9 x10 x11 x12 x13 x14 x15 x16 r) q := by
  have e : idx_main_v62 (ix2 r q) = ix2 r (off 516 344 (by norm_num) q) :=
    funext fun a => match a with
      | ⟨0, _⟩ => rfl
      | ⟨1, _⟩ => Fin.ext (by show 344 + q.val = 344 + q.val; omega)
  rw [val_main_v62_apply, e, gx_eq x0 x1 x2 x3 x4 x5 x6 x7 x8 x9 x10 x11 x12 x13 x14 x15 x16]
  rfl

/-- The reset gate's recurrent part: columns 0 … 171 of the source memory's contribution. -/
theorem gh0_eq (r : Fin 100000) (q : Fin 172) :
    val_main_v63 (F := Ideal) x0 x10 x12 x14 (ix2 r q) = MsgGru.gh0 (rowIn x0 x1 x2 x3 x4 x5 x6 x7 x8 x9 x10 x11 x12 x13 x14 x15 x16 r) q := by
  have e : idx_main_v63 (ix2 r q) = ix2 r (off 516 0 (by norm_num) q) :=
    funext fun a => match a with
      | ⟨0, _⟩ => rfl
      | ⟨1, _⟩ => Fin.ext (by show q.val = 0 + q.val; omega)
  rw [val_main_v63_apply, e, gh_eq x0 x10 x12 x14]
  rfl

/-- The update gate's recurrent part: columns 172 … 343 of the source memory's contribution. -/
theorem gh1_eq (r : Fin 100000) (q : Fin 172) :
    val_main_v64 (F := Ideal) x0 x10 x12 x14 (ix2 r q) = MsgGru.gh1 (rowIn x0 x1 x2 x3 x4 x5 x6 x7 x8 x9 x10 x11 x12 x13 x14 x15 x16 r) q := by
  have e : idx_main_v64 (ix2 r q) = ix2 r (off 516 172 (by norm_num) q) :=
    funext fun a => match a with
      | ⟨0, _⟩ => rfl
      | ⟨1, _⟩ => Fin.ext (by show 172 + q.val = 172 + q.val; omega)
  rw [val_main_v64_apply, e, gh_eq x0 x10 x12 x14]
  rfl

/-- The candidate's recurrent part: columns 344 … 515 of the source memory's contribution. -/
theorem gh2_eq (r : Fin 100000) (q : Fin 172) :
    val_main_v65 (F := Ideal) x0 x10 x12 x14 (ix2 r q) = MsgGru.gh2 (rowIn x0 x1 x2 x3 x4 x5 x6 x7 x8 x9 x10 x11 x12 x13 x14 x15 x16 r) q := by
  have e : idx_main_v65 (ix2 r q) = ix2 r (off 516 344 (by norm_num) q) :=
    funext fun a => match a with
      | ⟨0, _⟩ => rfl
      | ⟨1, _⟩ => Fin.ext (by show 344 + q.val = 344 + q.val; omega)
  rw [val_main_v65_apply, e, gh_eq x0 x10 x12 x14]
  rfl

/-- The reset gate at (r, q): the reference writes the logistic function out as 1 / (1 + exp (−x)). -/
theorem rgate_eq (r : Fin 100000) (q : Fin 172) :
    val_main_v72 (F := Ideal) x0 x1 x2 x3 x4 x5 x6 x7 x8 x9 x10 x11 x12 x13 x14 x15 x16 (ix2 r q)
      = Ideal.logistic (MsgGru.gx0 (rowIn x0 x1 x2 x3 x4 x5 x6 x7 x8 x9 x10 x11 x12 x13 x14 x15 x16 r) q + MsgGru.gh0 (rowIn x0 x1 x2 x3 x4 x5 x6 x7 x8 x9 x10 x11 x12 x13 x14 x15 x16 r) q) := by
  rw [val_main_v72_apply, val_main_v71_apply, val_main_cst_7_apply, val_main_v70_apply, val_main_v69_apply,
    val_main_cst_apply, val_main_v68_apply, val_main_v67_apply, val_main_v66_apply, gx0_eq x0 x1 x2 x3 x4 x5 x6 x7 x8 x9 x10 x11 x12 x13 x14 x15 x16, gh0_eq x0 x1 x2 x3 x4 x5 x6 x7 x8 x9 x10 x11 x12 x13 x14 x15 x16]
  exact MsgGru.logistic_spelt _

/-- The update gate at (r, q). -/
theorem zgate_eq (r : Fin 100000) (q : Fin 172) :
    val_main_v79 (F := Ideal) x0 x1 x2 x3 x4 x5 x6 x7 x8 x9 x10 x11 x12 x13 x14 x15 x16 (ix2 r q)
      = Ideal.logistic (MsgGru.gx1 (rowIn x0 x1 x2 x3 x4 x5 x6 x7 x8 x9 x10 x11 x12 x13 x14 x15 x16 r) q + MsgGru.gh1 (rowIn x0 x1 x2 x3 x4 x5 x6 x7 x8 x9 x10 x11 x12 x13 x14 x15 x16 r) q) := by
  rw [val_main_v79_apply, val_main_v78_apply, val_main_cst_9_apply, val_main_v77_apply, val_main_v76_apply,
    val_main_cst_8_apply, val_main_v75_apply, val_main_v74_apply, val_main_v73_apply, gx1_eq x0 x1 x2 x3 x4 x5 x6 x7 x8 x9 x10 x11 x12 x13 x14 x15 x16, gh1_eq x0 x1 x2 x3 x4 x5 x6 x7 x8 x9 x10 x11 x12 x13 x14 x15 x16]
  exact MsgGru.logistic_spelt _

/-- The reference's candidate array at (r, q) is the gated update of interaction r at q. -/
theorem hnew_eq (r : Fin 100000) (q : Fin 172) :
    val_main_v87 (F := Ideal) x0 x1 x2 x3 x4 x5 x6 x7 x8 x9 x10 x11 x12 x13 x14 x15 x16 (ix2 r q) = MsgGru.hnew (rowIn x0 x1 x2 x3 x4 x5 x6 x7 x8 x9 x10 x11 x12 x13 x14 x15 x16 r) q := by
  rw [val_main_v87_apply, val_main_v85_apply, val_main_v86_apply, val_main_v84_apply, val_main_v83_apply,
    val_main_cst_10_apply, val_main_v82_apply, val_main_v81_apply, val_main_v80_apply, zgate_eq x0 x1 x2 x3 x4 x5 x6 x7 x8 x9 x10 x11 x12 x13 x14 x15 x16, rgate_eq x0 x1 x2 x3 x4 x5 x6 x7 x8 x9 x10 x11 x12 x13 x14 x15 x16,
    gx2_eq x0 x1 x2 x3 x4 x5 x6 x7 x8 x9 x10 x11 x12 x13 x14 x15 x16, gh2_eq x0 x1 x2 x3 x4 x5 x6 x7 x8 x9 x10 x11 x12 x13 x14 x15 x16]
  rfl

end Cert.ReferenceIdeal.Rows

end
-- ==== Proof.RefValue.lean ====
/-
  The reference's run, read back. What the reference's result buffer holds after its 131 operations — the fold of
  the operations' results over the launch contents — is the last stage of the stage-by-stage value, the scatter of
  the candidate rows into the memory at the routed row indices, applied to the launch contents of the seventeen
  arguments: each operation's result is its function applied to its operands' results, and the operations of the
  inlined selection carry their operands through a transport along an equation between a buffer's type and itself,
  which is the identity. The candidate rows, as a function of the index, are the per-interaction formula of
  Spec.lean at what the interaction of that row reads.
-/
import proofs.«130114_j34711925686554_2_alg».proof.Proof.RunP
import proofs.«130114_j34711925686554_2_alg».proof.Proof.ReadP
import proofs.«130114_j34711925686554_2_alg».proof.Proof.RefRow

noncomputable section

namespace Cert.ReferenceIdeal.RefValue

open Cert.ReferenceIdeal Cert.ReferenceIdeal.Gen Cert.ReferenceIdeal.ValueP Cert.ReferenceIdeal.ReadP Cert.ReferenceIdeal.Rows
  Idealize.ShloMosaic Idealize.ShloMosaic.TcCoe Idealize.SL.Sem Idealize.ShloMosaic.StableHlo Idealize.ShloMosaic.ValueIdx MsgGru

set_option maxRecDepth 16384 in
set_option maxHeartbeats 52400000 in
/-- The result buffer after the reference's operations, from launch contents `m` on device `c`, is the last stage
    at the launch contents of the arguments. -/
theorem res_eq (m : (ℓ : Loc nD τ sig) → Buf (Elt Ideal) ℓ) (c : Dev nD) :
    after (ops (F := Ideal)) (launchContents m c) (Proc.devRef .tc main_v107)
      = val_main_v107 (F := Ideal)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16)) := by
  after_results_simp
  simp only [TRef.toBuf, TRef.ofBuf, cast_eq]
  rfl

variable (x0 : (⟨S500000x172, .f32⟩ : BufTy).Contents (Elt Ideal)) (x1 : (⟨S500000, .f32⟩ : BufTy).Contents (Elt Ideal))
  (x2 : (⟨S500000x172, .f32⟩ : BufTy).Contents (Elt Ideal)) (x3 x4 : (⟨S172, .f32⟩ : BufTy).Contents (Elt Ideal))
  (x5 : (⟨S344x688, .f32⟩ : BufTy).Contents (Elt Ideal)) (x6 : (⟨S344, .f32⟩ : BufTy).Contents (Elt Ideal))
  (x7 : (⟨S100x344, .f32⟩ : BufTy).Contents (Elt Ideal)) (x8 : (⟨S100, .f32⟩ : BufTy).Contents (Elt Ideal))
  (x9 : (⟨S516x100, .f32⟩ : BufTy).Contents (Elt Ideal)) (x10 : (⟨S516x172, .f32⟩ : BufTy).Contents (Elt Ideal))
  (x11 x12 : (⟨S516, .f32⟩ : BufTy).Contents (Elt Ideal)) (x13 : (⟨S100000, .f32⟩ : BufTy).Contents (Elt Ideal))
  (x14 x15 x16 : (⟨S100000, .i32⟩ : BufTy).Contents (Elt Ideal))

/-- The reference's candidate array as a function of its index: at (r, q) the gated update of interaction r at q. -/
theorem rows_fn :
    val_main_v87 (F := Ideal) x0 x1 x2 x3 x4 x5 x6 x7 x8 x9 x10 x11 x12 x13 x14 x15 x16
      = fun i => MsgGru.hnew (rowIn x0 x1 x2 x3 x4 x5 x6 x7 x8 x9 x10 x11 x12 x13 x14 x15 x16 ⟨(i 0).val, (i 0).isLt⟩) ⟨(i 1).val, (i 1).isLt⟩ := by
  funext i
  obtain ⟨r, q, rfl⟩ : ∃ (r : Fin 100000) (q : Fin 172), i = ix2 r q := ⟨i 0, i 1, eq_ix2 i⟩
  exact hnew_eq x0 x1 x2 x3 x4 x5 x6 x7 x8 x9 x10 x11 x12 x13 x14 x15 x16 r q

end Cert.ReferenceIdeal.RefValue

end
-- ==== Proof.lean ====
/-
  The certificate's claims, assembled.

  The kernel computes, for each of 100000 interactions, the new memory row of the interaction's source node: a
  message from the two nodes' memory rows, the edge's features and an encoding of the elapsed time, passed through
  two dense layers, then one step of a gated recurrent cell on the source node's row. It does so in blocks of
  interactions; the reference does it for all interactions at once. Both then write the rows back into the node
  memory by the same scatter. At exact arithmetic every entry of a new row is one fixed function of the data its
  interaction reads (module Spec). The kernel's blocks are restrictions of the array of these values (modules
  KernelRow, GatherArrs, HostArrs, Blocks), the reference's array of new rows is that same array (modules RefRow,
  RefValue), and the write-back is one function applied, in both programs, to the node memory, the source nodes
  and that array (modules TailFn, Tail, RefValue). So from memories that agree on the seventeen arguments the two
  programs end with the same result. The three frames are the programs' runs with the result forgotten, and the
  idealization rewrote nothing.
-/
import proofs.«130114_j34711925686554_2_alg».proof.Defs
import proofs.«130114_j34711925686554_2_alg».proof.Proof.Gen.Kernel
import proofs.«130114_j34711925686554_2_alg».proof.Proof.Gen.KernelIdeal
import proofs.«130114_j34711925686554_2_alg».proof.Proof.Gen.ReferenceIdeal
import proofs.«130114_j34711925686554_2_alg».proof.Proof.Gen.Pre_finite_inputs
import proofs.«130114_j34711925686554_2_alg».proof.Proof.FrameK
import proofs.«130114_j34711925686554_2_alg».proof.Proof.FrameKI
import proofs.«130114_j34711925686554_2_alg».proof.Proof.RunP
import proofs.«130114_j34711925686554_2_alg».proof.Proof.Tail
import proofs.«130114_j34711925686554_2_alg».proof.Proof.Blocks
import proofs.«130114_j34711925686554_2_alg».proof.Proof.RefValue
import Idealize.ShloMosaic.Adequacy
import Idealize.ShloMosaic.Init

noncomputable section

namespace Cert.Proof

open Idealize.ShloMosaic Idealize.SL.Sem

/-- The value both programs end with on core `c`: the write-back, into the node memory as launched and at the source
    nodes as launched, of the array of per-interaction updates computed from the seventeen arguments as launched. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  Cert.KernelIdeal.Tail.scatterRows (m ((c.tc : Thread Cert.KernelIdeal.nD Cert.KernelIdeal.τ).loc Cert.KernelIdeal.main_arg0))
    (m ((c.tc : Thread Cert.KernelIdeal.nD Cert.KernelIdeal.τ).loc Cert.KernelIdeal.main_arg14))
    (Cert.KernelIdeal.Blocks.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)))

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.ValueP.run (F := Ideal) m ρ),
  trivial,
  fun m ρ m' ρ' _ hagree => ⟨result m,
    (θ_run Cert.KernelIdeal.defs _ _).mono
      (fun _ h c => ⟨(h c).1.trans (congrArg (Cert.KernelIdeal.Tail.scatterRows _ _) (Cert.KernelIdeal.Blocks.final m c)), (h c).2⟩)
      (Cert.KernelIdeal.Tail.run m ρ),
    (θ_run Cert.ReferenceIdeal.defs _ _).mono (fun _ h c => ⟨by
        obtain ⟨h0, h1, h2, h3, h4, h5, h6, h7, h8, h9, h10, h11, h12, h13, h14, h15, h16⟩ := hagree c
        rw [(h c).1, Cert.ReferenceIdeal.RefValue.res_eq m' c, h0, h1, h2, h3, h4, h5, h6, h7, h8, h9, h10, h11, h12, h13, h14, h15, h16]
        exact congrArg (Cert.KernelIdeal.Tail.scatterRows _ _) (Cert.ReferenceIdeal.RefValue.rows_fn _ _ _ _ _ _ _ _ _ _ _ _ _ _ _ _ _), (h c).2⟩)
      (Cert.ReferenceIdeal.ValueP.run (F := Ideal) m' ρ')⟩⟩

end Cert.Proof

end
